-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5 : Shape := ⟨2, ![4096, 5]⟩
abbrev S24 : Shape := ⟨1, ![24]⟩
abbrev S18 : Shape := ⟨1, ![18]⟩
abbrev S2 : Shape := ⟨1, ![2]⟩
abbrev S1750x5 : Shape := ⟨2, ![1750, 5]⟩
abbrev S1750x2 : Shape := ⟨2, ![1750, 2]⟩
abbrev S_ : Shape := ⟨0, ![]⟩

class Facts : Prop where
  bcast_S_S4096x5 : S_.BroadcastsInDim S4096x5 (![] : Fin 0 → Fin S4096x5.rank)
  reducesTo_S4096x5_S_d0_1 : S4096x5.ReducesTo [0, 1] S_
  h_S_ : 0 < S_.numel
  bcast_S_S24 : S_.BroadcastsInDim S24 (![] : Fin 0 → Fin S24.rank)
  reducesTo_S24_S_d0 : S24.ReducesTo [0] S_
  bcast_S_S18 : S_.BroadcastsInDim S18 (![] : Fin 0 → Fin S18.rank)
  reducesTo_S18_S_d0 : S18.ReducesTo [0] S_
  bcast_S_S2 : S_.BroadcastsInDim S2 (![] : Fin 0 → Fin S2.rank)
  reducesTo_S2_S_d0 : S2.ReducesTo [0] S_
  bcast_S_S1750x5 : S_.BroadcastsInDim S1750x5 (![] : Fin 0 → Fin S1750x5.rank)
  reducesTo_S1750x5_S_d0_1 : S1750x5.ReducesTo [0, 1] S_
  bcast_S_S1750x2 : S_.BroadcastsInDim S1750x2 (![] : Fin 0 → Fin S1750x2.rank)
  reducesTo_S1750x2_S_d0_1 : S1750x2.ReducesTo [0, 1] S_

variable [Facts]

def fn_part3 {F : FTy → Type} [FloatOps F] (main_arg7 : IVec S1750x2 32) (main_v48 : IVec S_ 1) (main_c_20 : IVec S_ 32) : IVec S_ 1 :=
  let main_v49 : IVec S1750x2 32 := broadcastInDim S1750x2 ![] bcast_S_S1750x2 main_c_20
  let main_v50 : IVec S1750x2 1 := cmpi .sge main_arg7 main_v49
  let main_c_21 : IVec S_ 1 := constantI S_ 1 1#1
  let main_v51 : IVec S_ 1 := (fun x v => Host.reduce IntOp.andi x v reducesTo_S1750x2_S_d0_1 h_S_) main_v50 main_c_21
  let main_v52 : IVec S_ 1 := andi main_v48 main_v51
  let main_c_22 : IVec S_ 32 := constantI S_ 32 18#32
  let main_v53 : IVec S1750x2 32 := broadcastInDim S1750x2 ![] bcast_S_S1750x2 main_c_22
  let main_v54 : IVec S1750x2 1 := cmpi .slt main_arg7 main_v53
  let main_c_23 : IVec S_ 1 := constantI S_ 1 1#1
  let main_v55 : IVec S_ 1 := (fun x v => Host.reduce IntOp.andi x v reducesTo_S1750x2_S_d0_1 h_S_) main_v54 main_c_23
  let main_v56 : IVec S_ 1 := andi main_v52 main_v55
  main_v56

def fn_part2 {F : FTy → Type} [FloatOps F] (main_arg6 : IVec S1750x5 32) (main_arg7 : IVec S1750x2 32) (main_arg8 : IVec S24 32) (main_v32 : IVec S_ 1) (main_c_12 : IVec S_ 32) : IVec S_ 1 :=
  let main_v33 : IVec S24 32 := broadcastInDim S24 ![] bcast_S_S24 main_c_12
  let main_v34 : IVec S24 1 := cmpi .sge main_arg8 main_v33
  let main_c_13 : IVec S_ 1 := constantI S_ 1 1#1
  let main_v35 : IVec S_ 1 := (fun x v => Host.reduce IntOp.andi x v reducesTo_S24_S_d0 h_S_) main_v34 main_c_13
  let main_v36 : IVec S_ 1 := andi main_v32 main_v35
  let main_c_14 : IVec S_ 32 := constantI S_ 32 5#32
  let main_v37 : IVec S24 32 := broadcastInDim S24 ![] bcast_S_S24 main_c_14
  let main_v38 : IVec S24 1 := cmpi .slt main_arg8 main_v37
  let main_c_15 : IVec S_ 1 := constantI S_ 1 1#1
  let main_v39 : IVec S_ 1 := (fun x v => Host.reduce IntOp.andi x v reducesTo_S24_S_d0 h_S_) main_v38 main_c_15
  let main_v40 : IVec S_ 1 := andi main_v36 main_v39
  let main_c_16 : IVec S_ 32 := constantI S_ 32 0#32
  let main_v41 : IVec S1750x5 32 := broadcastInDim S1750x5 ![] bcast_S_S1750x5 main_c_16
  let main_v42 : IVec S1750x5 1 := cmpi .sge main_arg6 main_v41
  let main_c_17 : IVec S_ 1 := constantI S_ 1 1#1
  let main_v43 : IVec S_ 1 := (fun x v => Host.reduce IntOp.andi x v reducesTo_S1750x5_S_d0_1 h_S_) main_v42 main_c_17
  let main_v44 : IVec S_ 1 := andi main_v40 main_v43
  let main_c_18 : IVec S_ 32 := constantI S_ 32 24#32
  let main_v45 : IVec S1750x5 32 := broadcastInDim S1750x5 ![] bcast_S_S1750x5 main_c_18
  let main_v46 : IVec S1750x5 1 := cmpi .slt main_arg6 main_v45
  let main_c_19 : IVec S_ 1 := constantI S_ 1 1#1
  let main_v47 : IVec S_ 1 := (fun x v => Host.reduce IntOp.andi x v reducesTo_S1750x5_S_d0_1 h_S_) main_v46 main_c_19
  let main_v48 : IVec S_ 1 := andi main_v44 main_v47
  let main_c_20 : IVec S_ 32 := constantI S_ 32 0#32
  fn_part3 (F := F) main_arg7 main_v48 main_c_20

def fn_part1 {F : FTy → Type} [FloatOps F] (main_arg2 : FVec F S24 .f32) (main_arg4 : FVec F S2 .f32) (main_arg5 : FVec F S2 .f32) (main_arg6 : IVec S1750x5 32) (main_arg7 : IVec S1750x2 32) (main_arg8 : IVec S24 32) (main_v13 : IVec S_ 1) (main_v16 : IVec S18 1) : IVec S_ 1 :=
  let main_c_5 : IVec S_ 1 := constantI S_ 1 1#1
  let main_v17 : IVec S_ 1 := (fun x v => Host.reduce IntOp.andi x v reducesTo_S18_S_d0 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_cst_10 : FVec F S_ .f32 := constant S_ .f32 0x00000000#32
  let main_v29 : FVec F S24 .f32 := broadcastInDim S24 ![] bcast_S_S24 main_cst_10
  let main_v30 : IVec S24 1 := cmpf .une main_arg2 main_v29
  let main_c_11 : IVec S_ 1 := constantI S_ 1 1#1
  let main_v31 : IVec S_ 1 := (fun x v => Host.reduce IntOp.andi x v reducesTo_S24_S_d0 h_S_) main_v30 main_c_11
  let main_v32 : IVec S_ 1 := andi main_v28 main_v31
  let main_c_12 : IVec S_ 32 := constantI S_ 32 0#32
  fn_part2 (F := F) main_arg6 main_arg7 main_arg8 main_v32 main_c_12

def fn {F : FTy → Type} [FloatOps F] (main_arg0 : FVec F S4096x5 .f32) (main_arg1 : FVec F S24 .f32) (main_arg2 : FVec F S24 .f32) (main_arg3 : FVec F S18 .f32) (main_arg4 : FVec F S2 .f32) (main_arg5 : FVec F S2 .f32) (main_arg6 : IVec S1750x5 32) (main_arg7 : IVec S1750x2 32) (main_arg8 : IVec S24 32) : IVec S_ 1 :=
  let main_v0 : FVec F S4096x5 .f32 := Host.absf main_arg0
  let main_cst : FVec F S_ .f32 := constant S_ .f32 0x7F800000#32
  let main_v1 : FVec F S4096x5 .f32 := broadcastInDim S4096x5 ![] bcast_S_S4096x5 main_cst
  let main_v2 : IVec S4096x5 1 := cmpf .olt main_v0 main_v1
  let main_c : IVec S_ 1 := constantI S_ 1 1#1
  let main_v3 : IVec S_ 1 := (fun x v => Host.reduce IntOp.andi x v reducesTo_S4096x5_S_d0_1 h_S_) main_v2 main_c
  let main_v4 : FVec F S24 .f32 := Host.absf main_arg1
  let main_cst_0 : FVec F S_ .f32 := constant S_ .f32 0x7F800000#32
  let main_v5 : FVec F S24 .f32 := broadcastInDim S24 ![] bcast_S_S24 main_cst_0
  let main_v6 : IVec S24 1 := cmpf .olt main_v4 main_v5
  let main_c_1 : IVec S_ 1 := constantI S_ 1 1#1
  let main_v7 : IVec S_ 1 := (fun x v => Host.reduce IntOp.andi x v reducesTo_S24_S_d0 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S18 .f32 := Host.absf main_arg3
  let main_cst_4 : FVec F S_ .f32 := constant S_ .f32 0x7F800000#32
  let main_v15 : FVec F S18 .f32 := broadcastInDim S18 ![] bcast_S_S18 main_cst_4
  let main_v16 : IVec S18 1 := cmpf .olt main_v14 main_v15
  fn_part1 (F := F) main_arg2 main_arg4 main_arg5 main_arg6 main_arg7 main_arg8 main_v13 main_v16
-- ==== Kernel.lean ====
abbrev S4096x5 : Shape := ⟨2, ![4096, 5]⟩
abbrev S24 : Shape := ⟨1, ![24]⟩
abbrev S18 : Shape := ⟨1, ![18]⟩
abbrev S2 : Shape := ⟨1, ![2]⟩
abbrev S1750x5 : Shape := ⟨2, ![1750, 5]⟩
abbrev S1750x2 : Shape := ⟨2, ![1750, 2]⟩
abbrev S_ : Shape := ⟨0, ![]⟩
abbrev S8x1792 : Shape := ⟨2, ![8, 1792]⟩
abbrev S5x1750 : Shape := ⟨2, ![5, 1750]⟩
abbrev S1 : Shape := ⟨1, ![1]⟩
abbrev S2x1750 : Shape := ⟨2, ![2, 1750]⟩
abbrev S1x24 : Shape := ⟨2, ![1, 24]⟩
abbrev S1x18 : Shape := ⟨2, ![1, 18]⟩
abbrev S1x2 : Shape := ⟨2, ![1, 2]⟩
abbrev S4096x2 : Shape := ⟨2, ![4096, 2]⟩
abbrev S512x5 : Shape := ⟨2, ![512, 5]⟩
abbrev S512x2 : Shape := ⟨2, ![512, 2]⟩
abbrev S5x24 : Shape := ⟨2, ![5, 24]⟩
abbrev S512x24 : Shape := ⟨2, ![512, 24]⟩
abbrev S1x1792 : Shape := ⟨2, ![1, 1792]⟩
abbrev S1792 : Shape := ⟨1, ![1792]⟩
abbrev S24x1792 : Shape := ⟨2, ![24, 1792]⟩
abbrev S512x1792 : Shape := ⟨2, ![512, 1792]⟩
abbrev S512 : Shape := ⟨1, ![512]⟩
abbrev S512x1 : Shape := ⟨2, ![512, 1]⟩
abbrev S1792x1 : Shape := ⟨2, ![1792, 1]⟩
abbrev S1792x18 : Shape := ⟨2, ![1792, 18]⟩
abbrev S1792x2 : Shape := ⟨2, ![1792, 2]⟩

abbrev nBuf : Space → Nat
  | .hbm => 34
  | .vmem => 12
  | .smem => 0
  | _ => 0

abbrev bufTy : (tb : Table) → Fin (tcTables nBuf tb) → BufTy
  | .hbm, ⟨0, _⟩ => ⟨S4096x5, .f32⟩
  | .hbm, ⟨1, _⟩ => ⟨S24, .f32⟩
  | .hbm, ⟨2, _⟩ => ⟨S24, .f32⟩
  | .hbm, ⟨3, _⟩ => ⟨S18, .f32⟩
  | .hbm, ⟨4, _⟩ => ⟨S2, .f32⟩
  | .hbm, ⟨5, _⟩ => ⟨S2, .f32⟩
  | .hbm, ⟨6, _⟩ => ⟨S1750x5, .i32⟩
  | .hbm, ⟨7, _⟩ => ⟨S1750x2, .i32⟩
  | .hbm, ⟨8, _⟩ => ⟨S24, .i32⟩
  | .hbm, ⟨9, _⟩ => ⟨S_, .i32⟩
  | .hbm, ⟨10, _⟩ => ⟨S8x1792, .i32⟩
  | .hbm, ⟨11, _⟩ => ⟨S5x1750, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x1792, .i32⟩
  | .hbm, ⟨18, _⟩ => ⟨S_, .i32⟩
  | .hbm, ⟨19, _⟩ => ⟨S8x1792, .i32⟩
  | .hbm, ⟨20, _⟩ => ⟨S2x1750, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x1792, .i32⟩
  | .hbm, ⟨27, _⟩ => ⟨S1x24, .f32⟩
  | .hbm, ⟨28, _⟩ => ⟨S1x24, .f32⟩
  | .hbm, ⟨29, _⟩ => ⟨S1x18, .f32⟩
  | .hbm, ⟨30, _⟩ => ⟨S1x24, .i32⟩
  | .hbm, ⟨31, _⟩ => ⟨S1x2, .f32⟩
  | .hbm, ⟨32, _⟩ => ⟨S1x2, .f32⟩
  | .hbm, ⟨33, _⟩ => ⟨S4096x2, .f32⟩
  | .local _ .vmem, ⟨0, _⟩ => ⟨S512x5, .f32⟩
  | .local _ .vmem, ⟨1, _⟩ => ⟨S512x5, .f32⟩
  | .local _ .vmem, ⟨2, _⟩ => ⟨S1x24, .f32⟩
  | .local _ .vmem, ⟨3, _⟩ => ⟨S1x24, .f32⟩
  | .local _ .vmem, ⟨4, _⟩ => ⟨S1x18, .f32⟩
  | .local _ .vmem, ⟨5, _⟩ => ⟨S1x2, .f32⟩
  | .local _ .vmem, ⟨6, _⟩ => ⟨S1x2, .f32⟩
  | .local _ .vmem, ⟨7, _⟩ => ⟨S8x1792, .i32⟩
  | .local _ .vmem, ⟨8, _⟩ => ⟨S8x1792, .i32⟩
  | .local _ .vmem, ⟨9, _⟩ => ⟨S1x24, .i32⟩
  | .local _ .vmem, ⟨10, _⟩ => ⟨S512x2, .f32⟩
  | .local _ .vmem, ⟨11, _⟩ => ⟨S512x2, .f32⟩
  | _, _ => ⟨S4096x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1792 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1792 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x24 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S8x1792 : S_.BroadcastsInDim S8x1792 (![] : Fin 0 → Fin S8x1792.rank)
  transposes_S1750x5_S5x1750_1_0 : S1750x5.Transposes [1, 0] S5x1750
  bcast_S_S1 : S_.BroadcastsInDim S1 (![] : Fin 0 → Fin S1.rank)
  concatenates_S1_S1_S2_d0 : Shape.Concatenates [S1, S1] S2 0
  transposes_S1750x2_S2x1750_1_0 : S1750x2.Transposes [1, 0] S2x1750
  shapeCasts_S24_S1x24 : S24.ShapeCasts S1x24
  shapeCasts_S18_S1x18 : S18.ShapeCasts S1x18
  shapeCasts_S2_S1x2 : S2.ShapeCasts S1x2
  inb_S1x24_S1x24_0_0 : ∀ a, (![0, 0] : Fin 2 → Nat) a + S1x24.size a ≤ S1x24.size a
  h_S1x24 : 0 < S1x24.numel
  shapeCasts_S1x24_S24 : S1x24.ShapeCasts S24
  iota_S5x24_d0_w32 : S5x24.Iotas .tc 32 [0]
  broadcasts_S1x24_S5x24 : S1x24.Broadcasts S5x24
  natLt_1_32 : 1 < 32
  inb_S512x5_S512x5_0_0 : ∀ a, (![0, 0] : Fin 2 → Nat) a + S512x5.size a ≤ S512x5.size a
  h_S512x5 : 0 < S512x5.numel
  broadcasts_S1x24_S512x24 : S1x24.Broadcasts S512x24
  inb_S8x1792_S1x1792_0_0 : ∀ a, (![0, 0] : Fin 2 → Nat) a + S1x1792.size a ≤ S8x1792.size a
  h_S1x1792 : 0 < S1x1792.numel
  shapeCasts_S1x1792_S1792 : S1x1792.ShapeCasts S1792
  iota_S24x1792_d0_w32 : S24x1792.Iotas .tc 32 [0]
  shapeCasts_S1792_S1x1792 : S1792.ShapeCasts S1x1792
  broadcasts_S1x1792_S24x1792 : S1x1792.Broadcasts S24x1792
  inb_S8x1792_S1x1792_1_0 : ∀ a, (![1, 0] : Fin 2 → Nat) a + S1x1792.size a ≤ S8x1792.size a
  inb_S8x1792_S1x1792_2_0 : ∀ a, (![2, 0] : Fin 2 → Nat) a + S1x1792.size a ≤ S8x1792.size a
  inb_S8x1792_S1x1792_3_0 : ∀ a, (![3, 0] : Fin 2 → Nat) a + S1x1792.size a ≤ S8x1792.size a
  inb_S8x1792_S1x1792_4_0 : ∀ a, (![4, 0] : Fin 2 → Nat) a + S1x1792.size a ≤ S8x1792.size a
  reduces_S512x1792_S512 : S512x1792.Reduces [1] S512
  shapeCasts_S512_S512x1 : S512.ShapeCasts S512x1
  inb_S1x18_S1x18_0_0 : ∀ a, (![0, 0] : Fin 2 → Nat) a + S1x18.size a ≤ S1x18.size a
  h_S1x18 : 0 < S1x18.numel
  shapeCasts_S1x18_S18 : S1x18.ShapeCasts S18
  shapeCasts_S1792_S1792x1 : S1792.ShapeCasts S1792x1
  iota_S1792x18_d1_w32 : S1792x18.Iotas .tc 32 [1]
  broadcasts_S1792x1_S1792x18 : S1792x1.Broadcasts S1792x18
  broadcasts_S1x18_S1792x18 : S1x18.Broadcasts S1792x18
  reduces_S1792x18_S1792 : S1792x18.Reduces [1] S1792
  concatenates_S1792x1_S1792x1_S1792x2_d1 : Shape.Concatenates [S1792x1, S1792x1] S1792x2 1
  broadcasts_S512x1_S512x2 : S512x1.Broadcasts S512x2
  inb_S1x2_S1x2_0_0 : ∀ a, (![0, 0] : Fin 2 → Nat) a + S1x2.size a ≤ S1x2.size a
  h_S1x2 : 0 < S1x2.numel
  shapeCasts_S1x2_S2 : S1x2.ShapeCasts S2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S8x1792_S2_S5x1750_01_n_01_0_wf : ScatterDims.WF S8x1792 S2 S5x1750 [0, 1] [] [0, 1] 0
  scatter_S8x1792_S2_S2x1750_01_n_01_0_wf : ScatterDims.WF S8x1792 S2 S2x1750 [0, 1] [] [0, 1] 0
  dot_S512x5_S5x24_S512x24_1_0_0_1_n_n_wf : DotDims.WF S512x5 S5x24 S512x24 [1] [0] [0] [1] [] []
  dot_S512x24_S24x1792_S512x1792_1_0_0_1_n_n_wf : DotDims.WF S512x24 S24x1792 S512x1792 [1] [0] [0] [1] [] []
  dot_S512x1792_S1792x2_S512x2_1_0_0_1_n_n_wf : DotDims.WF S512x1792 S1792x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5.size a ≤ S4096x5.size a
  hwx0_0 : ∀ i : grid0.Coords, EltTy.bits .f32 = 32 ∨ (Rect.block (s := S4096x5) S512x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x24.size a ≤ S1x24.size a
  hwx0_1 : ∀ i : grid0.Coords, EltTy.bits .f32 = 32 ∨ (Rect.block (s := S1x24) S1x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x18.size a ≤ S1x18.size a
  hwx0_3 : ∀ i : grid0.Coords, EltTy.bits .f32 = 32 ∨ (Rect.block (s := S1x18) S1x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1792.size a ≤ S8x1792.size a
  hwx0_6 : ∀ i : grid0.Coords, EltTy.bits .i32 = 32 ∨ (Rect.block (s := S8x1792) S8x1792.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1792.size a ≤ S8x1792.size a
  hwx0_7 : ∀ i : grid0.Coords, EltTy.bits .i32 = 32 ∨ (Rect.block (s := S8x1792) S8x1792.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x24.size a ≤ S1x24.size a
  hwx0_8 : ∀ i : grid0.Coords, EltTy.bits .i32 = 32 ∨ (Rect.block (s := S1x24) S1x24.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2.size a ≤ S4096x2.size a
  hwx0_9 : ∀ i : grid0.Coords, EltTy.bits .f32 = 32 ∨ (Rect.block (s := S4096x2) S512x2.size (cc0_transform_9 i) (hinb0_9 i)).WholeWords (EltTy.packing .f32)

variable [Facts₀]

def scatter_S8x1792_S2_S5x1750_01_n_01_0 : ScatterDims S8x1792 S2 S5x1750 where
  updateWindowDims := [0, 1]
  insertedWindowDims := []
  scatterDimsToOperandDims := [0, 1]
  indexVectorDim := 0
  wf := scatter_S8x1792_S2_S5x1750_01_n_01_0_wf
def scatter_S8x1792_S2_S2x1750_01_n_01_0 : ScatterDims S8x1792 S2 S2x1750 where
  updateWindowDims := [0, 1]
  insertedWindowDims := []
  scatterDimsToOperandDims := [0, 1]
  indexVectorDim := 0
  wf := scatter_S8x1792_S2_S2x1750_01_n_01_0_wf
def dot_S512x5_S5x24_S512x24_1_0_0_1_n_n : DotDims S512x5 S5x24 S512x24 where
  lhsContracting := [1]
  rhsContracting := [0]
  lhsNonContracting := [0]
  rhsNonContracting := [1]
  lhsBatch := []
  rhsBatch := []
  wf := dot_S512x5_S5x24_S512x24_1_0_0_1_n_n_wf
def dot_S512x24_S24x1792_S512x1792_1_0_0_1_n_n : DotDims S512x24 S24x1792 S512x1792 where
  lhsContracting := [1]
  rhsContracting := [0]
  lhsNonContracting := [0]
  rhsNonContracting := [1]
  lhsBatch := []
  rhsBatch := []
  wf := dot_S512x24_S24x1792_S512x1792_1_0_0_1_n_n_wf
def dot_S512x1792_S1792x2_S512x2_1_0_0_1_n_n : DotDims S512x1792 S1792x2 S512x2 where
  lhsContracting := [1]
  rhsContracting := [0]
  lhsNonContracting := [0]
  rhsNonContracting := [1]
  lhsBatch := []
  rhsBatch := []
  wf := dot_S512x1792_S1792x2_S512x2_1_0_0_1_n_n_wf

abbrev win0_0 : Pipeline.Window sig grid0 :=
  Pipeline.Window.ofSpec (Memref.whole main_arg0) S512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S8x1792.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S8x1792.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x24.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S512x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x5 : Shape := ⟨2, ![4096, 5]⟩
abbrev S24 : Shape := ⟨1, ![24]⟩
abbrev S18 : Shape := ⟨1, ![18]⟩
abbrev S2 : Shape := ⟨1, ![2]⟩
abbrev S1750x5 : Shape := ⟨2, ![1750, 5]⟩
abbrev S1750x2 : Shape := ⟨2, ![1750, 2]⟩
abbrev S_ : Shape := ⟨0, ![]⟩
abbrev S24x1 : Shape := ⟨2, ![24, 1]⟩
abbrev S1 : Shape := ⟨1, ![1]⟩
abbrev S1x1 : Shape := ⟨2, ![1, 1]⟩
abbrev S4096x24 : Shape := ⟨2, ![4096, 24]⟩
abbrev S1x24 : Shape := ⟨2, ![1, 24]⟩
abbrev S8750 : Shape := ⟨1, ![8750]⟩
abbrev S8750x1 : Shape := ⟨2, ![8750, 1]⟩
abbrev S4096x8750 : Shape := ⟨2, ![4096, 8750]⟩
abbrev S4096x1750x5 : Shape := ⟨3, ![4096, 1750, 5]⟩
abbrev S4096x1750 : Shape := ⟨2, ![4096, 1750]⟩
abbrev S4096 : Shape := ⟨1, ![4096]⟩
abbrev S4096x1 : Shape := ⟨2, ![4096, 1]⟩
abbrev S3500 : Shape := ⟨1, ![3500]⟩
abbrev S3500x1 : Shape := ⟨2, ![3500, 1]⟩
abbrev S4096x2 : Shape := ⟨2, ![4096, 2]⟩
abbrev S1x2 : Shape := ⟨2, ![1, 2]⟩

abbrev nBuf : Space → Nat
  | .hbm => 113
  | .vmem => 0
  | .smem => 0
  | _ => 0

abbrev bufTy : (tb : Table) → Fin (tcTables nBuf tb) → BufTy
  | .hbm, ⟨0, _⟩ => ⟨S4096x5, .f32⟩
  | .hbm, ⟨1, _⟩ => ⟨S24, .f32⟩
  | .hbm, ⟨2, _⟩ => ⟨S24, .f32⟩
  | .hbm, ⟨3, _⟩ => ⟨S18, .f32⟩
  | .hbm, ⟨4, _⟩ => ⟨S2, .f32⟩
  | .hbm, ⟨5, _⟩ => ⟨S2, .f32⟩
  | .hbm, ⟨6, _⟩ => ⟨S1750x5, .i32⟩
  | .hbm, ⟨7, _⟩ => ⟨S1750x2, .i32⟩
  | .hbm, ⟨8, _⟩ => ⟨S24, .i32⟩
  | .hbm, ⟨9, _⟩ => ⟨S_, .i32⟩
  | .hbm, ⟨10, _⟩ => ⟨S24, .i32⟩
  | .hbm, ⟨11, _⟩ => ⟨S24, .i1⟩
  | .hbm, ⟨12, _⟩ => ⟨S_, .i32⟩
  | .hbm, ⟨13, _⟩ => ⟨S24, .i32⟩
  | .hbm, ⟨14, _⟩ => ⟨S24, .i32⟩
  | .hbm, ⟨15, _⟩ => ⟨S24, .i32⟩
  | .hbm, ⟨16, _⟩ => ⟨S24x1, .i32⟩
  | .hbm, ⟨17, _⟩ => ⟨S1, .i32⟩
  | .hbm, ⟨18, _⟩ => ⟨S_, .i32⟩
  | .hbm, ⟨19, _⟩ => ⟨S24x1, .i32⟩
  | .hbm, ⟨20, _⟩ => ⟨S24x1, .i1⟩
  | .hbm, ⟨21, _⟩ => ⟨S1x1, .i32⟩
  | .hbm, ⟨22, _⟩ => ⟨S24x1, .i32⟩
  | .hbm, ⟨23, _⟩ => ⟨S24x1, .i1⟩
  | .hbm, ⟨24, _⟩ => ⟨S24x1, .i1⟩
  | .hbm, ⟨25, _⟩ => ⟨S_, .i1⟩
  | .hbm, ⟨26, _⟩ => ⟨S24, .i1⟩
  | .hbm, ⟨27, _⟩ => ⟨S4096x24, .f32⟩
  | .hbm, ⟨28, _⟩ => ⟨S4096x24, .i1⟩
  | .hbm, ⟨29, _⟩ => ⟨S_, .f32⟩
  | .hbm, ⟨30, _⟩ => ⟨S4096x24, .f32⟩
  | .hbm, ⟨31, _⟩ => ⟨S4096x24, .f32⟩
  | .hbm, ⟨32, _⟩ => ⟨S1x24, .f32⟩
  | .hbm, ⟨33, _⟩ => ⟨S4096x24, .f32⟩
  | .hbm, ⟨34, _⟩ => ⟨S4096x24, .f32⟩
  | .hbm, ⟨35, _⟩ => ⟨S4096x24, .f32⟩
  | .hbm, ⟨36, _⟩ => ⟨S4096x24, .f32⟩
  | .hbm, ⟨37, _⟩ => ⟨S1x24, .f32⟩
  | .hbm, ⟨38, _⟩ => ⟨S1x24, .f32⟩
  | .hbm, ⟨39, _⟩ => ⟨S_, .f32⟩
  | .hbm, ⟨40, _⟩ => ⟨S1x24, .f32⟩
  | .hbm, ⟨41, _⟩ => ⟨S1x24, .f32⟩
  | .hbm, ⟨42, _⟩ => ⟨S4096x24, .f32⟩
  | .hbm, ⟨43, _⟩ => ⟨S4096x24, .f32⟩
  | .hbm, ⟨44, _⟩ => ⟨S4096x24, .f32⟩
  | .hbm, ⟨45, _⟩ => ⟨S8750, .i32⟩
  | .hbm, ⟨46, _⟩ => ⟨S_, .i32⟩
  | .hbm, ⟨47, _⟩ => ⟨S8750, .i32⟩
  | .hbm, ⟨48, _⟩ => ⟨S8750, .i1⟩
  | .hbm, ⟨49, _⟩ => ⟨S_, .i32⟩
  | .hbm, ⟨50, _⟩ => ⟨S8750, .i32⟩
  | .hbm, ⟨51, _⟩ => ⟨S8750, .i32⟩
  | .hbm, ⟨52, _⟩ => ⟨S8750, .i32⟩
  | .hbm, ⟨53, _⟩ => ⟨S8750x1, .i32⟩
  | .hbm, ⟨54, _⟩ => ⟨S1, .i32⟩
  | .hbm, ⟨55, _⟩ => ⟨S_, .i32⟩
  | .hbm, ⟨56, _⟩ => ⟨S8750x1, .i32⟩
  | .hbm, ⟨57, _⟩ => ⟨S8750x1, .i1⟩
  | .hbm, ⟨58, _⟩ => ⟨S1x1, .i32⟩
  | .hbm, ⟨59, _⟩ => ⟨S8750x1, .i32⟩
  | .hbm, ⟨60, _⟩ => ⟨S8750x1, .i1⟩
  | .hbm, ⟨61, _⟩ => ⟨S8750x1, .i1⟩
  | .hbm, ⟨62, _⟩ => ⟨S_, .i1⟩
  | .hbm, ⟨63, _⟩ => ⟨S8750, .i1⟩
  | .hbm, ⟨64, _⟩ => ⟨S4096x8750, .f32⟩
  | .hbm, ⟨65, _⟩ => ⟨S4096x8750, .i1⟩
  | .hbm, ⟨66, _⟩ => ⟨S_, .f32⟩
  | .hbm, ⟨67, _⟩ => ⟨S4096x8750, .f32⟩
  | .hbm, ⟨68, _⟩ => ⟨S4096x8750, .f32⟩
  | .hbm, ⟨69, _⟩ => ⟨S4096x1750x5, .f32⟩
  | .hbm, ⟨70, _⟩ => ⟨S_, .f32⟩
  | .hbm, ⟨71, _⟩ => ⟨S4096x1750, .f32⟩
  | .hbm, ⟨72, _⟩ => ⟨S4096x1750, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1750, .f32⟩
  | .hbm, ⟨80, _⟩ => ⟨S4096x1750, .f32⟩
  | .hbm, ⟨81, _⟩ => ⟨S3500, .i32⟩
  | .hbm, ⟨82, _⟩ => ⟨S_, .i32⟩
  | .hbm, ⟨83, _⟩ => ⟨S3500, .i32⟩
  | .hbm, ⟨84, _⟩ => ⟨S3500, .i1⟩
  | .hbm, ⟨85, _⟩ => ⟨S_, .i32⟩
  | .hbm, ⟨86, _⟩ => ⟨S3500, .i32⟩
  | .hbm, ⟨87, _⟩ => ⟨S3500, .i32⟩
  | .hbm, ⟨88, _⟩ => ⟨S3500, .i32⟩
  | .hbm, ⟨89, _⟩ => ⟨S3500x1, .i32⟩
  | .hbm, ⟨90, _⟩ => ⟨S1, .i32⟩
  | .hbm, ⟨91, _⟩ => ⟨S_, .i32⟩
  | .hbm, ⟨92, _⟩ => ⟨S3500x1, .i32⟩
  | .hbm, ⟨93, _⟩ => ⟨S3500x1, .i1⟩
  | .hbm, ⟨94, _⟩ => ⟨S1x1, .i32⟩
  | .hbm, ⟨95, _⟩ => ⟨S3500x1, .i32⟩
  | .hbm, ⟨96, _⟩ => ⟨S3500x1, .i1⟩
  | .hbm, ⟨97, _⟩ => ⟨S3500x1, .i1⟩
  | .hbm, ⟨98, _⟩ => ⟨S_, .i1⟩
  | .hbm, ⟨99, _⟩ => ⟨S3500, .i1⟩
  | .hbm, ⟨100, _⟩ => ⟨S3500, .f32⟩
  | .hbm, ⟨101, _⟩ => ⟨S_, .f32⟩
  | .hbm, ⟨102, _⟩ => ⟨S3500, .f32⟩
  | .hbm, ⟨103, _⟩ => ⟨S3500, .f32⟩
  | .hbm, ⟨104, _⟩ => ⟨S1750x2, .f32⟩
  | .hbm, ⟨105, _⟩ => ⟨S4096x2, .f32⟩
  | .hbm, ⟨106, _⟩ => ⟨S4096x2, .f32⟩
  | .hbm, ⟨107, _⟩ => ⟨S1x2, .f32⟩
  | .hbm, ⟨108, _⟩ => ⟨S4096x2, .f32⟩
  | .hbm, ⟨109, _⟩ => ⟨S4096x2, .f32⟩
  | .hbm, ⟨110, _⟩ => ⟨S1x2, .f32⟩
  | .hbm, ⟨111, _⟩ => ⟨S4096x2, .f32⟩
  | .hbm, ⟨112, _⟩ => ⟨S4096x2, .f32⟩
  | _, _ => ⟨S4096x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v14 : Ref sig .tc := ⟨.hbm, 68, rfl⟩
abbrev main_v15 : Ref sig .tc := ⟨.hbm, 69, rfl⟩
abbrev main_cst_0 : Ref sig .tc := ⟨.hbm, 70, rfl⟩
abbrev main_v16 : Ref sig .tc := ⟨.hbm, 71, rfl⟩
abbrev main_v17 : Ref sig .tc := ⟨.hbm, 72, rfl⟩
abbrev main_cst_1 : Ref sig .tc := ⟨.hbm, 73, rfl⟩
abbrev main_v18 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_cst : Ref sig .tc := ⟨.hbm, 101, rfl⟩
abbrev main_call2_v14 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩

abbrev nD : Nat := 1
abbrev τ : Topo := Topo.v7x

variable {F : FTy → Type} [FloatOps F]

class Facts₀ : Prop where
  bcast_S_S24 : S_.BroadcastsInDim S24 (![] : Fin 0 → Fin S24.rank)
  bcast_S24_S24x1_0 : S24.BroadcastsInDim S24x1 (![0] : Fin 1 → Fin S24x1.rank)
  bcast_S_S24x1 : S_.BroadcastsInDim S24x1 (![] : Fin 0 → Fin S24x1.rank)
  bcast_S1_S1x1_1 : S1.BroadcastsInDim S1x1 (![1] : Fin 1 → Fin S1x1.rank)
  bcast_S1x1_S24x1_0_1 : S1x1.BroadcastsInDim S24x1 (![0, 1] : Fin 2 → Fin S24x1.rank)
  reducesTo_S24x1_S24_d1 : S24x1.ReducesTo [1] S24
  h_S_ : 0 < S_.numel
  bcast_S24_S4096x24_1 : S24.BroadcastsInDim S4096x24 (![1] : Fin 1 → Fin S4096x24.rank)
  bcast_S_S4096x24 : S_.BroadcastsInDim S4096x24 (![] : Fin 0 → Fin S4096x24.rank)
  bcast_S24_S1x24_1 : S24.BroadcastsInDim S1x24 (![1] : Fin 1 → Fin S1x24.rank)
  bcast_S1x24_S4096x24_0_1 : S1x24.BroadcastsInDim S4096x24 (![0, 1] : Fin 2 → Fin S4096x24.rank)
  bcast_S_S1x24 : S_.BroadcastsInDim S1x24 (![] : Fin 0 → Fin S1x24.rank)
  shapeCasts_S1750x5_S8750 : S1750x5.ShapeCasts S8750
  bcast_S_S8750 : S_.BroadcastsInDim S8750 (![] : Fin 0 → Fin S8750.rank)
  bcast_S8750_S8750x1_0 : S8750.BroadcastsInDim S8750x1 (![0] : Fin 1 → Fin S8750x1.rank)
  bcast_S_S8750x1 : S_.BroadcastsInDim S8750x1 (![] : Fin 0 → Fin S8750x1.rank)
  bcast_S1x1_S8750x1_0_1 : S1x1.BroadcastsInDim S8750x1 (![0, 1] : Fin 2 → Fin S8750x1.rank)
  reducesTo_S8750x1_S8750_d1 : S8750x1.ReducesTo [1] S8750
  bcast_S8750_S4096x8750_1 : S8750.BroadcastsInDim S4096x8750 (![1] : Fin 1 → Fin S4096x8750.rank)
  bcast_S_S4096x8750 : S_.BroadcastsInDim S4096x8750 (![] : Fin 0 → Fin S4096x8750.rank)
  shapeCasts_S4096x8750_S4096x1750x5 : S4096x8750.ShapeCasts S4096x1750x5
  reducesTo_S4096x1750x5_S4096x1750_d2 : S4096x1750x5.ReducesTo [2] S4096x1750
  reducesTo_S4096x1750_S4096_d1 : S4096x1750.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1750_0_1 : S4096x1.BroadcastsInDim S4096x1750 (![0, 1] : Fin 2 → Fin S4096x1750.rank)
  shapeCasts_S1750x2_S3500 : S1750x2.ShapeCasts S3500
  bcast_S_S3500 : S_.BroadcastsInDim S3500 (![] : Fin 0 → Fin S3500.rank)
  bcast_S3500_S3500x1_0 : S3500.BroadcastsInDim S3500x1 (![0] : Fin 1 → Fin S3500x1.rank)
  bcast_S_S3500x1 : S_.BroadcastsInDim S3500x1 (![] : Fin 0 → Fin S3500x1.rank)
  bcast_S1x1_S3500x1_0_1 : S1x1.BroadcastsInDim S3500x1 (![0, 1] : Fin 2 → Fin S3500x1.rank)
  reducesTo_S3500x1_S3500_d1 : S3500x1.ReducesTo [1] S3500
  shapeCasts_S3500_S1750x2 : S3500.ShapeCasts S1750x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  gather_S4096x5_S24x1_S4096x24_0_1_n_n_1_1_40961_wf : GatherDims.WF S4096x5 S24x1 S4096x24 [0] [1] [] [1] [] 1 ![4096, 1]
  gather_S4096x24_S8750x1_S4096x8750_0_1_n_n_1_1_40961_wf : GatherDims.WF S4096x24 S8750x1 S4096x8750 [0] [1] [] [1] [] 1 ![4096, 1]
  gather_S18_S3500x1_S3500_n_0_n_n_0_1_1_wf : GatherDims.WF S18 S3500x1 S3500 [] [0] [] [0] [] 1 ![1]
  dot_S4096x1750_S1750x2_S4096x2_1_0_0_1_n_n_wf : DotDims.WF S4096x1750 S1750x2 S4096x2 [1] [0] [0] [1] [] []

variable [Facts₀]

def gather_S4096x5_S24x1_S4096x24_0_1_n_n_1_1_40961 : GatherDims S4096x5 S24x1 S4096x24 where
  offsetDims := [0]
  collapsedSliceDims := [1]
  operandBatchingDims := []
  startIndicesBatchingDims := []
  startIndexMap := [1]
  indexVectorDim := 1
  sliceSizes := ![4096, 1]
  wf := gather_S4096x5_S24x1_S4096x24_0_1_n_n_1_1_40961_wf
def gather_S4096x24_S8750x1_S4096x8750_0_1_n_n_1_1_40961 : GatherDims S4096x24 S8750x1 S4096x8750 where
  offsetDims := [0]
  collapsedSliceDims := [1]
  operandBatchingDims := []
  startIndicesBatchingDims := []
  startIndexMap := [1]
  indexVectorDim := 1
  sliceSizes := ![4096, 1]
  wf := gather_S4096x24_S8750x1_S4096x8750_0_1_n_n_1_1_40961_wf
def gather_S18_S3500x1_S3500_n_0_n_n_0_1_1 : GatherDims S18 S3500x1 S3500 where
  offsetDims := []
  collapsedSliceDims := [0]
  operandBatchingDims := []
  startIndicesBatchingDims := []
  startIndexMap := [0]
  indexVectorDim := 1
  sliceSizes := ![1]
  wf := gather_S18_S3500x1_S3500_n_0_n_n_0_1_1_wf
def dot_S4096x1750_S1750x2_S4096x2_1_0_0_1_n_n : DotDims S4096x1750 S1750x2 S4096x2 where
  lhsContracting := [1]
  rhsContracting := [0]
  lhsNonContracting := [0]
  rhsNonContracting := [1]
  lhsBatch := []
  rhsBatch := []
  wf := dot_S4096x1750_S1750x2_S4096x2_1_0_0_1_n_n_wf

class Facts : Prop extends Facts₀ where

variable [Facts]
-- ==== Proof.Spec.lean ====
/-
  The function both programs compute, written once over plain index types.

  A fuzzy-rule network: input row `b` has five variables; membership `m` (24 of them) looks at variable `vm m` and
  grades it by a Gaussian of centre `c m` and width `s m`; rule `r` (1750 of them) fires with the least grade among its
  five antecedent memberships `ir r v`; output `j` is the firing-weighted average of the consequent centres
  `oc (orr r j)`, squashed by tanh and rescaled.

  The two programs spell this differently.  The reference divides the exponent by `2 s²`, normalises every firing
  strength by the sum of their absolute values (clamped below by a tiny constant) and then contracts with the
  consequents (`outR`).  The kernel multiplies the exponent by `0.5 / s²`, contracts first and divides the contraction
  once by the clamped sum of the strengths (`outK`).  Over finite inputs with no zero width both are the same real
  number; that is proved in `SpecLaw`.
-/
import Idealize.ShloMosaic.PureOps.Ideal
import Idealize.ShloMosaic.Lib.ValueIdx

noncomputable section

namespace Cert.Spec

open Idealize.ShloMosaic Idealize.ShloMosaic.ValueIdx

/-- The clamp under the normalising sum: the binary32 value nearest 1e-12. -/
abbrev eps : EReal := Ideal.ofBits .f32 0x2B8CBCCC#32
/-- The reference's factor 2 and the kernel's factor 0.5 in the Gaussian's exponent. -/
abbrev two : EReal := Ideal.ofBits .f32 0x40000000#32
abbrev half : EReal := Ideal.ofBits .f32 0x3F000000#32

section Forms

variable (x : Fin 4096 → Fin 5 → EReal) (c s : Fin 24 → EReal) (oc : Fin 18 → EReal) (sc bi : Fin 2 → EReal)
  (vm : Fin 24 → Fin 5) (ir : Fin 1750 → Fin 5 → Fin 24) (orr : Fin 1750 → Fin 2 → Fin 18)

/-- The squared distance of row `b`'s variable `vm m` from membership `m`'s centre, negated. -/
def negSq (b : Fin 4096) (m : Fin 24) : EReal := -((x b (vm m) - c m) * (x b (vm m) - c m))

/-- Membership grade, the reference's spelling: `exp (-(d²) / (2 s²))`. -/
def memR (b : Fin 4096) (m : Fin 24) : EReal := Ideal.exp (Ideal.div (negSq x c vm b m) (two * (s m * s m)))

/-- Membership grade, the kernel's spelling: `exp (-(d²) · (0.5 / s²))`. -/
def memK (b : Fin 4096) (m : Fin 24) : EReal := Ideal.exp (negSq x c vm b m * Ideal.div half (s m * s m))

/-- Firing strength of rule `r`, the reference's spelling: the minimum from `+∞` over the five antecedents. -/
def fireR (b : Fin 4096) (r : Fin 1750) : EReal :=
  (Finset.univ : Finset (Fin 5)).fold min ⊤ (fun v => memR x c s vm b (ir r v))

/-- Firing strength, the kernel's spelling: four nested binary minima. -/
def fireK (b : Fin 4096) (r : Fin 1750) : EReal :=
  min (min (min (min (memK x c s vm b (ir r 0)) (memK x c s vm b (ir r 1))) (memK x c s vm b (ir r 2)))
    (memK x c s vm b (ir r 3))) (memK x c s vm b (ir r 4))

/-- The reference's result at row `b`, output `j`. -/
def outR (b : Fin 4096) (j : Fin 2) : EReal :=
  Ideal.tanh (∑ r : Fin 1750,
      Ideal.div (fireR x c s vm ir b r)
        (max (∑ r' : Fin 1750, max (fireR x c s vm ir b r') (-(fireR x c s vm ir b r'))) eps) * oc (orr r j))
    * sc j + bi j

/-- The kernel's result at row `b`, output `j`. -/
def outK (b : Fin 4096) (j : Fin 2) : EReal :=
  Ideal.tanh (Ideal.div (∑ r : Fin 1750, fireK x c s vm ir b r * oc (orr r j))
      (max (∑ r : Fin 1750, fireK x c s vm ir b r) eps))
    * sc j + bi j

end Forms

/-! ## From the programs' argument arrays to the plain families -/

/-- An index word read into `Fin n` (the remainder, so that the reading is total; on a word in `[0, n)` it is the word). -/
def dec (n : Nat) (hn : 0 < n) (w : BitVec 32) : Fin n := ⟨w.toNat % n, Nat.mod_lt _ hn⟩

variable (a0 : FVec Ideal ⟨2, ![4096, 5]⟩ .f32) (a1 a2 : FVec Ideal ⟨1, ![24]⟩ .f32) (a3 : FVec Ideal ⟨1, ![18]⟩ .f32)
  (a4 a5 : FVec Ideal ⟨1, ![2]⟩ .f32) (a6 : IVec ⟨2, ![1750, 5]⟩ 32) (a7 : IVec ⟨2, ![1750, 2]⟩ 32) (a8 : IVec ⟨1, ![24]⟩ 32)

def xF : Fin 4096 → Fin 5 → EReal := fun b v => a0 (ix2 b v)
def vF {n : Nat} (a : FVec Ideal ⟨1, ![n]⟩ .f32) : Fin n → EReal := fun k => a (ix1 k)
def vmF : Fin 24 → Fin 5 := fun m => dec 5 (by decide) (a8 (ix1 m))
def irF : Fin 1750 → Fin 5 → Fin 24 := fun r v => dec 24 (by decide) (a6 (ix2 r v))
def orF : Fin 1750 → Fin 2 → Fin 18 := fun r j => dec 18 (by decide) (a7 (ix2 r j))

/-- The result array as one function of the nine argument arrays (the reference's spelling). -/
def G : FVec Ideal ⟨2, ![4096, 2]⟩ .f32 := fun i =>
  outR (xF a0) (vF a1) (vF a2) (vF a3) (vF a4) (vF a5) (vmF a8) (irF a6) (orF a7) (i 0) (i 1)

/-- The same in the kernel's spelling. -/
def GK : FVec Ideal ⟨2, ![4096, 2]⟩ .f32 := fun i =>
  outK (xF a0) (vF a1) (vF a2) (vF a3) (vF a4) (vF a5) (vmF a8) (irF a6) (orF a7) (i 0) (i 1)

/-- What the precondition says of the argument arrays: the float ones hold real numbers, no width is zero, and every
    index word lies in the range of the axis it indexes. -/
structure Dom : Prop where
  x_real : ∀ i, ∃ r : ℝ, a0 i = (r : EReal)
  c_real : ∀ i, ∃ r : ℝ, a1 i = (r : EReal)
  s_real : ∀ i, ∃ r : ℝ, a2 i = (r : EReal)
  oc_real : ∀ i, ∃ r : ℝ, a3 i = (r : EReal)
  sc_real : ∀ i, ∃ r : ℝ, a4 i = (r : EReal)
  bi_real : ∀ i, ∃ r : ℝ, a5 i = (r : EReal)
  s_ne : ∀ i, a2 i ≠ 0
  ir_rng : ∀ i, 0 ≤ (a6 i).toInt ∧ (a6 i).toInt < 24
  or_rng : ∀ i, 0 ≤ (a7 i).toInt ∧ (a7 i).toInt < 18
  vm_rng : ∀ i, 0 ≤ (a8 i).toInt ∧ (a8 i).toInt < 5

end Cert.Spec

end
-- ==== Proof.PreFacts.lean ====
/-
  The precondition, decoded: every float argument holds real numbers, no width is zero, every index word is in range.
-/
import proofs.«113836_g58789512347992_cont_9to1_m_63_2_alg».proof.Pre_finite_inputs
import proofs.«113836_g58789512347992_cont_9to1_m_63_2_alg».proof.Proof.Spec
import Idealize.ShloMosaic.Lib.ReduceAll
import Idealize.ShloMosaic.Lib.IdealHost

noncomputable section

namespace Cert.Spec.PreFacts

open Idealize.ShloMosaic Idealize.ShloMosaic.ValueIdx

/-- The shape of a scalar: no axes, one index. -/
abbrev S0 : Shape := ⟨0, ![]⟩

instance : Subsingleton S0.Idx := ⟨fun a b => funext fun d => d.elim0⟩

/-- The binary32 pattern of `+∞` denotes `⊤`. -/
theorem inf_eq_top : Ideal.ofBits .f32 0x7F800000#32 = (⊤ : EReal) := by simp [Ideal.ofBits, Ideal.ieee]

/-- The all-zero binary32 pattern denotes `0`. -/
theorem zero_eq_zero : Ideal.ofBits .f32 0x00000000#32 = (0 : EReal) := by simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one {b : Bool} : BitVec.ofBool b = 1#1 ↔ b = true := by cases b <;> decide

section Generic

variable {s : Shape} {axes : List (Fin s.rank)}

/-- `all (|x| < +∞)` is 1: every entry of `x` is a real number. -/
theorem real_of_all (x : FVec Ideal s .f32) (hb : S0.BroadcastsInDim s (![] : Fin 0 → Fin s.rank))
    (hr : s.ReducesTo axes S0) (hu : 0 < S0.numel) (init : IVec S0 1)
    (e : Host.reduce IntOp.andi
          (cmpf .olt (Host.absf x) (broadcastInDim s ![] hb (constant (F := Ideal) S0 .f32 0x7F800000#32))) init hr hu ix0 = 1#1)
    (i : s.Idx) : ∃ r : ℝ, x i = (r : EReal) := by
  have h := Host.reduce_andi_all _ init hr hu ix0 e i
  rw [cmpf_apply, broadcastInDim_scalar_apply, constant_apply, inf_eq_top] at h
  change Ideal.cmp .olt (max (x i) (-(x i))) ⊤ = 1#1 at h
  unfold Ideal.cmp at h
  rw [ofBool_eq_one, decide_eq_true_eq] at h
  exact real_of_abs_lt_top _ h

/-- `all (x ≠ 0)` is 1: no entry of `x` is zero. -/
theorem ne_zero_of_all (x : FVec Ideal s .f32) (hb : S0.BroadcastsInDim s (![] : Fin 0 → Fin s.rank))
    (hr : s.ReducesTo axes S0) (hu : 0 < S0.numel) (init : IVec S0 1)
    (e : Host.reduce IntOp.andi
          (cmpf .une x (broadcastInDim s ![] hb (constant (F := Ideal) S0 .f32 0x00000000#32))) init hr hu ix0 = 1#1)
    (i : s.Idx) : x i ≠ 0 := by
  have h := Host.reduce_andi_all _ init hr hu ix0 e i
  rw [cmpf_apply, broadcastInDim_scalar_apply, constant_apply, zero_eq_zero] at h
  change Ideal.cmp .une (x i) 0 = 1#1 at h
  unfold Ideal.cmp at h
  rw [ofBool_eq_one, decide_eq_true_eq] at h
  exact h

/-- `all (a ≥ lo)` and `all (a < hi)`, signed, are 1: every word of `a` lies in `[lo, hi)`. -/
theorem rng_of_all (a : IVec s 32) (lo hi : BitVec 32) (l u : Int) (hl : lo.toInt = l) (hh : hi.toInt = u) (hb : S0.BroadcastsInDim s (![] : Fin 0 → Fin s.rank))
    (hr : s.ReducesTo axes S0) (hu : 0 < S0.numel) (init init' : IVec S0 1)
    (e0 : Host.reduce IntOp.andi (cmpi .sge a (broadcastInDim s ![] hb (constantI S0 32 lo))) init hr hu ix0 = 1#1)
    (e1 : Host.reduce IntOp.andi (cmpi .slt a (broadcastInDim s ![] hb (constantI S0 32 hi))) init' hr hu ix0 = 1#1)
    (i : s.Idx) : l ≤ (a i).toInt ∧ (a i).toInt < u := by
  have h0 := Host.reduce_andi_all _ init hr hu ix0 e0 i
  have h1 := Host.reduce_andi_all _ init' hr hu ix0 e1 i
  change IntOp.cmpi .sge (a i) (broadcastInDim s ![] hb (constantI S0 32 lo) i) = 1#1 at h0
  change IntOp.cmpi .slt (a i) (broadcastInDim s ![] hb (constantI S0 32 hi) i) = 1#1 at h1
  rw [broadcastInDim_scalar_apply] at h0 h1
  change IntOp.cmpi .sge (a i) lo = 1#1 at h0
  change IntOp.cmpi .slt (a i) hi = 1#1 at h1
  rw [← hl, ← hh]
  exact ⟨IntOp.cmpi_sge.1 h0, IntOp.cmpi_slt.1 h1⟩

/-- A conjunction of two one-bit arrays is 1 at an index exactly when both are. -/
theorem andi_apply_eq_one (x y : IVec s 1) (i : s.Idx) : andi x y i = 1#1 ↔ x i = 1#1 ∧ y i = 1#1 :=
  IntOp.andi_eq_one

end Generic

end Cert.Spec.PreFacts

namespace Cert.Spec

open Idealize.ShloMosaic Idealize.ShloMosaic.ValueIdx Cert.Spec.PreFacts

open Cert.Pre_finite_inputs in
/-- The precondition is a conjunction of thirteen "for all entries" tests; read one by one they are the fields of `Dom`. -/
theorem dom_of_pre [Cert.Pre_finite_inputs.Facts] (a0 : FVec Ideal ⟨2, ![4096, 5]⟩ .f32) (a1 a2 : FVec Ideal ⟨1, ![24]⟩ .f32)
    (a3 : FVec Ideal ⟨1, ![18]⟩ .f32) (a4 a5 : FVec Ideal ⟨1, ![2]⟩ .f32) (a6 : IVec ⟨2, ![1750, 5]⟩ 32)
    (a7 : IVec ⟨2, ![1750, 2]⟩ 32) (a8 : IVec ⟨1, ![24]⟩ 32)
    (h : Cert.Pre_finite_inputs.fn (F := Ideal) a0 a1 a2 a3 a4 a5 a6 a7 a8 = fun _ => 1#1) :
    Dom a0 a1 a2 a3 a4 a5 a6 a7 a8 := by
  have e := congrFun h ix0
  dsimp only [Cert.Pre_finite_inputs.fn, fn_part1, fn_part2, fn_part3] at e
  simp only [andi_apply_eq_one] at e
  obtain ⟨⟨⟨⟨⟨⟨⟨⟨⟨⟨⟨⟨h0, h1⟩, h2⟩, h3⟩, h4⟩, h5⟩, h2z⟩, h8l⟩, h8u⟩, h6l⟩, h6u⟩, h7l⟩, h7u⟩ := e
  exact
    { x_real := real_of_all a0 _ _ _ _ h0
      c_real := real_of_all a1 _ _ _ _ h1
      s_real := real_of_all a2 _ _ _ _ h2
      oc_real := real_of_all a3 _ _ _ _ h3
      sc_real := real_of_all a4 _ _ _ _ h4
      bi_real := real_of_all a5 _ _ _ _ h5
      s_ne := ne_zero_of_all a2 _ _ _ _ h2z
      ir_rng := rng_of_all a6 0#32 24#32 0 24 (by decide) (by decide) _ _ _ _ _ h6l h6u
      or_rng := rng_of_all a7 0#32 18#32 0 18 (by decide) (by decide) _ _ _ _ _ h7l h7u
      vm_rng := rng_of_all a8 0#32 5#32 0 5 (by decide) (by decide) _ _ _ _ _ h8l h8u }

end Cert.Spec

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.SpecLaw.lean ====
/-
  Over the domain the two spellings of the network agree.

  With every float input a real number and no width zero, each membership grade is `exp` of the real number
  `−d² / (2 s²)` in both spellings (a quotient by a nonzero real is the product with its reciprocal, and the words for
  `2` and `0.5` denote those numbers), hence a positive real.  The fold of `min` from `+∞` over the five antecedents is
  the four nested minima, so both firing strengths are the same positive real, equal to its own absolute value.  The
  clamp is a positive real, so the normaliser `D` is one too, and
  `∑ r, (w r / D) · o r = (∑ r, w r · o r) / D` holds in the reals.  The hyperbolic tangent, the scale and the bias wrap
  the same argument on both sides.
-/
import proofs.«113836_g58789512347992_cont_9to1_m_63_2_alg».proof.Proof.Spec
import proofs.«113836_g58789512347992_cont_9to1_m_63_2_alg».proof.Proof.LibEReal

noncomputable section

namespace Cert.Spec

open Idealize.ShloMosaic Idealize.ShloMosaic.ValueIdx

namespace Law

/-! ## The three float words, evaluated once -/

/-- The real number the clamp's pattern denotes: `9223372 · 2⁻⁶³`. -/
def epsR : ℝ := 9223372 * (2 : ℝ) ^ (-63 : ℤ)

theorem epsR_pos : 0 < epsR := by unfold epsR; positivity

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

theorem eps_eq : eps = (epsR : EReal) := by
  simp [eps, epsR, Ideal.ofBits, Ideal.ieee, -EReal.coe_mul]

/-! ## Minima -/

/-- The fold of `min` from `+∞` over five values is the four nested binary minima. -/
theorem fold_min_five (f : Fin 5 → EReal) :
    (Finset.univ : Finset (Fin 5)).fold min ⊤ f = min (min (min (min (f 0) (f 1)) (f 2)) (f 3)) (f 4) := by
  refine eq_of_forall_le_iff fun c => ?_
  rw [Finset.le_fold_min]
  simp [Fin.forall_fin_succ, le_min_iff, and_assoc]

/-- The minimum of two reals, read in the extended reals. -/
theorem coe_min (a b : ℝ) : ((min a b : ℝ) : EReal) = min (a : EReal) (b : EReal) :=
  EReal.coe_strictMono.monotone.map_min

/-- The maximum of two reals, read in the extended reals. -/
theorem coe_max (a b : ℝ) : ((max a b : ℝ) : EReal) = max (a : EReal) (b : EReal) :=
  EReal.coe_strictMono.monotone.map_max

/-- A positive real is its own absolute value, in the extended reals' spelling `max w (−w)`. -/
theorem max_neg_of_pos {w : ℝ} (hw : 0 < w) : max (w : EReal) (-(w : EReal)) = (w : EReal) := by
  refine max_eq_left ?_
  rw [← EReal.coe_neg, EReal.coe_le_coe_iff]
  linarith

/-! ## The two spellings over families of real numbers -/

section RealForms

variable (x : Fin 4096 → Fin 5 → ℝ) (c s : Fin 24 → ℝ) (oc : Fin 18 → ℝ) (sc bi : Fin 2 → ℝ)
  (vm : Fin 24 → Fin 5) (ir : Fin 1750 → Fin 5 → Fin 24) (orr : Fin 1750 → Fin 2 → Fin 18)

/-- The membership grade as a real number: `exp (−d² · 1/(2 s²))`. -/
def grade (b : Fin 4096) (m : Fin 24) : ℝ :=
  Real.exp (-((x b (vm m) - c m) * (x b (vm m) - c m)) * (1 / (2 * (s m * s m))))

theorem grade_pos (b : Fin 4096) (m : Fin 24) : 0 < grade x c s vm b m := Real.exp_pos _

/-- The firing strength as a real number: the least of the five antecedent grades. -/
def fire (b : Fin 4096) (r : Fin 1750) : ℝ :=
  min (min (min (min (grade x c s vm b (ir r 0)) (grade x c s vm b (ir r 1))) (grade x c s vm b (ir r 2)))
    (grade x c s vm b (ir r 3))) (grade x c s vm b (ir r 4))

theorem fire_pos (b : Fin 4096) (r : Fin 1750) : 0 < fire x c s vm ir b r := by
  simp only [fire, lt_min_iff, grade_pos, and_self]

/-- The clamped normaliser as a real number; it is positive because the clamp is. -/
def normR (b : Fin 4096) : ℝ := max (∑ r : Fin 1750, fire x c s vm ir b r) epsR

theorem normR_ne (b : Fin 4096) : normR x c s vm ir b ≠ 0 := (lt_max_of_lt_right epsR_pos).ne'

theorem negSq_coe (b : Fin 4096) (m : Fin 24) :
    negSq (fun b v => ((x b v : ℝ) : EReal)) (fun m => ((c m : ℝ) : EReal)) vm b m
      = ((-((x b (vm m) - c m) * (x b (vm m) - c m)) : ℝ) : EReal) := by
  simp only [negSq]
  rw [← EReal.coe_sub, ← EReal.coe_mul, ← EReal.coe_neg]

variable (hs : ∀ m, s m ≠ 0)
include hs

theorem memR_coe (b : Fin 4096) (m : Fin 24) :
    memR (fun b v => ((x b v : ℝ) : EReal)) (fun m => ((c m : ℝ) : EReal)) (fun m => ((s m : ℝ) : EReal)) vm b m
      = ((grade x c s vm b m : ℝ) : EReal) := by
  have h2 : (2 : ℝ) * (s m * s m) ≠ 0 := mul_ne_zero two_ne_zero (mul_self_ne_zero.mpr (hs m))
  simp only [memR]
  rw [negSq_coe, two_eq, ← EReal.coe_mul, ← EReal.coe_mul, Ideal.div_coe h2, ← EReal.coe_mul, Ideal.exp_coe]
  rfl

theorem memK_coe (b : Fin 4096) (m : Fin 24) :
    memK (fun b v => ((x b v : ℝ) : EReal)) (fun m => ((c m : ℝ) : EReal)) (fun m => ((s m : ℝ) : EReal)) vm b m
      = ((grade x c s vm b m : ℝ) : EReal) := by
  have h1 : s m * s m ≠ 0 := mul_self_ne_zero.mpr (hs m)
  simp only [memK]
  rw [negSq_coe, half_eq, ← EReal.coe_mul, Ideal.div_coe h1, ← EReal.coe_mul, ← EReal.coe_mul, Ideal.exp_coe]
  unfold grade
  congr 3
  ring

theorem fireR_coe (b : Fin 4096) (r : Fin 1750) :
    fireR (fun b v => ((x b v : ℝ) : EReal)) (fun m => ((c m : ℝ) : EReal)) (fun m => ((s m : ℝ) : EReal)) vm ir b r
      = ((fire x c s vm ir b r : ℝ) : EReal) := by
  simp only [fireR]
  rw [fold_min_five]
  simp only [memR_coe x c s vm hs, fire, coe_min]

theorem fireK_coe (b : Fin 4096) (r : Fin 1750) :
    fireK (fun b v => ((x b v : ℝ) : EReal)) (fun m => ((c m : ℝ) : EReal)) (fun m => ((s m : ℝ) : EReal)) vm ir b r
      = ((fire x c s vm ir b r : ℝ) : EReal) := by
  simp only [fireK, memK_coe x c s vm hs, fire, coe_min]

theorem outR_coe (b : Fin 4096) (j : Fin 2) :
    outR (fun b v => ((x b v : ℝ) : EReal)) (fun m => ((c m : ℝ) : EReal)) (fun m => ((s m : ℝ) : EReal))
        (fun k => ((oc k : ℝ) : EReal)) (fun j => ((sc j : ℝ) : EReal)) (fun j => ((bi j : ℝ) : EReal)) vm ir orr b j
      = ((Real.tanh (∑ r : Fin 1750, fire x c s vm ir b r * (1 / normR x c s vm ir b) * oc (orr r j)) * sc j + bi j : ℝ)
          : EReal) := by
  have hD : max (∑ r : Fin 1750, fire x c s vm ir b r) epsR ≠ 0 := normR_ne x c s vm ir b
  simp only [outR, fireR_coe x c s vm ir hs, fun r => max_neg_of_pos (fire_pos x c s vm ir b r)]
  rw [← coe_sum, eps_eq, ← coe_max]
  simp only [Ideal.div_coe hD, ← EReal.coe_mul]
  rw [← coe_sum, Ideal.tanh_coe, ← EReal.coe_mul, ← EReal.coe_add]
  rfl

theorem outK_coe (b : Fin 4096) (j : Fin 2) :
    outK (fun b v => ((x b v : ℝ) : EReal)) (fun m => ((c m : ℝ) : EReal)) (fun m => ((s m : ℝ) : EReal))
        (fun k => ((oc k : ℝ) : EReal)) (fun j => ((sc j : ℝ) : EReal)) (fun j => ((bi j : ℝ) : EReal)) vm ir orr b j
      = ((Real.tanh ((∑ r : Fin 1750, fire x c s vm ir b r * oc (orr r j)) * (1 / normR x c s vm ir b)) * sc j + bi j : ℝ)
          : EReal) := by
  have hD : max (∑ r : Fin 1750, fire x c s vm ir b r) epsR ≠ 0 := normR_ne x c s vm ir b
  simp only [outK, fireK_coe x c s vm ir hs, ← EReal.coe_mul]
  rw [← coe_sum, ← coe_sum, eps_eq, ← coe_max]
  rw [Ideal.div_coe hD, ← EReal.coe_mul, Ideal.tanh_coe, ← EReal.coe_mul, ← EReal.coe_add]
  rfl

/-- Over real families with no zero width the two spellings are the same real number. -/
theorem outK_eq_outR (b : Fin 4096) (j : Fin 2) :
    outK (fun b v => ((x b v : ℝ) : EReal)) (fun m => ((c m : ℝ) : EReal)) (fun m => ((s m : ℝ) : EReal))
        (fun k => ((oc k : ℝ) : EReal)) (fun j => ((sc j : ℝ) : EReal)) (fun j => ((bi j : ℝ) : EReal)) vm ir orr b j
      = outR (fun b v => ((x b v : ℝ) : EReal)) (fun m => ((c m : ℝ) : EReal)) (fun m => ((s m : ℝ) : EReal))
        (fun k => ((oc k : ℝ) : EReal)) (fun j => ((sc j : ℝ) : EReal)) (fun j => ((bi j : ℝ) : EReal)) vm ir orr b j := by
  rw [outK_coe x c s oc sc bi vm ir orr hs, outR_coe x c s oc sc bi vm ir orr hs, Finset.sum_mul]
  congr 4
  exact Finset.sum_congr rfl fun r _ => by ring

end RealForms

end Law

/-! ## The two spellings of the result array -/

open Law in
/-- With real inputs and no zero width the kernel's spelling of the result array is the reference's. -/
theorem GK_eq_G (a0 : FVec Ideal ⟨2, ![4096, 5]⟩ .f32) (a1 a2 : FVec Ideal ⟨1, ![24]⟩ .f32)
    (a3 : FVec Ideal ⟨1, ![18]⟩ .f32) (a4 a5 : FVec Ideal ⟨1, ![2]⟩ .f32) (a6 : IVec ⟨2, ![1750, 5]⟩ 32)
    (a7 : IVec ⟨2, ![1750, 2]⟩ 32) (a8 : IVec ⟨1, ![24]⟩ 32)
    (h : Dom a0 a1 a2 a3 a4 a5 a6 a7 a8) : GK a0 a1 a2 a3 a4 a5 a6 a7 a8 = G a0 a1 a2 a3 a4 a5 a6 a7 a8 := by
  obtain ⟨hx, hc, hs, ho, hsc, hbi, hne, -, -, -⟩ := h
  choose x hx using hx
  choose c hc using hc
  choose s hs using hs
  choose o ho using ho
  choose sc hsc using hsc
  choose bi hbi using hbi
  have eX : xF a0 = fun b v => ((x (ix2 b v) : ℝ) : EReal) := funext fun b => funext fun v => hx _
  have eC : vF a1 = fun m => ((c (ix1 m) : ℝ) : EReal) := funext fun m => hc _
  have eS : vF a2 = fun m => ((s (ix1 m) : ℝ) : EReal) := funext fun m => hs _
  have eO : vF a3 = fun k => ((o (ix1 k) : ℝ) : EReal) := funext fun k => ho _
  have eSc : vF a4 = fun j => ((sc (ix1 j) : ℝ) : EReal) := funext fun j => hsc _
  have eBi : vF a5 = fun j => ((bi (ix1 j) : ℝ) : EReal) := funext fun j => hbi _
  have hs0 : ∀ m : Fin 24, s (ix1 m) ≠ 0 := fun m => by
    have := hne (ix1 m)
    rw [hs] at this
    exact EReal.coe_ne_zero.mp this
  funext i
  simp only [GK, G]
  rw [eX, eC, eS, eO, eSc, eBi]
  exact outK_eq_outR (fun b v => x (ix2 b v)) (fun m => c (ix1 m)) (fun m => s (ix1 m)) (fun k => o (ix1 k))
    (fun j => sc (ix1 j)) (fun j => bi (ix1 j)) _ _ _ hs0 _ _

end Cert.Spec

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.LibOneHot.lean ====
/-
  One-hot selection on the extended reals, with no program in sight.

  A kernel that gathers a column of a small table builds a matrix of zeros and ones by comparing a counter along one
  axis with an index word, converts the truth values to floats, and multiplies: the sum over the counted axis then
  picks out the one entry whose position is the index word, or nothing when the word is past the axis.

  * `indicator_apply`: the comparison for equality of two 32-bit words, widened to 32 bits and read as a float, is 1
    where the words agree and 0 elsewhere.
  * `sum_pick` / `sum_pick'`: a sum over `Fin n` of `f k` times the indicator of "the word of `k` is the word of
    `j`" is `f j` (indicator on the right / on the left).
  * `sum_miss` / `sum_miss'`: against a word whose value is at least `n` the sum is 0.
-/
import Idealize.ShloMosaic.PureOps.Ideal
import Idealize.ShloMosaic.Lib.ValueIdx

noncomputable section

namespace Cert.LibOneHot

open Idealize.ShloMosaic Idealize.ShloMosaic.ValueIdx

/-- Equality of words as a float: 1 where they agree, 0 elsewhere. -/
theorem indicator_apply {s : Shape} (a b : IVec s 32) (h : 1 < 32) (i : s.Idx) :
    (sitofp .f32 (extui 32 (cmpi .eq a b) h) : FVec Ideal s .f32) i = if a i = b i then (1 : EReal) else 0 := by
  rw [sitofp_apply, extui_apply]
  show (((((IntOp.cmpi .eq (a i) (b i)).setWidth 32 : BitVec 32).toInt : ℤ) : ℝ) : EReal) = _
  by_cases e : a i = b i
  · rw [if_pos e, e]
    have : (IntOp.cmpi .eq (b i) (b i)) = 1#1 := by simp [IntOp.cmpi]
    rw [this]
    norm_num
  · rw [if_neg e]
    have hb : (a i == b i) = false := beq_eq_false_iff_ne.mpr e
    have : (IntOp.cmpi .eq (a i) (b i)) = 0#1 := by
      show BitVec.ofBool (a i == b i) = 0#1
      rw [hb]; rfl
    rw [this]
    norm_num

/-- Two counters below `2^32` with the same word are the same counter. -/
theorem ofNat_inj {n : ℕ} (hn : n ≤ 2 ^ 32) (k j : Fin n) (e : BitVec.ofNat 32 k.val = BitVec.ofNat 32 j.val) : k = j := by
  have hk : k.val < 2 ^ 32 := lt_of_lt_of_le k.isLt hn
  have hj : j.val < 2 ^ 32 := lt_of_lt_of_le j.isLt hn
  have := congrArg BitVec.toNat e
  rw [BitVec.toNat_ofNat, BitVec.toNat_ofNat, Nat.mod_eq_of_lt hk, Nat.mod_eq_of_lt hj] at this
  exact Fin.ext this

/-- The sum that selects entry `j`: indicator on the right. -/
theorem sum_pick {n : ℕ} (hn : n ≤ 2 ^ 32) (f : Fin n → EReal) (j : Fin n) :
    ∑ k : Fin n, f k * (if BitVec.ofNat 32 k.val = BitVec.ofNat 32 j.val then (1 : EReal) else 0) = f j := by
  rw [Finset.sum_eq_single j]
  · rw [if_pos rfl, mul_one]
  · intro k _ hk
    rw [if_neg (fun e => hk (ofNat_inj hn k j e)), mul_zero]
  · intro h; exact absurd (Finset.mem_univ j) h

/-- The same with the indicator on the left and the word on the left of the equation. -/
theorem sum_pick' {n : ℕ} (hn : n ≤ 2 ^ 32) (f : Fin n → EReal) (j : Fin n) :
    ∑ k : Fin n, (if BitVec.ofNat 32 j.val = BitVec.ofNat 32 k.val then (1 : EReal) else 0) * f k = f j := by
  rw [← sum_pick hn f j]
  refine Finset.sum_congr rfl fun k _ => ?_
  rw [mul_comm]
  by_cases e : BitVec.ofNat 32 k.val = BitVec.ofNat 32 j.val
  · rw [if_pos e, if_pos e.symm]
  · rw [if_neg e, if_neg (fun e' => e e'.symm)]

/-- Against a word past the axis every indicator is 0. -/
theorem sum_miss {n : ℕ} (f : Fin n → EReal) (w : BitVec 32) (hw : n ≤ w.toNat) :
    ∑ k : Fin n, f k * (if BitVec.ofNat 32 k.val = w then (1 : EReal) else 0) = 0 := by
  refine Finset.sum_eq_zero fun k _ => ?_
  have : ¬ BitVec.ofNat 32 k.val = w := fun e => by
    have h := congrArg BitVec.toNat e
    rw [BitVec.toNat_ofNat] at h
    have := Nat.mod_le k.val (2 ^ 32)
    have := k.isLt
    omega
  rw [if_neg this, mul_zero]

end Cert.LibOneHot

end
-- ==== Proof.KMem.lean ====
/-
  The membership grades as the kernel computes them, read at an entry.

  For a block of 512 input rows the kernel first gathers, for each of the 24 memberships, the input variable that
  membership looks at: it compares a counter over the five variables with the membership's variable word, turns the
  truth values into a 5 x 24 matrix of zeros and ones, and multiplies the 512 x 5 block by it.  Entry (p, k) of the
  product is therefore the sum over the five variables of the row's value times the indicator "this variable is
  membership k's".  The grade is the exponential of the negated square of (that value minus the centre) times one
  half over the squared width.
-/
import proofs.«113836_g58789512347992_cont_9to1_m_63_2_alg».proof.Proof.Gen.KernelIdeal.Frame
import proofs.«113836_g58789512347992_cont_9to1_m_63_2_alg».proof.Proof.LibMatmulPlain
import proofs.«113836_g58789512347992_cont_9to1_m_63_2_alg».proof.Proof.LibColumn
import proofs.«113836_g58789512347992_cont_9to1_m_63_2_alg».proof.Proof.LibOneHot
import proofs.«113836_g58789512347992_cont_9to1_m_63_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KBody

open Cert.KernelIdeal Cert.KernelIdeal.Gen Idealize.ShloMosaic Idealize.ShloMosaic.ValueIdx

/-- On the extended reals a matrix product does not depend on the precision it names. -/
theorem matmul_prec {sl sr so : Shape} {φ₁ φ₂ : FTy} (d : DotDims sl sr so) (prec : Option ContractPrecision)
    (l : FVec Ideal sl φ₁) (r : FVec Ideal sr φ₂) (acc : FVec Ideal so .f32) :
    matmul d prec l r acc = matmul d none l r acc := rfl

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl

/-- The value of the variable membership `k` looks at, in row `p` of the block: the one-hot sum over the variables. -/
def pickVar (vmb : Vec Ideal S1x24 .i32) (xb : Vec Ideal S512x5 .f32) (p : Fin 512) (k : Fin 24) : EReal :=
  ∑ v : Fin 5, xb (ix2 p v) * (if BitVec.ofNat 32 v.val = vmb (ix2 (0 : Fin 1) k) then (1 : EReal) else 0)

/-- The grade of membership `k` on row `p`. -/
theorem grade_apply (vmb : Vec Ideal S1x24 .i32) (xb : Vec Ideal S512x5 .f32) (cb sb : Vec Ideal S1x24 .f32)
    (p : Fin 512) (k : Fin 24) :
    k0_pay2 (F := Ideal) vmb xb cb sb (ix2 p k)
      = Ideal.exp ((0 - (pickVar vmb xb p k - cb (ix2 (0 : Fin 1) k)) * (pickVar vmb xb p k - cb (ix2 (0 : Fin 1) k)))
          * Ideal.div Cert.Spec.half (sb (ix2 (0 : Fin 1) k) * sb (ix2 (0 : Fin 1) k))) := by
  unfold k0_pay2
  dsimp only
  simp only [exp_apply, mulf_apply, subf_apply, divf_apply, broadcast_apply, broadcastTo_1b_ab_apply, shapeCast_a_1a_apply,
    shapeCast_1a_a_apply]
  rw [matmul_prec, Cert.LibMatmulPlain.matmul_zero_apply _ rfl rfl rfl rfl rfl rfl]
  have hx : (∑ v : Fin 5, xb (ix2 p v) * (sitofp .f32 (extui 32 (cmpi .eq (iota .tc S5x24 32 [0] iota_S5x24_d0_w32)
      (broadcastTo S5x24 (shapeCast S1x24 (shapeCast S24 vmb shapeCasts_S1x24_S24) shapeCasts_S24_S1x24) broadcasts_S1x24_S5x24)) natLt_1_32) : FVec Ideal S5x24 .f32) (ix2 v k))
      = pickVar vmb xb p k := by
    unfold pickVar
    refine Finset.sum_congr rfl fun v _ => ?_
    rw [Cert.LibOneHot.indicator_apply, iota_single_apply .tc S5x24 32 0 iota_S5x24_d0_w32 (ix2 v k),
      broadcastTo_1b_ab_apply, shapeCast_a_1a_apply, shapeCast_1a_a_apply]
  rw [hx]
  have hz : (Scalar.ofBits (F := Ideal) .f32 0x00000000#32 : EReal) = 0 := Ideal.ofBits_zero_f32
  rw [hz]
  rfl

end Cert.KernelIdeal.KBody

end
-- ==== Proof.KFire.lean ====
/-
  The firing strengths as the kernel computes them, read at an entry.

  For each of the five antecedent positions the kernel takes one row of the padded antecedent table (1792 index
  words), compares a counter over the 24 memberships with it, and multiplies the 512 x 24 grades by the resulting
  24 x 1792 matrix of zeros and ones: entry (p, r) of the product is the sum over the memberships of the grade times
  the indicator "this membership is the word in column r".  The firing strength of column r is the least of the five
  products; the row total is the sum of the strengths over all 1792 columns.
-/
import proofs.«113836_g58789512347992_cont_9to1_m_63_2_alg».proof.Proof.Gen.KernelIdeal.Frame
import proofs.«113836_g58789512347992_cont_9to1_m_63_2_alg».proof.Proof.LibMatmulPlain
import proofs.«113836_g58789512347992_cont_9to1_m_63_2_alg».proof.Proof.LibColumn
import proofs.«113836_g58789512347992_cont_9to1_m_63_2_alg».proof.Proof.LibOneHot
import proofs.«113836_g58789512347992_cont_9to1_m_63_2_alg».proof.Proof.Spec
import proofs.«113836_g58789512347992_cont_9to1_m_63_2_alg».proof.Proof.KMem
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KBody

open Cert.KernelIdeal Cert.KernelIdeal.Gen Idealize.ShloMosaic Idealize.ShloMosaic.ValueIdx

/-- Entry (p, q) of a plain matrix product into the zero matrix, whatever precision it names. -/
theorem mm_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) (p : Fin M) (q : Fin N) :
    matmul D prec l r (constant (F := Ideal) ⟨2, ![M, N]⟩ .f32 0x00000000#32) (ix2 p q)
      = ∑ k : Fin K, l (ix2 p k) * r (ix2 k q) := by
  rw [matmul_prec]
  exact Cert.LibMatmulPlain.matmul_zero_apply D h1 h2 h3 h4 h5 h6 l r p q

/-- The one-hot matrix of a table row: 1 at (m, r) where membership `m`'s word is the word in column `r`. -/
theorem onehot_row_apply (row : Vec Ideal S1x1792 .i32) (m : Fin 24) (r : Fin 1792) :
    (sitofp .f32 (extui 32 (cmpi .eq (iota .tc S24x1792 32 [0] iota_S24x1792_d0_w32)
      (broadcastTo S24x1792 (shapeCast S1x1792 (shapeCast S1792 row shapeCasts_S1x1792_S1792) shapeCasts_S1792_S1x1792)
        broadcasts_S1x1792_S24x1792)) natLt_1_32) : FVec Ideal S24x1792 .f32) (ix2 m r)
      = if BitVec.ofNat 32 m.val = row (ix2 (0 : Fin 1) r) then (1 : EReal) else 0 := by
  rw [Cert.LibOneHot.indicator_apply, iota_single_apply .tc S24x1792 32 0 iota_S24x1792_d0_w32 (ix2 m r),
    broadcastTo_1b_ab_apply, shapeCast_a_1a_apply, shapeCast_1a_a_apply]

/-- The grades gathered through a table row: the one-hot sum over the memberships. -/
def gath (G : FVec Ideal S512x24 .f32) (row : Vec Ideal S1x1792 .i32) (p : Fin 512) (r : Fin 1792) : EReal :=
  ∑ m : Fin 24, G (ix2 p m) * (if BitVec.ofNat 32 m.val = row (ix2 (0 : Fin 1) r) then (1 : EReal) else 0)

/-- The first antecedent's product. -/
theorem first_apply (vmb : Vec Ideal S1x24 .i32) (xb : Vec Ideal S512x5 .f32) (cb sb : Vec Ideal S1x24 .f32)
    (r0 : Vec Ideal S1x1792 .i32) (p : Fin 512) (r : Fin 1792) :
    k0_pay3 (F := Ideal) vmb xb cb sb r0 (ix2 p r) = gath (k0_pay2 vmb xb cb sb) r0 p r := by
  unfold k0_pay3
  dsimp only
  rw [mm_apply dot_S512x24_S24x1792_S512x1792_1_0_0_1_n_n rfl rfl rfl rfl rfl rfl]
  unfold gath
  exact Finset.sum_congr rfl fun m _ => by rw [onehot_row_apply]

/-- The second antecedent's one-hot matrix, kept as words until it is used. -/
theorem second_apply (r1 : Vec Ideal S1x1792 .i32) (m : Fin 24) (r : Fin 1792) :
    (sitofp .f32 (k0_pay4 (F := Ideal) r1) : FVec Ideal S24x1792 .f32) (ix2 m r)
      = if BitVec.ofNat 32 m.val = r1 (ix2 (0 : Fin 1) r) then (1 : EReal) else 0 := by
  unfold k0_pay4
  dsimp only
  exact onehot_row_apply r1 m r

/-- The least of the five products, with the first product and the second one-hot matrix given. -/
theorem least_apply (G : FVec Ideal S512x24 .f32) (g0 : FVec Ideal S512x1792 .f32) (w1 : IVec S24x1792 32)
    (r2 r3 r4 : Vec Ideal S1x1792 .i32) (p : Fin 512) (r : Fin 1792) :
    k0_pay5 (F := Ideal) G g0 w1 r2 r3 r4 (ix2 p r)
      = min (min (min (min (g0 (ix2 p r))
          (∑ m : Fin 24, G (ix2 p m) * (sitofp .f32 w1 : FVec Ideal S24x1792 .f32) (ix2 m r)))
          (gath G r2 p r)) (gath G r3 p r)) (gath G r4 p r) := by
  unfold k0_pay5
  dsimp only
  simp only [minimumf_apply, mm_apply dot_S512x24_S24x1792_S512x1792_1_0_0_1_n_n rfl rfl rfl rfl rfl rfl]
  unfold gath
  refine congrArg₂ min (congrArg₂ min (congrArg₂ min rfl ?_) ?_) ?_ <;>
    exact Finset.sum_congr rfl fun m _ => by rw [onehot_row_apply]

/-- The firing strength of column `r` on row `p`: the least of the five gathered grades. -/
theorem fire_apply (vmb : Vec Ideal S1x24 .i32) (xb : Vec Ideal S512x5 .f32) (cb sb : Vec Ideal S1x24 .f32)
    (r0 r1 r2 r3 r4 : Vec Ideal S1x1792 .i32) (p : Fin 512) (r : Fin 1792) :
    k0_pay5 (F := Ideal) (k0_pay2 vmb xb cb sb) (k0_pay3 vmb xb cb sb r0) (k0_pay4 r1) r2 r3 r4 (ix2 p r)
      = min (min (min (min (gath (k0_pay2 vmb xb cb sb) r0 p r) (gath (k0_pay2 vmb xb cb sb) r1 p r))
          (gath (k0_pay2 vmb xb cb sb) r2 p r)) (gath (k0_pay2 vmb xb cb sb) r3 p r)) (gath (k0_pay2 vmb xb cb sb) r4 p r) := by
  rw [least_apply, first_apply]
  have e : (∑ m : Fin 24, k0_pay2 (F := Ideal) vmb xb cb sb (ix2 p m) * (sitofp .f32 (k0_pay4 (F := Ideal) r1) : FVec Ideal S24x1792 .f32) (ix2 m r))
      = gath (k0_pay2 vmb xb cb sb) r1 p r := by
    unfold gath
    exact Finset.sum_congr rfl fun m _ => by rw [second_apply]
  rw [e]

/-- A lane sum of a 512 x 1792 array into the zero vector, kept as a column: the sum over the 1792 columns. -/
theorem total_apply (X : FVec Ideal S512x1792 .f32) (p : Fin 512) (u : Fin 1) :
    (shapeCast S512x1 (multiReduction .add [1] S512 X 0x00000000#32 reduces_S512x1792_S512 (.inl rfl) rfl)
      shapeCasts_S512_S512x1 : FVec Ideal S512x1 .f32) (ix2 p u) = ∑ r : Fin 1792, X (ix2 p r) := by
  rw [Cert.LibColumn.shapeCast_a_a1_apply]
  refine (Ideal.multiReduction_add_single X 0x00000000#32 reduces_S512x1792_S512 (.inl rfl) rfl (ix1 p)).trans ?_
  show ∑ r : Fin 1792, X (reduces_S512x1792_S512.lift (ix1 p) r) = _
  refine Finset.sum_congr rfl fun r _ => congrArg X (funext fun c => Fin.ext ?_)
  match c with
  | ⟨0, _⟩ => rfl
  | ⟨1, _⟩ => rfl

/-- The row total the kernel divides by. -/
theorem rowsum_apply (G : FVec Ideal S512x24 .f32) (g0 : FVec Ideal S512x1792 .f32) (w1 : IVec S24x1792 32)
    (r2 r3 r4 : Vec Ideal S1x1792 .i32) (p : Fin 512) (u : Fin 1) :
    k0_pay6 (F := Ideal) G g0 w1 r2 r3 r4 (ix2 p u) = ∑ r : Fin 1792, k0_pay5 (F := Ideal) G g0 w1 r2 r3 r4 (ix2 p r) := by
  unfold k0_pay6
  dsimp only
  exact total_apply _ p u

end Cert.KernelIdeal.KBody

end
-- ==== Proof.KRow.lean ====
/-
  From the loaded blocks to the network's quantities, row by row.

  The kernel never indexes a table: every lookup is a one-hot sum.  Here those sums are resolved.  With the
  membership-to-variable words holding variable numbers below 5, the gathered variable is the row's variable; with
  the first 1750 columns of the antecedent table holding membership numbers below 24 and the padding holding 31, a
  gathered grade is the grade of the rule's antecedent, or 0 on the padding; so the firing strength of column `r` is
  the rule's strength for `r < 1750` and 0 beyond, and sums over all 1792 columns are sums over the 1750 rules.
-/
import proofs.«113836_g58789512347992_cont_9to1_m_63_2_alg».proof.Proof.Gen.KernelIdeal.Frame
import proofs.«113836_g58789512347992_cont_9to1_m_63_2_alg».proof.Proof.LibMatmulPlain
import proofs.«113836_g58789512347992_cont_9to1_m_63_2_alg».proof.Proof.LibColumn
import proofs.«113836_g58789512347992_cont_9to1_m_63_2_alg».proof.Proof.LibOneHot
import proofs.«113836_g58789512347992_cont_9to1_m_63_2_alg».proof.Proof.Spec
import proofs.«113836_g58789512347992_cont_9to1_m_63_2_alg».proof.Proof.KMem
import proofs.«113836_g58789512347992_cont_9to1_m_63_2_alg».proof.Proof.KFire
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KBody

open Cert.KernelIdeal Cert.KernelIdeal.Gen Idealize.ShloMosaic Idealize.ShloMosaic.ValueIdx

theorem hz2 : (![0, 0] : Fin 2 → Nat) = fun _ => 0 := funext fun a => by fin_cases a <;> rfl

/-- A load of row `n` of an 8 x 1792 table reads the table at that row. -/
theorem ld_row (T : Vec Ideal S8x1792 .i32) (n : ℕ) (hn : n < 8)
    (inb : ∀ a, (![n, 0] : Fin 2 → Nat) a + S1x1792.size a ≤ S8x1792.size a) (u : Fin 1) (r : Fin 1792) :
    View.ld T (Rect.unit (s := S8x1792) ![n, 0] S1x1792.size inb) (ix2 u r) = T (ix2 (⟨n, hn⟩ : Fin 8) r) := by
  show T ((Rect.unit (s := S8x1792) ![n, 0] S1x1792.size inb).emb (ix2 u r)) = _
  refine congrArg T (funext fun a => Fin.ext ?_)
  match a with
  | ⟨0, _⟩ => show n + 1 * u.val = n; omega
  | ⟨1, _⟩ => show 0 + 1 * r.val = r.val; omega

/-- A sum over `N` columns of a quantity that vanishes past the first `n` is the sum over those `n`. -/
theorem sum_pad {n N : ℕ} (hnN : n ≤ N) (f : Fin n → EReal) :
    ∑ r : Fin N, (if h : r.val < n then f ⟨r.val, h⟩ else 0) = ∑ r : Fin n, f r := by
  rw [← Finset.sum_subset (Finset.subset_univ (Finset.univ.map (Fin.castLEEmb hnN)))]
  · rw [Finset.sum_map]
    refine Finset.sum_congr rfl fun r _ => ?_
    rw [dif_pos (show ((Fin.castLEEmb hnN) r).val < n from r.isLt)]
    rfl
  · intro r _ hr
    rw [dif_neg]
    intro h
    exact hr (Finset.mem_map.mpr ⟨⟨r.val, h⟩, Finset.mem_univ _, Fin.ext rfl⟩)

section Rows

variable (xb : Vec Ideal S512x5 .f32) (cb sb : Vec Ideal S1x24 .f32) (vmb : Vec Ideal S1x24 .i32)
  (X : Fin 4096 → Fin 5 → EReal) (C S : Fin 24 → EReal) (VM : Fin 24 → Fin 5)
  (b : Fin 4096) (p : Fin 512)

/-- The gathered variable is the row's variable. -/
theorem pick_eq (hx : ∀ v : Fin 5, xb (ix2 p v) = X b v)
    (hvm : ∀ k : Fin 24, vmb (ix2 (0 : Fin 1) k) = BitVec.ofNat 32 (VM k).val) (k : Fin 24) :
    pickVar vmb xb p k = X b (VM k) := by
  unfold pickVar
  rw [hvm k]
  exact (Cert.LibOneHot.sum_pick (by decide) (fun v => xb (ix2 p v)) (VM k)).trans (hx _)

/-- The kernel's grade is the kernel's spelling of the membership grade. -/
theorem grade_eq (hx : ∀ v : Fin 5, xb (ix2 p v) = X b v)
    (hc : ∀ k : Fin 24, cb (ix2 (0 : Fin 1) k) = C k) (hs : ∀ k : Fin 24, sb (ix2 (0 : Fin 1) k) = S k)
    (hvm : ∀ k : Fin 24, vmb (ix2 (0 : Fin 1) k) = BitVec.ofNat 32 (VM k).val) (k : Fin 24) :
    k0_pay2 (F := Ideal) vmb xb cb sb (ix2 p k) = Cert.Spec.memK X C S VM b k := by
  rw [grade_apply, pick_eq xb vmb X VM b p hx hvm k, hc k, hs k]
  unfold Cert.Spec.memK Cert.Spec.negSq
  rw [zero_sub]

/-- A gather through a column holding membership `j`'s word picks grade `j`. -/
theorem gath_eq (G : FVec Ideal S512x24 .f32) (row : Vec Ideal S1x1792 .i32) (r : Fin 1792) (j : Fin 24)
    (h : row (ix2 (0 : Fin 1) r) = BitVec.ofNat 32 j.val) : gath G row p r = G (ix2 p j) := by
  unfold gath
  rw [h]
  exact Cert.LibOneHot.sum_pick (by decide) (fun m => G (ix2 p m)) j

/-- A gather through a padding column, whose word 31 is past the 24 memberships, is zero. -/
theorem gath_pad (G : FVec Ideal S512x24 .f32) (row : Vec Ideal S1x1792 .i32) (r : Fin 1792)
    (h : row (ix2 (0 : Fin 1) r) = 31#32) : gath G row p r = 0 := by
  unfold gath
  rw [h]
  exact Cert.LibOneHot.sum_miss (fun m => G (ix2 p m)) 31#32 (by decide)

end Rows

end Cert.KernelIdeal.KBody

end
-- ==== Proof.KOut.lean ====
/-
  The last stage of the kernel's body, read at an entry.

  For a block of 512 input rows the body holds the 512 x 1792 matrix of firing strengths (1750 rules padded to 1792)
  and their row totals.  It builds a 1792 x 2 table of consequent values: a row of index words is laid down as a
  column, compared lane by lane with a counter over the 18 consequent centres, and the resulting matrix of zeros and
  ones is multiplied entrywise by the centres and summed over the 18 lanes; one such column per output, the two
  columns set side by side.  Entry (p, q) of the result is then the sum over the rules of strength times table entry,
  divided by the row total clamped below by a tiny constant, passed through the hyperbolic tangent, scaled and offset.
-/
import proofs.«113836_g58789512347992_cont_9to1_m_63_2_alg».proof.Proof.Gen.KernelIdeal.Frame
import proofs.«113836_g58789512347992_cont_9to1_m_63_2_alg».proof.Proof.KMem
import proofs.«113836_g58789512347992_cont_9to1_m_63_2_alg».proof.Proof.LibMatmulPlain
import proofs.«113836_g58789512347992_cont_9to1_m_63_2_alg».proof.Proof.LibColumn
import proofs.«113836_g58789512347992_cont_9to1_m_63_2_alg».proof.Proof.LibOneHot
import proofs.«113836_g58789512347992_cont_9to1_m_63_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KBody

open Cert.KernelIdeal Cert.KernelIdeal.Gen Idealize.ShloMosaic Idealize.ShloMosaic.ValueIdx

namespace Out

/-- The comparison of a row of 1792 index words, laid down as a column and repeated over 18 lanes, with the lane
    counter: entry (r, k) is 1 when word r is k, else 0. -/
theorem onehot_apply (v : Vec Ideal S1x1792 .i32) (r : Fin 1792) (k : Fin 18) :
    (sitofp .f32 (extui 32 (cmpi .eq
        (broadcastTo S1792x18 (shapeCast S1792x1 (shapeCast S1792 v shapeCasts_S1x1792_S1792) shapeCasts_S1792_S1792x1)
          broadcasts_S1792x1_S1792x18)
        (iota .tc S1792x18 32 [1] iota_S1792x18_d1_w32)) natLt_1_32) : FVec Ideal S1792x18 .f32) (ix2 r k)
      = if v (ix2 (0 : Fin 1) r) = BitVec.ofNat 32 k.val then (1 : EReal) else 0 := by
  rw [Cert.LibOneHot.indicator_apply, iota_single_apply .tc S1792x18 32 1 iota_S1792x18_d1_w32 (ix2 r k),
    Cert.LibColumn.broadcastTo_a1_ab_apply, Cert.LibColumn.shapeCast_a_a1_apply, shapeCast_1a_a_apply]

/-- A sum over the 18 lanes of a [1792, 18] array, read at row r. -/
theorem lanesum_apply (src : FVec Ideal S1792x18 .f32) (hφ : FKind.Formats .f32)
    (hacc : (0x00000000#32 : BitVec 32) = 0x00000000#32) (r : Fin 1792) :
    multiReduction .add [1] S1792 src 0x00000000#32 reduces_S1792x18_S1792 hφ hacc (ix1 r)
      = ∑ k : Fin 18, src (ix2 r k) := by
  refine (Ideal.multiReduction_add_single src 0x00000000#32 reduces_S1792x18_S1792 hφ hacc (ix1 r)).trans ?_
  show ∑ k : Fin 18, src (reduces_S1792x18_S1792.lift (ix1 r) k) = _
  refine Finset.sum_congr rfl fun k _ => congrArg src ?_
  funext c
  apply Fin.ext
  show reduces_S1792x18_S1792.liftVal (ix1 r) k.val c = (ix2 r k c).val
  match c with
  | ⟨0, _⟩ => simp [Shape.Reduces.liftVal]
  | ⟨1, _⟩ => simp [Shape.Reduces.liftVal]

/-- Two [1792, 1] columns side by side: column 0 of the result is the first … -/
theorem cat_apply_zero (x₁ x₂ : FVec Ideal S1792x1 .f32) (r : Fin 1792) :
    (concatenate S1792x2 1 [⟨S1792x1, x₁⟩, ⟨S1792x1, x₂⟩] concatenates_S1792x1_S1792x1_S1792x2_d1 : FVec Ideal S1792x2 .f32)
        (ix2 r (0 : Fin 2)) = x₁ (ix2 r (0 : Fin 1)) :=
  concatenate_pair_apply_left (t := S1792x2) (1 : Fin 2) x₁ x₂ concatenates_S1792x1_S1792x1_S1792x2_d1 (ix2 r (0 : Fin 2)) rfl
    (ix2 r (0 : Fin 1)) (fun b => by
      match b with
      | ⟨0, _⟩ => rfl
      | ⟨1, _⟩ => rfl)

/-- … and column 1 the second. -/
theorem cat_apply_one (x₁ x₂ : FVec Ideal S1792x1 .f32) (r : Fin 1792) :
    (concatenate S1792x2 1 [⟨S1792x1, x₁⟩, ⟨S1792x1, x₂⟩] concatenates_S1792x1_S1792x1_S1792x2_d1 : FVec Ideal S1792x2 .f32)
        (ix2 r (1 : Fin 2)) = x₂ (ix2 r (0 : Fin 1)) :=
  concatenate_pair_apply_right (t := S1792x2) (1 : Fin 2) x₁ x₂ concatenates_S1792x1_S1792x1_S1792x2_d1 (ix2 r (1 : Fin 2)) rfl rfl
    (ix2 r (0 : Fin 1)) (fun b hb => by
      match b with
      | ⟨0, _⟩ => rfl
      | ⟨1, _⟩ => exact absurd (Fin.ext rfl) hb) (by rfl)

theorem cat_apply (x₁ x₂ : FVec Ideal S1792x1 .f32) (r : Fin 1792) (q : Fin 2) :
    (concatenate S1792x2 1 [⟨S1792x1, x₁⟩, ⟨S1792x1, x₂⟩] concatenates_S1792x1_S1792x1_S1792x2_d1 : FVec Ideal S1792x2 .f32)
        (ix2 r q)
      = if q.val = 0 then x₁ (ix2 r (0 : Fin 1)) else x₂ (ix2 r (0 : Fin 1)) := by
  by_cases hq : q.val = 0
  · obtain rfl : q = 0 := Fin.ext hq
    rw [if_pos hq]
    exact cat_apply_zero x₁ x₂ r
  · obtain rfl : q = 1 := Fin.ext (by have := q.isLt; show q.val = 1; omega)
    rw [if_neg hq]
    exact cat_apply_one x₁ x₂ r

end Out

/-- The first one-hot consequent table: entry (r, k) is 1 when rule r's first consequent word is k, else 0. -/
theorem table0_apply (v80 : Vec Ideal S1x1792 .i32) (r : Fin 1792) (k : Fin 18) :
    k0_pay8 (F := Ideal) v80 (ix2 r k) = if v80 (ix2 (0 : Fin 1) r) = BitVec.ofNat 32 k.val then (1 : EReal) else 0 := by
  unfold k0_pay8
  dsimp only
  exact Out.onehot_apply v80 r k

/-- The consequent centres as a vector: entry k of the loaded row. -/
theorem oc_apply (v78 : Vec Ideal S1x18 .f32) (k : Fin 18) : k0_pay7 (F := Ideal) v78 (ix1 k) = v78 (ix2 (0 : Fin 1) k) := by
  unfold k0_pay7
  rw [shapeCast_1a_a_apply]

/-- Row r of the two-column consequent table: column 0 contracts the first one-hot table with the consequent
    centres, column 1 the one-hot table of the second consequent word. -/
def tbl (v79 : FVec Ideal S18 .f32) (v87 : FVec Ideal S1792x18 .f32) (v93 : Vec Ideal S1x1792 .i32) (r : Fin 1792)
    (q : Fin 2) : EReal :=
  if q.val = 0 then ∑ k : Fin 18, v87 (ix2 r k) * v79 (ix1 k)
  else ∑ k : Fin 18, (if v93 (ix2 (0 : Fin 1) r) = BitVec.ofNat 32 k.val then (1 : EReal) else 0) * v79 (ix1 k)

/-- The stored value at row p, output q: the firing strengths of the row contracted with the consequent table,
    divided by the clamped total, squashed, scaled and offset. -/
theorem out_apply (v75 : FVec Ideal S512x1792 .f32) (v77 : FVec Ideal S512x1 .f32) (v79 : FVec Ideal S18 .f32)
    (v87 : FVec Ideal S1792x18 .f32) (v93 : Vec Ideal S1x1792 .i32) (v113 v118 : Vec Ideal S1x2 .f32) (p : Fin 512)
    (q : Fin 2) :
    k0_pay1 (F := Ideal) v75 v77 v79 v87 v93 v113 v118 (ix2 p q)
      = Ideal.tanh (Ideal.div (∑ r : Fin 1792, v75 (ix2 p r) * tbl v79 v87 v93 r q)
          (max (v77 (ix2 p (0 : Fin 1))) Cert.Spec.eps)) * v113 (ix2 (0 : Fin 1) q) + v118 (ix2 (0 : Fin 1) q) := by
  unfold k0_pay1
  dsimp only
  simp only [addf_apply, mulf_apply, tanh_apply, divf_apply, maximumf_apply, broadcast_apply, broadcastTo_1b_ab_apply,
    shapeCast_a_1a_apply, shapeCast_1a_a_apply, Cert.LibColumn.broadcastTo_a1_ab_apply]
  rw [matmul_prec, Cert.LibMatmulPlain.matmul_zero_apply _ rfl rfl rfl rfl rfl rfl]
  refine congrArg (fun t => Ideal.tanh (Ideal.div t (max (v77 (ix2 p (0 : Fin 1))) Cert.Spec.eps))
    * v113 (ix2 (0 : Fin 1) q) + v118 (ix2 (0 : Fin 1) q)) ?_
  refine Finset.sum_congr rfl fun r _ => congrArg (v75 (ix2 p r) * ·) ?_
  rw [Out.cat_apply, Cert.LibColumn.shapeCast_a_a1_apply, Cert.LibColumn.shapeCast_a_a1_apply, Out.lanesum_apply,
    Out.lanesum_apply]
  unfold tbl
  simp only [mulf_apply, broadcastTo_1b_ab_apply, shapeCast_a_1a_apply]
  refine if_congr Iff.rfl rfl (Finset.sum_congr rfl fun k _ => ?_)
  rw [Out.onehot_apply]

end Cert.KernelIdeal.KBody

end
-- ==== Proof.KBlock.lean ====
/-
  One block of the kernel's result, as the kernel's spelling of the network.

  The body's one store into the 512 x 2 output block, read at row `p` and output `q`, is the kernel's spelling of the
  network's output for that row, once the loaded blocks are known to hold: the row's five variables; the centres,
  widths, consequent centres, scales and offsets as single rows; the membership-to-variable words; and the two padded
  index tables, whose first 1750 columns hold the rules' words and whose padding holds a word past the 24 memberships
  (antecedents) or zero (consequents).  A padding column fires with strength 0, so it adds nothing to the row total
  and, times whatever consequent centre the zero word selects, nothing to the contraction.
-/
import proofs.«113836_g58789512347992_cont_9to1_m_63_2_alg».proof.Proof.Gen.KernelIdeal.Frame
import proofs.«113836_g58789512347992_cont_9to1_m_63_2_alg».proof.Proof.LibMatmulPlain
import proofs.«113836_g58789512347992_cont_9to1_m_63_2_alg».proof.Proof.LibColumn
import proofs.«113836_g58789512347992_cont_9to1_m_63_2_alg».proof.Proof.LibOneHot
import proofs.«113836_g58789512347992_cont_9to1_m_63_2_alg».proof.Proof.Spec
import proofs.«113836_g58789512347992_cont_9to1_m_63_2_alg».proof.Proof.KMem
import proofs.«113836_g58789512347992_cont_9to1_m_63_2_alg».proof.Proof.KFire
import proofs.«113836_g58789512347992_cont_9to1_m_63_2_alg».proof.Proof.KRow
import proofs.«113836_g58789512347992_cont_9to1_m_63_2_alg».proof.Proof.KOut
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KBody

open Cert.KernelIdeal Cert.KernelIdeal.Gen Idealize.ShloMosaic Idealize.ShloMosaic.ValueIdx

section Block

variable (xb : Vec Ideal S512x5 .f32) (cb sb : Vec Ideal S1x24 .f32) (ocb : Vec Ideal S1x18 .f32)
  (scb bib : Vec Ideal S1x2 .f32) (rt ot : Vec Ideal S8x1792 .i32) (vmb : Vec Ideal S1x24 .i32)
  (X : Fin 4096 → Fin 5 → EReal) (C S : Fin 24 → EReal) (OC : Fin 18 → EReal) (SC BI : Fin 2 → EReal)
  (VM : Fin 24 → Fin 5) (IR : Fin 1750 → Fin 5 → Fin 24) (OR : Fin 1750 → Fin 2 → Fin 18)
  (b : Fin 4096) (p : Fin 512)

/-- The firing strength the kernel computes for column `r`: the rule's strength, or 0 on the padding. -/
theorem fire_eq (hx : ∀ v : Fin 5, xb (ix2 p v) = X b v)
    (hc : ∀ k : Fin 24, cb (ix2 (0 : Fin 1) k) = C k) (hs : ∀ k : Fin 24, sb (ix2 (0 : Fin 1) k) = S k)
    (hvm : ∀ k : Fin 24, vmb (ix2 (0 : Fin 1) k) = BitVec.ofNat 32 (VM k).val)
    (hrt : ∀ (v : Fin 5) (r : Fin 1792), rt (ix2 (⟨v.val, by omega⟩ : Fin 8) r)
      = if h : r.val < 1750 then BitVec.ofNat 32 (IR ⟨r.val, h⟩ v).val else 31#32) (r : Fin 1792) :
    k0_pay5 (F := Ideal) (k0_pay2 vmb xb cb sb) (k0_pay3 vmb xb cb sb (View.ld rt r0_2)) (k0_pay4 (View.ld rt r0_3))
        (View.ld rt r0_4) (View.ld rt r0_5) (View.ld rt r0_6) (ix2 p r)
      = if h : r.val < 1750 then Cert.Spec.fireK X C S VM IR b ⟨r.val, h⟩ else 0 := by
  rw [fire_apply]
  have l0 : (View.ld rt r0_2) (ix2 (0 : Fin 1) r) = rt (ix2 (⟨(0 : Fin 5).val, by omega⟩ : Fin 8) r) := ld_row rt 0 (by omega) _ 0 r
  have l1 : (View.ld rt r0_3) (ix2 (0 : Fin 1) r) = rt (ix2 (⟨(1 : Fin 5).val, by omega⟩ : Fin 8) r) := ld_row rt 1 (by omega) _ 0 r
  have l2 : (View.ld rt r0_4) (ix2 (0 : Fin 1) r) = rt (ix2 (⟨(2 : Fin 5).val, by omega⟩ : Fin 8) r) := ld_row rt 2 (by omega) _ 0 r
  have l3 : (View.ld rt r0_5) (ix2 (0 : Fin 1) r) = rt (ix2 (⟨(3 : Fin 5).val, by omega⟩ : Fin 8) r) := ld_row rt 3 (by omega) _ 0 r
  have l4 : (View.ld rt r0_6) (ix2 (0 : Fin 1) r) = rt (ix2 (⟨(4 : Fin 5).val, by omega⟩ : Fin 8) r) := ld_row rt 4 (by omega) _ 0 r
  by_cases h : r.val < 1750
  · rw [dif_pos h]
    rw [gath_eq p _ _ r (IR ⟨r.val, h⟩ 0) (l0.trans ((hrt 0 r).trans (dif_pos h))),
      gath_eq p _ _ r (IR ⟨r.val, h⟩ 1) (l1.trans ((hrt 1 r).trans (dif_pos h))),
      gath_eq p _ _ r (IR ⟨r.val, h⟩ 2) (l2.trans ((hrt 2 r).trans (dif_pos h))),
      gath_eq p _ _ r (IR ⟨r.val, h⟩ 3) (l3.trans ((hrt 3 r).trans (dif_pos h))),
      gath_eq p _ _ r (IR ⟨r.val, h⟩ 4) (l4.trans ((hrt 4 r).trans (dif_pos h)))]
    simp only [grade_eq xb cb sb vmb X C S VM b p hx hc hs hvm]
    rfl
  · rw [dif_neg h]
    rw [gath_pad p _ _ r (l0.trans ((hrt 0 r).trans (dif_neg h))), gath_pad p _ _ r (l1.trans ((hrt 1 r).trans (dif_neg h))),
      gath_pad p _ _ r (l2.trans ((hrt 2 r).trans (dif_neg h))), gath_pad p _ _ r (l3.trans ((hrt 3 r).trans (dif_neg h))),
      gath_pad p _ _ r (l4.trans ((hrt 4 r).trans (dif_neg h)))]
    simp only [min_self]

/-- The consequent centre the kernel's table holds for column `r`: the rule's, or the first centre on the padding. -/
theorem tbl_eq (hoc : ∀ k : Fin 18, ocb (ix2 (0 : Fin 1) k) = OC k)
    (hot : ∀ (j : Fin 2) (r : Fin 1792), ot (ix2 (⟨j.val, by omega⟩ : Fin 8) r)
      = if h : r.val < 1750 then BitVec.ofNat 32 (OR ⟨r.val, h⟩ j).val else 0#32) (r : Fin 1792) (q : Fin 2) :
    tbl (k0_pay7 (F := Ideal) ocb) (k0_pay8 (F := Ideal) (View.ld ot r0_2)) (View.ld ot r0_3) r q
      = if h : r.val < 1750 then OC (OR ⟨r.val, h⟩ q) else OC ⟨0, by decide⟩ := by
  have l0 : (View.ld ot r0_2) (ix2 (0 : Fin 1) r) = ot (ix2 (⟨(0 : Fin 2).val, by omega⟩ : Fin 8) r) := ld_row ot 0 (by omega) _ 0 r
  have l1 : (View.ld ot r0_3) (ix2 (0 : Fin 1) r) = ot (ix2 (⟨(1 : Fin 2).val, by omega⟩ : Fin 8) r) := ld_row ot 1 (by omega) _ 0 r
  have key : ∀ (w : BitVec 32) (j : Fin 18), w = BitVec.ofNat 32 j.val →
      (∑ k : Fin 18, (if w = BitVec.ofNat 32 k.val then (1 : EReal) else 0) * ocb (ix2 (0 : Fin 1) k)) = OC j := by
    intro w j hw
    rw [hw]
    exact (Cert.LibOneHot.sum_pick' (by decide) (fun k => ocb (ix2 (0 : Fin 1) k)) j).trans (hoc j)
  unfold tbl
  simp only [table0_apply, oc_apply]
  match q with
  | ⟨0, _⟩ =>
    rw [if_pos rfl]
    by_cases h : r.val < 1750
    · rw [dif_pos h]; exact key _ (OR ⟨r.val, h⟩ 0) (l0.trans ((hot 0 r).trans (dif_pos h)))
    · rw [dif_neg h]; exact key _ ⟨0, by decide⟩ (l0.trans ((hot 0 r).trans (dif_neg h)))
  | ⟨1, _⟩ =>
    rw [if_neg (by simp)]
    by_cases h : r.val < 1750
    · rw [dif_pos h]; exact key _ (OR ⟨r.val, h⟩ 1) (l1.trans ((hot 1 r).trans (dif_pos h)))
    · rw [dif_neg h]; exact key _ ⟨0, by decide⟩ (l1.trans ((hot 1 r).trans (dif_neg h)))

end Block

theorem block_eq (xb : Vec Ideal S512x5 .f32) (cb sb : Vec Ideal S1x24 .f32) (ocb : Vec Ideal S1x18 .f32)
    (scb bib : Vec Ideal S1x2 .f32) (rt ot : Vec Ideal S8x1792 .i32) (vmb : Vec Ideal S1x24 .i32)
    (X : Fin 4096 → Fin 5 → EReal) (C S : Fin 24 → EReal) (OC : Fin 18 → EReal) (SC BI : Fin 2 → EReal)
    (VM : Fin 24 → Fin 5) (IR : Fin 1750 → Fin 5 → Fin 24) (OR : Fin 1750 → Fin 2 → Fin 18)
    (b : Fin 4096) (p : Fin 512) (q : Fin 2)
    (hx : ∀ v : Fin 5, xb (ix2 p v) = X b v)
    (hc : ∀ k : Fin 24, cb (ix2 (0 : Fin 1) k) = C k) (hs : ∀ k : Fin 24, sb (ix2 (0 : Fin 1) k) = S k)
    (hoc : ∀ k : Fin 18, ocb (ix2 (0 : Fin 1) k) = OC k)
    (hsc : ∀ j : Fin 2, scb (ix2 (0 : Fin 1) j) = SC j) (hbi : ∀ j : Fin 2, bib (ix2 (0 : Fin 1) j) = BI j)
    (hvm : ∀ k : Fin 24, vmb (ix2 (0 : Fin 1) k) = BitVec.ofNat 32 (VM k).val)
    (hrt : ∀ (v : Fin 5) (r : Fin 1792), rt (ix2 (⟨v.val, by omega⟩ : Fin 8) r)
      = if h : r.val < 1750 then BitVec.ofNat 32 (IR ⟨r.val, h⟩ v).val else 31#32)
    (hot : ∀ (j : Fin 2) (r : Fin 1792), ot (ix2 (⟨j.val, by omega⟩ : Fin 8) r)
      = if h : r.val < 1750 then BitVec.ofNat 32 (OR ⟨r.val, h⟩ j).val else 0#32) :
    out0_9 (F := Ideal) xb cb sb ocb scb bib rt ot vmb (ix2 p q) = Cert.Spec.outK X C S OC SC BI VM IR OR b q := by
  unfold out0_9
  rw [View.canon_unit_zero hz2]
  simp only [View.ld_unit_zero (S := S512x5) hz2, View.ld_unit_zero (S := S1x24) hz2, View.ld_unit_zero (S := S1x18) hz2,
    View.ld_unit_zero (S := S1x2) hz2]
  rw [out_apply, rowsum_apply]
  simp only [fire_eq xb cb sb rt vmb X C S VM IR b p hx hc hs hvm hrt, tbl_eq ocb ot OC OR hoc hot]
  have hnum : (∑ r : Fin 1792, (if h : r.val < 1750 then Cert.Spec.fireK X C S VM IR b ⟨r.val, h⟩ else 0)
        * (if h : r.val < 1750 then OC (OR ⟨r.val, h⟩ q) else OC ⟨0, by decide⟩))
      = ∑ r : Fin 1750, Cert.Spec.fireK X C S VM IR b r * OC (OR r q) := by
    rw [← sum_pad (by decide : 1750 ≤ 1792) (fun r : Fin 1750 => Cert.Spec.fireK X C S VM IR b r * OC (OR r q))]
    refine Finset.sum_congr rfl fun r _ => ?_
    by_cases h : r.val < 1750
    · rw [dif_pos h, dif_pos h, dif_pos h]
    · rw [dif_neg h, dif_neg h, dif_neg h, zero_mul]
  rw [hnum, sum_pad (by decide : 1750 ≤ 1792) (fun r : Fin 1750 => Cert.Spec.fireK X C S VM IR b r), hsc q, hbi q]
  rfl

end Cert.KernelIdeal.KBody

end
-- ==== Proof.LibScatterWindow.lean ====
/-
  A host scatter that writes one window.

  A scatter whose single start index is (0, 0), whose update is a whole a x b matrix (both of its axes window
  axes, sent to the operand's two axes in order) and whose body returns the update's element, writes the update
  into the top-left a x b window of the A x B operand and leaves every other element as it was:

    scatter x idx upd (p, q) = upd (p, q)   when p < a and q < b,
                             = x (p, q)     otherwise.

  The scatter is a left fold over the update's positions in row-major order, each step overwriting the element at
  that position's result index.  Here the result index of update position (i, j) is (i, j) itself, so distinct
  positions write distinct elements: the fold visits each target at most once, and a target inside the window is
  written by exactly the one position equal to it.  The first section states that fact for any fold of pointwise
  overwrites; the second computes the result index for these dimension numbers; the third puts them together.
  No program is imported: the dimension record is a variable, constrained only by its four lists.
-/
import Idealize.ShloMosaic.PureOps.ShapeOps
import Idealize.ShloMosaic.Lib.ValueIdx

noncomputable section

namespace Cert.LibScatterWindow

open Idealize.ShloMosaic Idealize.ShloMosaic.ValueIdx

/-! ## A left fold of pointwise overwrites, read at one target

The steps are abstract: step n leaves the element at k alone unless n hits k (P n), and then it writes v n there. -/

section Fold

variable {ι κ α : Type} (step : (κ → α) → ι → (κ → α)) (k : κ) (P : ι → Prop) (v : ι → α)

/-- If no step of the list hits k, the fold leaves the element at k as it was. -/
theorem foldl_miss (hm : ∀ r n, ¬ P n → step r n k = r k) :
    ∀ (L : List ι) (x : κ → α), (∀ n ∈ L, ¬ P n) → L.foldl step x k = x k
  | [], x, _ => rfl
  | n :: L, x, h => by
    rw [List.foldl_cons, foldl_miss hm L (step x n) fun n' hn' => h n' (List.mem_cons_of_mem _ hn')]
    exact hm x n (h n List.mem_cons_self)

/-- If exactly one step of a list without repeats hits k, the fold leaves that step's value at k. -/
theorem foldl_hit (hk : ∀ r n, P n → step r n k = v n) (hm : ∀ r n, ¬ P n → step r n k = r k) (n : ι) (hn : P n) :
    ∀ (L : List ι) (x : κ → α), L.Nodup → n ∈ L → (∀ n' ∈ L, P n' → n' = n) → L.foldl step x k = v n
  | [], _, _, h, _ => absurd h List.not_mem_nil
  | a :: L, x, hnd, hmem, huniq => by
    rw [List.foldl_cons]
    have hnd' := List.nodup_cons.1 hnd
    rcases List.mem_cons.1 hmem with rfl | hL
    · rw [foldl_miss step k P hm L (step x n) fun n' hn' hP => hnd'.1 (huniq n' (List.mem_cons_of_mem _ hn') hP ▸ hn')]
      exact hk x n hn
    · exact foldl_hit hk hm n hn L (step x a) hnd'.2 hL fun n' hn' => huniq n' (List.mem_cons_of_mem _ hn')

end Fold

/-! ## The result index for these dimension numbers -/

variable {α : Type} {A B a b : ℕ}

/-- An update position as a position of the operand: the same coordinates. -/
def emb (hA : a ≤ A) (hB : b ≤ B) (j : (⟨2, ![a, b]⟩ : Shape).Idx) : (⟨2, ![A, B]⟩ : Shape).Idx :=
  ix2 ⟨(j 0).val, Nat.lt_of_lt_of_le (idx2_lt0 j) hA⟩ ⟨(j 1).val, Nat.lt_of_lt_of_le (idx2_lt1 j) hB⟩

theorem emb_val0 (hA : a ≤ A) (hB : b ≤ B) (j : (⟨2, ![a, b]⟩ : Shape).Idx) : (emb hA hB j 0).val = (j 0).val := rfl
theorem emb_val1 (hA : a ≤ A) (hB : b ≤ B) (j : (⟨2, ![a, b]⟩ : Shape).Idx) : (emb hA hB j 1).val = (j 1).val := rfl

/-- Positions with the same coordinates are the same position. -/
theorem emb_injective (hA : a ≤ A) (hB : b ≤ B) : Function.Injective (emb (A := A) (B := B) hA hB) := by
  intro j j' h
  have h0 : (j 0).val = (j' 0).val := congrArg (fun i : (⟨2, ![A, B]⟩ : Shape).Idx => (i 0).val) h
  have h1 : (j 1).val = (j' 1).val := congrArg (fun i : (⟨2, ![A, B]⟩ : Shape).Idx => (i 1).val) h
  rw [eq_ix2 j, eq_ix2 j', Fin.ext h0, Fin.ext h1]

/-- The dimension numbers of the statement, as one record. -/
abbrev win (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ :=
  { updateWindowDims := [0, 1], insertedWindowDims := [], scatterDimsToOperandDims := [0, 1], indexVectorDim := 0, wf := wf }

section Win

variable (wf : ScatterDims.WF ⟨2, ![A, B]⟩ ⟨1, ![2]⟩ ⟨2, ![a, b]⟩ [0, 1] [] [0, 1] 0)
variable (idx : IVec ⟨1, ![2]⟩ 32) (hidx : ∀ i, idx i = 0#32) (j : (⟨2, ![a, b]⟩ : Shape).Idx)
include hidx

/-- Every start component is read off the index vector, which is zero. -/
theorem win_start (c : Fin 2) : (win (A := A) (B := B) wf).start j idx c = 0 := by
  unfold ScatterDims.start
  split
  · rw [hidx]; rfl
  · rfl

omit hidx in
/-- No operand axis is inserted: both are kept. -/
theorem win_mem (c : Fin 2) : c ∈ (win (A := A) (B := B) (a := a) (b := b) wf).sKept :=
  List.mem_filter.2 ⟨List.mem_finRange c, decide_eq_true List.not_mem_nil⟩

omit hidx in
/-- The window coordinate on operand axis 0 is the update position's coordinate 0. -/
theorem win_window0 : (win (A := A) (B := B) wf).window j 0 = (j 0).val := by
  unfold ScatterDims.window
  rw [dif_pos (win_mem wf 0)]
  rfl

omit hidx in
/-- The window coordinate on operand axis 1 is the update position's coordinate 1. -/
theorem win_window1 : (win (A := A) (B := B) wf).window j 1 = (j 1).val := by
  unfold ScatterDims.window
  rw [dif_pos (win_mem wf 1)]
  rfl

/-- Update position j lands at the operand position with j's coordinates, which is inside the operand. -/
theorem win_resultIdx (hA : a ≤ A) (hB : b ≤ B) : (win wf).resultIdx? j idx = some (emb hA hB j) := by
  unfold ScatterDims.resultIdx?
  have hall : ∀ c, 0 ≤ (win (A := A) (B := B) wf).start j idx c + ((win (A := A) (B := B) wf).window j c : ℤ)
      ∧ (win (A := A) (B := B) wf).start j idx c + ((win (A := A) (B := B) wf).window j c : ℤ)
          < ((⟨2, ![A, B]⟩ : Shape).size c : ℤ) := by
    intro c
    rw [win_start wf idx hidx j c]
    match c with
    | ⟨0, _⟩ =>
      have := idx2_lt0 j
      show 0 ≤ 0 + ((win (A := A) (B := B) wf).window j 0 : ℤ) ∧ 0 + ((win (A := A) (B := B) wf).window j 0 : ℤ) < (A : ℤ)
      rw [win_window0]; omega
    | ⟨1, _⟩ =>
      have := idx2_lt1 j
      show 0 ≤ 0 + ((win (A := A) (B := B) wf).window j 1 : ℤ) ∧ 0 + ((win (A := A) (B := B) wf).window j 1 : ℤ) < (B : ℤ)
      rw [win_window1]; omega
  rw [dif_pos hall]
  refine congrArg some (funext fun c => Fin.ext ?_)
  match c with
  | ⟨0, _⟩ =>
    show ((win (A := A) (B := B) wf).start j idx 0 + ((win (A := A) (B := B) wf).window j 0 : ℤ)).toNat = (j 0).val
    rw [win_start wf idx hidx j 0, win_window0]; omega
  | ⟨1, _⟩ =>
    show ((win (A := A) (B := B) wf).start j idx 1 + ((win (A := A) (B := B) wf).window j 1 : ℤ)).toNat = (j 1).val
    rw [win_start wf idx hidx j 1, win_window1]; omega

end Win

/-- The same for any record with these four lists. -/
theorem resultIdx_eq (d : ScatterDims ⟨2, ![A, B]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (hA : a ≤ A) (hB : b ≤ B) (idx : IVec ⟨1, ![2]⟩ 32) (hidx : ∀ i, idx i = 0#32)
    (j : (⟨2, ![a, b]⟩ : Shape).Idx) :
    d.resultIdx? j idx = some (emb hA hB j) := by
  obtain ⟨uw, iw, sd, iv, wf⟩ := d
  dsimp only at h1 h2 h3 h4
  subst h1 h2 h3 h4
  exact win_resultIdx wf idx hidx j hA hB

/-! ## The scatter read at an index -/

/-- A scatter of a whole a x b update at start (0, 0), its body returning the update's element: inside the
    top-left a x b window the result is the update, elsewhere the operand. -/
theorem scatter_window_apply (d : ScatterDims ⟨2, ![A, B]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (hA : a ≤ A) (hB : b ≤ B) (idx : IVec ⟨1, ![2]⟩ 32) (hidx : ∀ i, idx i = 0#32)
    (x : (⟨2, ![A, B]⟩ : Shape).Idx → α) (upd : (⟨2, ![a, b]⟩ : Shape).Idx → α) (p : Fin A) (q : Fin B) :
    Host.scatter d (fun _ u => u) x idx upd (ix2 p q)
      = if h : p.val < a ∧ q.val < b then upd (ix2 ⟨p.val, h.1⟩ ⟨q.val, h.2⟩) else x (ix2 p q) := by
  have hres := resultIdx_eq d h1 h2 h3 h4 hA hB idx hidx
  unfold Host.scatter
  by_cases h : p.val < a ∧ q.val < b
  · rw [dif_pos h]
    have hn : emb hA hB ((⟨2, ![a, b]⟩ : Shape).rowMajor.symm
        ((⟨2, ![a, b]⟩ : Shape).rowMajor (ix2 ⟨p.val, h.1⟩ ⟨q.val, h.2⟩))) = ix2 p q := by
      rw [Equiv.symm_apply_apply]; rfl
    refine (foldl_hit _ (ix2 p q)
      (fun n => emb hA hB ((⟨2, ![a, b]⟩ : Shape).rowMajor.symm n) = ix2 p q)
      (fun n => upd ((⟨2, ![a, b]⟩ : Shape).rowMajor.symm n)) ?_ ?_
      ((⟨2, ![a, b]⟩ : Shape).rowMajor (ix2 ⟨p.val, h.1⟩ ⟨q.val, h.2⟩)) hn
      (List.finRange _) x (List.nodup_finRange _) (List.mem_finRange _) ?_).trans ?_
    · intro r n hP
      dsimp only
      rw [hres]
      exact if_pos hP.symm
    · intro r n hP
      dsimp only
      rw [hres]
      exact if_neg fun e => hP e.symm
    · intro n' _ hP
      apply (⟨2, ![a, b]⟩ : Shape).rowMajor.symm.injective
      exact emb_injective hA hB (hP.trans hn.symm)
    · show upd ((⟨2, ![a, b]⟩ : Shape).rowMajor.symm ((⟨2, ![a, b]⟩ : Shape).rowMajor (ix2 ⟨p.val, h.1⟩ ⟨q.val, h.2⟩))) = _
      rw [Equiv.symm_apply_apply]
  · rw [dif_neg h]
    refine foldl_miss _ (ix2 p q)
      (fun n => emb hA hB ((⟨2, ![a, b]⟩ : Shape).rowMajor.symm n) = ix2 p q) ?_
      (List.finRange _) x fun n _ hP => h ?_
    · intro r n hP
      dsimp only
      rw [hres]
      exact if_neg fun e => hP e.symm
    · have h0 := congrArg (fun i : (⟨2, ![A, B]⟩ : Shape).Idx => (i 0).val) hP
      have h1' := congrArg (fun i : (⟨2, ![A, B]⟩ : Shape).Idx => (i 1).val) hP
      have l0 := idx2_lt0 ((⟨2, ![a, b]⟩ : Shape).rowMajor.symm n)
      have l1 := idx2_lt1 ((⟨2, ![a, b]⟩ : Shape).rowMajor.symm n)
      exact ⟨by rw [← show ((⟨2, ![a, b]⟩ : Shape).rowMajor.symm n 0).val = p.val from h0]; exact l0,
             by rw [← show ((⟨2, ![a, b]⟩ : Shape).rowMajor.symm n 1).val = q.val from h1']; exact l1⟩

/-- The same with the index vector given by its two components. -/
theorem scatter_window_apply' (d : ScatterDims ⟨2, ![A, B]⟩ ⟨1, ![2]⟩ ⟨2, ![a, b]⟩)
    (h1 : d.updateWindowDims = [0, 1]) (h2 : d.insertedWindowDims = [])
    (h3 : d.scatterDimsToOperandDims = [0, 1]) (h4 : d.indexVectorDim = 0)
    (hA : a ≤ A) (hB : b ≤ B) (idx : IVec ⟨1, ![2]⟩ 32)
    (hi0 : idx (ix1 (0 : Fin 2)) = 0#32) (hi1 : idx (ix1 (1 : Fin 2)) = 0#32)
    (x : (⟨2, ![A, B]⟩ : Shape).Idx → α) (upd : (⟨2, ![a, b]⟩ : Shape).Idx → α) (p : Fin A) (q : Fin B) :
    Host.scatter d (fun _ u => u) x idx upd (ix2 p q)
      = if h : p.val < a ∧ q.val < b then upd (ix2 ⟨p.val, h.1⟩ ⟨q.val, h.2⟩) else x (ix2 p q) :=
  scatter_window_apply d h1 h2 h3 h4 hA hB idx (fun i => by
    rw [eq_ix1 i]
    match i 0 with
    | ⟨0, _⟩ => exact hi0
    | ⟨1, _⟩ => exact hi1) x upd p q

end Cert.LibScatterWindow

end
-- ==== Proof.KPrefix.lean ====
/-
  The kernel's host prefix read at an index.

  Before the region is entered, @main reshapes six argument vectors to one-row matrices and pads two index tables
  (each transposed and written into the top-left window of a constant [8, 1792] array).  Each theorem here says what
  one of those arrays holds at an index given by its coordinates, in terms of the argument array it was made from.
-/
import proofs.«113836_g58789512347992_cont_9to1_m_63_2_alg».proof.Proof.Gen.KernelIdeal.Frame
import proofs.«113836_g58789512347992_cont_9to1_m_63_2_alg».proof.Proof.LibScatterWindow
import Idealize.ShloMosaic.Lib.Pipeline.Value
import Idealize.ShloMosaic.Lib.ValueIdx
import Idealize.ShloMosaic.Lib.ValueLayout

set_option maxRecDepth 16384

noncomputable section

namespace Cert.KernelIdeal.KPrefix

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The six reshapes: a vector as a one-row matrix

A vector of length n reshaped to [1, n] holds, at (u, k), the vector's element k: the row-major position of (u, k)
in a one-row matrix is k itself. -/

/-- The centres' row: argument 1 as a one-row matrix. -/
theorem row_c (u : Fin 1) (k : Fin 24) :
    (V m c main_v12 : S1x24.Idx → EReal) (ix2 u k)
      = (m ((c : Thread nD τ).loc main_arg1) : S24.Idx → EReal) (ix1 k) := by
  have e : (V m c main_v12 : S1x24.Idx → EReal)
      = shapeCast S1x24 (m ((c : Thread nD τ).loc main_arg1) : S24.Idx → EReal) shapeCasts_S24_S1x24 := by
    dsimp only [Gen.V, Gen.hostOps0]; after_results; rfl
  rw [e]; exact shapeCast_a_1a_apply _ _ u k

/-- The widths' row: argument 2 as a one-row matrix. -/
theorem row_s (u : Fin 1) (k : Fin 24) :
    (V m c main_v13 : S1x24.Idx → EReal) (ix2 u k)
      = (m ((c : Thread nD τ).loc main_arg2) : S24.Idx → EReal) (ix1 k) := by
  have e : (V m c main_v13 : S1x24.Idx → EReal)
      = shapeCast S1x24 (m ((c : Thread nD τ).loc main_arg2) : S24.Idx → EReal) shapeCasts_S24_S1x24 := by
    dsimp only [Gen.V, Gen.hostOps0]; after_results; rfl
  rw [e]; exact shapeCast_a_1a_apply _ _ u k

/-- The output centres' row: argument 3 as a one-row matrix. -/
theorem row_oc (u : Fin 1) (k : Fin 18) :
    (V m c main_v14 : S1x18.Idx → EReal) (ix2 u k)
      = (m ((c : Thread nD τ).loc main_arg3) : S18.Idx → EReal) (ix1 k) := by
  have e : (V m c main_v14 : S1x18.Idx → EReal)
      = shapeCast S1x18 (m ((c : Thread nD τ).loc main_arg3) : S18.Idx → EReal) shapeCasts_S18_S1x18 := by
    dsimp only [Gen.V, Gen.hostOps0]; after_results; rfl
  rw [e]; exact shapeCast_a_1a_apply _ _ u k

/-- The variable map's row: argument 8 (index words) as a one-row matrix. -/
theorem row_vm (u : Fin 1) (k : Fin 24) :
    (V m c main_v15 : S1x24.Idx → BitVec 32) (ix2 u k)
      = (m ((c : Thread nD τ).loc main_arg8) : S24.Idx → BitVec 32) (ix1 k) := by
  have e : (V m c main_v15 : S1x24.Idx → BitVec 32)
      = shapeCast S1x24 (m ((c : Thread nD τ).loc main_arg8) : S24.Idx → BitVec 32) shapeCasts_S24_S1x24 := by
    dsimp only [Gen.V, Gen.hostOps0]; after_results; rfl
  rw [e]; exact shapeCast_a_1a_apply _ _ u k

/-- The scales' row: argument 4 as a one-row matrix. -/
theorem row_sc (u : Fin 1) (k : Fin 2) :
    (V m c main_v16 : S1x2.Idx → EReal) (ix2 u k)
      = (m ((c : Thread nD τ).loc main_arg4) : S2.Idx → EReal) (ix1 k) := by
  have e : (V m c main_v16 : S1x2.Idx → EReal)
      = shapeCast S1x2 (m ((c : Thread nD τ).loc main_arg4) : S2.Idx → EReal) shapeCasts_S2_S1x2 := by
    dsimp only [Gen.V, Gen.hostOps0]; after_results; rfl
  rw [e]; exact shapeCast_a_1a_apply _ _ u k

/-- The biases' row: argument 5 as a one-row matrix. -/
theorem row_bi (u : Fin 1) (k : Fin 2) :
    (V m c main_v17 : S1x2.Idx → EReal) (ix2 u k)
      = (m ((c : Thread nD τ).loc main_arg5) : S2.Idx → EReal) (ix1 k) := by
  have e : (V m c main_v17 : S1x2.Idx → EReal)
      = shapeCast S1x2 (m ((c : Thread nD τ).loc main_arg5) : S2.Idx → EReal) shapeCasts_S2_S1x2 := by
    dsimp only [Gen.V, Gen.hostOps0]; after_results; rfl
  rw [e]; exact shapeCast_a_1a_apply _ _ u k

/-! ## The two padded index tables

Each is a constant [8, 1792] array with the transposed argument table written into its top-left window by a scatter
at start (0, 0). -/

/-- The start index of both scatters, two zeros joined end to end: every component is zero. -/
theorem start_zero (i : S2.Idx) :
    (concatenate S2 0 [⟨S1, broadcastInDim S1 ![] bcast_S_S1 (constantI S_ 32 0#32)⟩,
      ⟨S1, broadcastInDim S1 ![] bcast_S_S1 (constantI S_ 32 0#32)⟩] concatenates_S1_S1_S2_d0 : S2.Idx → BitVec 32) i = 0#32 := by
  rw [eq_ix1 i]
  match i 0 with
  | ⟨0, _⟩ =>
    exact (concatenate_pair_apply_left (t := S2) (s₁ := S1) (s₂ := S1) 0 _ _ concatenates_S1_S1_S2_d0 _ rfl (ix1 (0 : Fin 1))
      (fun b => match b with | ⟨0, _⟩ => rfl)).trans rfl
  | ⟨1, _⟩ =>
    exact (concatenate_pair_apply_right (t := S2) (s₁ := S1) (s₂ := S1) 0 _ _ concatenates_S1_S1_S2_d0 _ rfl rfl (ix1 (0 : Fin 1))
      (fun b hb => match b, hb with | ⟨0, _⟩, hb => absurd rfl hb) rfl).trans rfl

/-- The rule table, padded: variable v of rule r inside the 5 x 1750 window, the sentinel 31 outside it. -/
theorem rules_t (v : Fin 8) (r : Fin 1792) :
    (V m c main_v5 : S8x1792.Idx → BitVec 32) (ix2 v r)
      = if h : v.val < 5 ∧ r.val < 1750 then
          (m ((c : Thread nD τ).loc main_arg6) : S1750x5.Idx → BitVec 32) (ix2 ⟨r.val, h.2⟩ ⟨v.val, h.1⟩)
        else 31#32 := by
  have e : (V m c main_v5 : S8x1792.Idx → BitVec 32)
      = Host.scatter scatter_S8x1792_S2_S5x1750_01_n_01_0 (fun _ b => b)
          (broadcastInDim S8x1792 ![] bcast_S_S8x1792 (constantI S_ 32 31#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (transpose S5x1750 [1, 0] (m ((c : Thread nD τ).loc main_arg6) : S1750x5.Idx → BitVec 32) transposes_S1750x5_S5x1750_1_0) := by
    dsimp only [Gen.V, Gen.hostOps0]; after_results
  rw [e, Cert.LibScatterWindow.scatter_window_apply scatter_S8x1792_S2_S5x1750_01_n_01_0 rfl rfl rfl rfl
    (by decide) (by decide) _ start_zero]
  by_cases h : v.val < 5 ∧ r.val < 1750
  · rw [dif_pos h, dif_pos h]
    exact transpose_ix2_apply _ _ _ _
  · rw [dif_neg h, dif_neg h]
    rfl

/-- The output-rule table, padded: output variable v of rule r inside the 2 x 1750 window, zero outside it. -/
theorem orules_t (v : Fin 8) (r : Fin 1792) :
    (V m c main_v11 : S8x1792.Idx → BitVec 32) (ix2 v r)
      = if h : v.val < 2 ∧ r.val < 1750 then
          (m ((c : Thread nD τ).loc main_arg7) : S1750x2.Idx → BitVec 32) (ix2 ⟨r.val, h.2⟩ ⟨v.val, h.1⟩)
        else 0#32 := by
  have e : (V m c main_v11 : S8x1792.Idx → BitVec 32)
      = Host.scatter scatter_S8x1792_S2_S2x1750_01_n_01_0 (fun _ b => b)
          (broadcastInDim S8x1792 ![] bcast_S_S8x1792 (constantI S_ 32 0#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (transpose S2x1750 [1, 0] (m ((c : Thread nD τ).loc main_arg7) : S1750x2.Idx → BitVec 32) transposes_S1750x2_S2x1750_1_0) := by
    dsimp only [Gen.V, Gen.hostOps0]; after_results
  rw [e, Cert.LibScatterWindow.scatter_window_apply scatter_S8x1792_S2_S2x1750_01_n_01_0 rfl rfl rfl rfl
    (by decide) (by decide) _ start_zero]
  by_cases h : v.val < 2 ∧ r.val < 1750
  · rw [dif_pos h, dif_pos h]
    exact transpose_ix2_apply _ _ _ _
  · rw [dif_neg h, dif_neg h]
    rfl

end Cert.KernelIdeal.KPrefix

end
-- ==== Proof.KValue.lean ====
/-
  The kernel's blocks put together into the whole result array.

  The grid has eight points.  Point `t` loads rows `512 t … 512 t + 511` of the input and the whole of every other
  array (the centres, widths, consequent centres, scales and offsets as single rows, the membership-to-variable words,
  and the two padded index tables), and writes back rows `512 t … 512 t + 511` of the output.  Each entry the body
  writes is the network's output for its row (one block of the body, `KBody.block_eq`), so what point `t` writes back
  is block `t` of the network in the kernel's spelling, `Spec.GK`, of the argument arrays.  The eight blocks tile the
  output, so the output array after the run is `Spec.GK`.  The index words enter through their decoding: a word that
  lies in its range is the word of its own remainder.
-/
import proofs.«113836_g58789512347992_cont_9to1_m_63_2_alg».proof.Proof.Gen.KernelIdeal.Value
import proofs.«113836_g58789512347992_cont_9to1_m_63_2_alg».proof.Proof.KBlock
import proofs.«113836_g58789512347992_cont_9to1_m_63_2_alg».proof.Proof.KPrefix
import proofs.«113836_g58789512347992_cont_9to1_m_63_2_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Index words -/

/-- A word that, read signed, lies in `[0, n)` is the word of its own remainder modulo `n`. -/
theorem word_eq_dec (n : Nat) (hn : 0 < n) (w : BitVec 32) (h0 : 0 ≤ w.toInt) (h1 : w.toInt < (n : Int)) :
    w = BitVec.ofNat 32 (Cert.Spec.dec n hn w).val := by
  have hlt := w.isLt
  have hi : w.toInt = (w.toNat : Int) := by
    have hc := BitVec.toInt_eq_toNat_cond w
    by_cases h : 2 * w.toNat < 2 ^ 32
    · rw [hc, if_pos h]
    · rw [hc, if_neg h] at h0; omega
  have hw : w.toNat < n := by omega
  show w = BitVec.ofNat 32 (w.toNat % n)
  rw [Nat.mod_eq_of_lt hw, BitVec.ofNat_toNat, BitVec.setWidth_eq]

/-! ## Where each window's block sits, decided over the eight grid points -/

/-- The grid has eight points. -/
theorem t_lt (t : Fin cfg0.N) : t.val < 8 := lt_of_lt_of_eq t.isLt N_0

/-- The row block moves with the grid point on the input rows and on the output; every other window stages its whole
    array at every point. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The output block's entry `(p, q)` at point `t` is the array's entry `(512 t + p, q)`. -/
theorem emb9 (t : Fin cfg0.N) (p : Fin 512) (q : Fin 2) (b : Fin 4096) (hb : b.val = t.val * 512 + p.val) :
    ((cfg0.win 9).blk t).view.emb (ix2 p q) = (ix2 b q : S4096x2.Idx) := by
  obtain ⟨e0, e1, -⟩ := idx_facts t
  funext a; apply Fin.ext
  match a with
  | ⟨0, _⟩ => show win0_9.index t (0 : Fin 2) * 512 + 1 * p.val = b.val; omega
  | ⟨1, _⟩ => show win0_9.index t (1 : Fin 2) * 2 + 1 * q.val = q.val; omega

/-- The input rows' block likewise. -/
theorem emb0 (t : Fin cfg0.N) (p : Fin 512) (v : Fin 5) (b : Fin 4096) (hb : b.val = t.val * 512 + p.val) :
    ((cfg0.win 0).blk t).view.emb (ix2 p v) = (ix2 b v : S4096x5.Idx) := by
  obtain ⟨-, -, e0, e1, -⟩ := idx_facts t
  funext a; apply Fin.ext
  match a with
  | ⟨0, _⟩ => show win0_0.index t (0 : Fin 2) * 512 + 1 * p.val = b.val; omega
  | ⟨1, _⟩ => show win0_0.index t (1 : Fin 2) * 5 + 1 * v.val = v.val; omega

/-! ## The windows that stage a whole array: a block's entry is the array's entry -/

theorem emb1 (t : Fin cfg0.N) (u : Fin 1) (k : Fin 24) :
    ((cfg0.win 1).blk t).view.emb (ix2 u k) = (ix2 u k : S1x24.Idx) := by
  obtain ⟨-, -, -, -, e0, e1, -⟩ := idx_facts t
  funext a; apply Fin.ext
  match a with
  | ⟨0, _⟩ => show win0_1.index t (0 : Fin 2) * 1 + 1 * u.val = u.val; omega
  | ⟨1, _⟩ => show win0_1.index t (1 : Fin 2) * 24 + 1 * k.val = k.val; omega

theorem emb2 (t : Fin cfg0.N) (u : Fin 1) (k : Fin 24) :
    ((cfg0.win 2).blk t).view.emb (ix2 u k) = (ix2 u k : S1x24.Idx) := by
  obtain ⟨-, -, -, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 24 + 1 * k.val = k.val; omega

theorem emb3 (t : Fin cfg0.N) (u : Fin 1) (k : Fin 18) :
    ((cfg0.win 3).blk t).view.emb (ix2 u k) = (ix2 u k : S1x18.Idx) := by
  obtain ⟨-, -, -, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 18 + 1 * k.val = k.val; omega

theorem emb4 (t : Fin cfg0.N) (u : Fin 1) (k : Fin 2) :
    ((cfg0.win 4).blk t).view.emb (ix2 u k) = (ix2 u k : S1x2.Idx) := by
  obtain ⟨-, -, -, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 2 + 1 * k.val = k.val; omega

theorem emb5 (t : Fin cfg0.N) (u : Fin 1) (k : Fin 2) :
    ((cfg0.win 5).blk t).view.emb (ix2 u k) = (ix2 u k : S1x2.Idx) := by
  obtain ⟨-, -, -, -, -, -, -, -, -, -, -, -, e0, e1, -⟩ := idx_facts t
  funext a; apply Fin.ext
  match a with
  | ⟨0, _⟩ => show win0_5.index t (0 : Fin 2) * 1 + 1 * u.val = u.val; omega
  | ⟨1, _⟩ => show win0_5.index t (1 : Fin 2) * 2 + 1 * k.val = k.val; omega

theorem emb6 (t : Fin cfg0.N) (u : Fin 8) (k : Fin 1792) :
    ((cfg0.win 6).blk t).view.emb (ix2 u k) = (ix2 u k : S8x1792.Idx) := by
  obtain ⟨-, -, -, -, -, -, -, -, -, -, -, -, -, -, e0, e1, -⟩ := idx_facts t
  funext a; apply Fin.ext
  match a with
  | ⟨0, _⟩ => show win0_6.index t (0 : Fin 2) * 8 + 1 * u.val = u.val; omega
  | ⟨1, _⟩ => show win0_6.index t (1 : Fin 2) * 1792 + 1 * k.val = k.val; omega

theorem emb7 (t : Fin cfg0.N) (u : Fin 8) (k : Fin 1792) :
    ((cfg0.win 7).blk t).view.emb (ix2 u k) = (ix2 u k : S8x1792.Idx) := by
  obtain ⟨-, -, -, -, -, -, -, -, -, -, -, -, -, -, -, -, e0, e1, -⟩ := idx_facts t
  funext a; apply Fin.ext
  match a with
  | ⟨0, _⟩ => show win0_7.index t (0 : Fin 2) * 8 + 1 * u.val = u.val; omega
  | ⟨1, _⟩ => show win0_7.index t (1 : Fin 2) * 1792 + 1 * k.val = k.val; omega

theorem emb8 (t : Fin cfg0.N) (u : Fin 1) (k : Fin 24) :
    ((cfg0.win 8).blk t).view.emb (ix2 u k) = (ix2 u k : S1x24.Idx) := by
  obtain ⟨-, -, -, -, -, -, -, -, -, -, -, -, -, -, -, -, -, -, e0, e1⟩ := idx_facts t
  funext a; apply Fin.ext
  match a with
  | ⟨0, _⟩ => show win0_8.index t (0 : Fin 2) * 1 + 1 * u.val = u.val; omega
  | ⟨1, _⟩ => show win0_8.index t (1 : Fin 2) * 24 + 1 * k.val = k.val; omega

/-! ## Each window's block, read at an entry, in terms of the argument arrays -/

variable (c : Dev nD) (t : Fin cfg0.N)

/-- Row `p` of the input block at point `t` is row `512 t + p` of the input. -/
theorem read0 (p : Fin 512) (v : Fin 5) (b : Fin 4096) (hb : b.val = t.val * 512 + p.val) :
    (iblk m c 0 t : S512x5.Idx → EReal) (ix2 p v)
      = (m ((c : Thread nD τ).loc main_arg0) : S4096x5.Idx → EReal) (ix2 b v) := by
  show (V m c main_arg0 : S4096x5.Idx → EReal) (((cfg0.win 0).blk t).view.emb (ix2 p v)) = _
  rw [emb0 t p v b hb, V_main_arg0]

/-- The centres' block is the centres. -/
theorem read1 (u : Fin 1) (k : Fin 24) :
    (iblk m c 1 t : S1x24.Idx → EReal) (ix2 u k) = (m ((c : Thread nD τ).loc main_arg1) : S24.Idx → EReal) (ix1 k) := by
  show (V m c main_v12 : S1x24.Idx → EReal) (((cfg0.win 1).blk t).view.emb (ix2 u k)) = _
  rw [emb1 t u k]; exact KPrefix.row_c m c u k

/-- The widths' block is the widths. -/
theorem read2 (u : Fin 1) (k : Fin 24) :
    (iblk m c 2 t : S1x24.Idx → EReal) (ix2 u k) = (m ((c : Thread nD τ).loc main_arg2) : S24.Idx → EReal) (ix1 k) := by
  show (V m c main_v13 : S1x24.Idx → EReal) (((cfg0.win 2).blk t).view.emb (ix2 u k)) = _
  rw [emb2 t u k]; exact KPrefix.row_s m c u k

/-- The consequent centres' block is the consequent centres. -/
theorem read3 (u : Fin 1) (k : Fin 18) :
    (iblk m c 3 t : S1x18.Idx → EReal) (ix2 u k) = (m ((c : Thread nD τ).loc main_arg3) : S18.Idx → EReal) (ix1 k) := by
  show (V m c main_v14 : S1x18.Idx → EReal) (((cfg0.win 3).blk t).view.emb (ix2 u k)) = _
  rw [emb3 t u k]; exact KPrefix.row_oc m c u k

/-- The scales' block is the scales. -/
theorem read4 (u : Fin 1) (k : Fin 2) :
    (iblk m c 4 t : S1x2.Idx → EReal) (ix2 u k) = (m ((c : Thread nD τ).loc main_arg4) : S2.Idx → EReal) (ix1 k) := by
  show (V m c main_v16 : S1x2.Idx → EReal) (((cfg0.win 4).blk t).view.emb (ix2 u k)) = _
  rw [emb4 t u k]; exact KPrefix.row_sc m c u k

/-- The offsets' block is the offsets. -/
theorem read5 (u : Fin 1) (k : Fin 2) :
    (iblk m c 5 t : S1x2.Idx → EReal) (ix2 u k) = (m ((c : Thread nD τ).loc main_arg5) : S2.Idx → EReal) (ix1 k) := by
  show (V m c main_v17 : S1x2.Idx → EReal) (((cfg0.win 5).blk t).view.emb (ix2 u k)) = _
  rw [emb5 t u k]; exact KPrefix.row_bi m c u k

/-- The antecedent table's block: rule `r`'s word for variable `v` inside the 5 x 1750 window, the word 31 in the padding. -/
theorem read6 (v : Fin 8) (r : Fin 1792) :
    (iblk m c 6 t : S8x1792.Idx → BitVec 32) (ix2 v r)
      = if h : v.val < 5 ∧ r.val < 1750 then
          (m ((c : Thread nD τ).loc main_arg6) : S1750x5.Idx → BitVec 32) (ix2 ⟨r.val, h.2⟩ ⟨v.val, h.1⟩)
        else 31#32 := by
  show (V m c main_v5 : S8x1792.Idx → BitVec 32) (((cfg0.win 6).blk t).view.emb (ix2 v r)) = _
  rw [emb6 t v r]; exact KPrefix.rules_t m c v r

/-- The consequent table's block: rule `r`'s word for output `v` inside the 2 x 1750 window, zero in the padding. -/
theorem read7 (v : Fin 8) (r : Fin 1792) :
    (iblk m c 7 t : S8x1792.Idx → BitVec 32) (ix2 v r)
      = if h : v.val < 2 ∧ r.val < 1750 then
          (m ((c : Thread nD τ).loc main_arg7) : S1750x2.Idx → BitVec 32) (ix2 ⟨r.val, h.2⟩ ⟨v.val, h.1⟩)
        else 0#32 := by
  show (V m c main_v11 : S8x1792.Idx → BitVec 32) (((cfg0.win 7).blk t).view.emb (ix2 v r)) = _
  rw [emb7 t v r]; exact KPrefix.orules_t m c v r

/-- The membership-to-variable words' block is those words. -/
theorem read8 (u : Fin 1) (k : Fin 24) :
    (iblk m c 8 t : S1x24.Idx → BitVec 32) (ix2 u k) = (m ((c : Thread nD τ).loc main_arg8) : S24.Idx → BitVec 32) (ix1 k) := by
  show (V m c main_v15 : S1x24.Idx → BitVec 32) (((cfg0.win 8).blk t).view.emb (ix2 u k)) = _
  rw [emb8 t u k]; exact KPrefix.row_vm m c u k

/-! ## One block of the output is one block of the network in the kernel's spelling -/

section Block

open Cert.Spec

/-- Over blocks and argument arrays as variables: if the nine loaded blocks hold what the windows read from the argument
    arrays, and the index words are in range, entry `(p, q)` of the body's result is the network's output for row `b`. -/
theorem block_GK (a0 : FVec Ideal ⟨2, ![4096, 5]⟩ .f32) (a1 a2 : FVec Ideal ⟨1, ![24]⟩ .f32) (a3 : FVec Ideal ⟨1, ![18]⟩ .f32)
    (a4 a5 : FVec Ideal ⟨1, ![2]⟩ .f32) (a6 : IVec ⟨2, ![1750, 5]⟩ 32) (a7 : IVec ⟨2, ![1750, 2]⟩ 32) (a8 : IVec ⟨1, ![24]⟩ 32)
    (hdom : Dom a0 a1 a2 a3 a4 a5 a6 a7 a8)
    (xb : Vec Ideal S512x5 .f32) (cb sb : Vec Ideal S1x24 .f32) (ocb : Vec Ideal S1x18 .f32)
    (scb bib : Vec Ideal S1x2 .f32) (rt ot : Vec Ideal S8x1792 .i32) (vmb : Vec Ideal S1x24 .i32)
    (b : Fin 4096) (p : Fin 512) (q : Fin 2)
    (hx : ∀ v : Fin 5, xb (ix2 p v) = a0 (ix2 b v))
    (hc : ∀ k : Fin 24, cb (ix2 (0 : Fin 1) k) = a1 (ix1 k))
    (hs : ∀ k : Fin 24, sb (ix2 (0 : Fin 1) k) = a2 (ix1 k))
    (hoc : ∀ k : Fin 18, ocb (ix2 (0 : Fin 1) k) = a3 (ix1 k))
    (hsc : ∀ j : Fin 2, scb (ix2 (0 : Fin 1) j) = a4 (ix1 j))
    (hbi : ∀ j : Fin 2, bib (ix2 (0 : Fin 1) j) = a5 (ix1 j))
    (hvm : ∀ k : Fin 24, vmb (ix2 (0 : Fin 1) k) = a8 (ix1 k))
    (hrt : ∀ (v : Fin 8) (r : Fin 1792), rt (ix2 v r)
      = if h : v.val < 5 ∧ r.val < 1750 then a6 (ix2 ⟨r.val, h.2⟩ ⟨v.val, h.1⟩) else 31#32)
    (hot : ∀ (v : Fin 8) (r : Fin 1792), ot (ix2 v r)
      = if h : v.val < 2 ∧ r.val < 1750 then a7 (ix2 ⟨r.val, h.2⟩ ⟨v.val, h.1⟩) else 0#32) :
    out0_9 (F := Ideal) xb cb sb ocb scb bib rt ot vmb (ix2 p q) = GK a0 a1 a2 a3 a4 a5 a6 a7 a8 (ix2 b q) := by
  show _ = outK (xF a0) (vF a1) (vF a2) (vF a3) (vF a4) (vF a5) (vmF a8) (irF a6) (orF a7) b q
  refine KBody.block_eq xb cb sb ocb scb bib rt ot vmb (xF a0) (vF a1) (vF a2) (vF a3) (vF a4) (vF a5) (vmF a8) (irF a6)
    (orF a7) b p q hx hc hs hoc hsc hbi ?_ ?_ ?_
  · intro k
    rw [hvm k]
    exact word_eq_dec 5 (by decide) _ (hdom.vm_rng _).1 (hdom.vm_rng _).2
  · intro v r
    rw [hrt]
    by_cases h : r.val < 1750
    · rw [dif_pos (⟨v.isLt, h⟩ : v.val < 5 ∧ r.val < 1750), dif_pos h]
      exact word_eq_dec 24 (by decide) _ (hdom.ir_rng _).1 (hdom.ir_rng _).2
    · rw [dif_neg (fun h' : v.val < 5 ∧ r.val < 1750 => h h'.2), dif_neg h]
  · intro j r
    rw [hot]
    by_cases h : r.val < 1750
    · rw [dif_pos (⟨j.isLt, h⟩ : j.val < 2 ∧ r.val < 1750), dif_pos h]
      exact word_eq_dec 18 (by decide) _ (hdom.or_rng _).1 (hdom.or_rng _).2
    · rw [dif_neg (fun h' : j.val < 2 ∧ r.val < 1750 => h h'.2), dif_neg h]

end Block

/-! ## What a grid point writes back, the cover, and the whole array -/

/-- Point `t` writes back block `t` of the network in the kernel's spelling. -/
theorem flushed_eq (hdom : Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    (dats m 0 c).flushed 9 t = ((cfg0.win 9).blk t).view.read (Elt Ideal) (Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed9]
  funext y
  obtain ⟨p, q, rfl⟩ : ∃ (p : Fin 512) (q : Fin 2), y = ix2 p q := ⟨y 0, y 1, eq_ix2 (n0 := 512) (n1 := 2) y⟩
  have hb : t.val * 512 + p.val < 4096 := by have := t_lt t; omega
  show out0_9 (F := Ideal) (iblk m c 0 t) (iblk m c 1 t) (iblk m c 2 t) (iblk m c 3 t) (iblk m c 4 t) (iblk m c 5 t) (iblk m c 6 t) (iblk m c 7 t) (iblk m c 8 t) (ix2 p q)
    = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  rw [emb9 t p q ⟨t.val * 512 + p.val, hb⟩ rfl]
  exact block_GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) hdom (iblk m c 0 t) (iblk m c 1 t) (iblk m c 2 t) (iblk m c 3 t) (iblk m c 4 t) (iblk m c 5 t) (iblk m c 6 t) (iblk m c 7 t) (iblk m c 8 t) ⟨t.val * 512 + p.val, hb⟩ p q
    (fun v => read0 m c t p v _ rfl) (fun k => read1 m c t 0 k) (fun k => read2 m c t 0 k) (fun k => read3 m c t 0 k)
    (fun j => read4 m c t 0 j) (fun j => read5 m c t 0 j) (fun k => read8 m c t 0 k)
    (fun v r => read6 m c t v r) (fun v r => read7 m c t v r)

/-- An index of the output is in point `t`'s block exactly when each coordinate is in the block's range on its axis. -/
theorem mem_blk (t : Fin cfg0.N) (i : S4096x2.Idx) :
    i ∈ ((cfg0.win 9).blk t).view.set ↔ ∀ a : Fin 2, win0_9.index t a * S512x2.size a ≤ (i a).val
      ∧ (i a).val < win0_9.index t a * S512x2.size a + S512x2.size a := by
  show i ∈ ((View.whole main_v18).slice (win0_9.rect t)).set ↔ _
  rw [View.set_slice_whole, Rect.mem_set_unit]
  exact Iff.rfl

/-- Every index of the output lies in some point's block: row `r` in the block of point `r / 512`. -/
theorem cover (i : S4096x2.Idx) :
    ∃ t : Fin cfg0.N, (cfg0.win 9).flush t = true ∧ i ∈ ((cfg0.win 9).blk t).view.set := by
  have hi0 : (i 0).val < 4096 := (i 0).isLt
  have hi1 : (i 1).val < 2 := (i 1).isLt
  have hN : (i 0).val / 512 < cfg0.N := by rw [show cfg0.N = 8 from N_0]; omega
  refine ⟨⟨(i 0).val / 512, hN⟩, flush0_9 _, ?_⟩
  rw [mem_blk]
  obtain ⟨e0, e1, -⟩ := idx_facts ⟨(i 0).val / 512, hN⟩
  have e0' : win0_9.index ⟨(i 0).val / 512, hN⟩ (0 : Fin 2) = (i 0).val / 512 := e0
  intro a
  match a with
  | ⟨0, _⟩ =>
    show win0_9.index ⟨(i 0).val / 512, hN⟩ (0 : Fin 2) * 512 ≤ (i 0).val
      ∧ (i 0).val < win0_9.index ⟨(i 0).val / 512, hN⟩ (0 : Fin 2) * 512 + 512
    omega
  | ⟨1, _⟩ =>
    show win0_9.index ⟨(i 0).val / 512, hN⟩ (1 : Fin 2) * 2 ≤ (i 1).val
      ∧ (i 1).val < win0_9.index ⟨(i 0).val / 512, hN⟩ (1 : Fin 2) * 2 + 2
    omega

/-- THE OUTPUT ARRAY after the run is the network in the kernel's spelling, of the argument arrays as launched. -/
theorem final (hdom : Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    (dats m 0 c).arrAt 9 cfg0.N = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t hdom) cover

/-- The kernel's run: the result array is the network in the kernel's spelling, the arguments unchanged. -/
theorem run (hdom : ∀ c : Dev nD, Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    θ_run (defs (F := Ideal)) (onTc (τ := τ) (main (F := Ideal))) ⟨m, fun _ => 0, ρ⟩ (fun r => ∀ c : Dev nD,
      r.2.mem ((c : Thread nD τ).loc main_v18) = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h c).1.trans (final m c (hdom c)), (h c).2⟩) (Value.run_blocks m ρ)

end Cert.KernelIdeal.KValue

end
-- ==== Proof.RefRunA.lean ====
/- The reference program's @main as the list of its host operations, in order, with the three
   outlined gathers written at their call sites over each call's own buffers; the program is the
   straight line of that list, and every weakly fair execution of it ends with each buffer at the
   list's fold over the launch contents. The list is cut at the calls into six segments. -/
import proofs.«113836_g58789512347992_cont_9to1_m_63_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The six segments

Each clamped gather is its callee's lines at the call: the index compared with zero, the wrapped
index, the choice between them, the choice as a column, its comparison with the two ends of the
axis, the conjunction reduced along the unit axis, the gather itself, and the choice between the
gathered value and the filler where the index was out of range. -/

/-- The first clamped gather (column of `x` per membership set): the 23 lines of its callee over the call's buffers. -/
abbrev opsC0 : List (HloOp τ sig (Elt F)) :=
  [ TRef.nullary main_call0.c (constantI S_ 32 0#32),
    TRef.unary main_call0.c main_call0.v0 (broadcastInDim S24 ![] bcast_S_S24),
    TRef.binary (.of main_arg8 : TRef sig ⟨S24, .i32⟩) main_call0.v0 main_call0.v1 (cmpi .slt),
    TRef.nullary main_call0.c_0 (constantI S_ 32 5#32),
    TRef.unary main_call0.c_0 main_call0.v2 (broadcastInDim S24 ![] bcast_S_S24),
    TRef.binary (.of main_arg8 : TRef sig ⟨S24, .i32⟩) main_call0.v2 main_call0.v3 addi,
    TRef.ternary main_call0.v1 main_call0.v3 (.of main_arg8 : TRef sig ⟨S24, .i32⟩) main_call0.call0.v0 select,
    TRef.unary main_call0.call0.v0 main_call0.v5 (broadcastInDim S24x1 ![0] bcast_S24_S24x1_0),
    TRef.nullary main_call0.c_1 (constantI S1 32 4#32),
    TRef.nullary main_call0.c_2 (constantI S_ 32 0#32),
    TRef.unary main_call0.c_2 main_call0.v6 (broadcastInDim S24x1 ![] bcast_S_S24x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S24x1 ![0, 1] bcast_S1x1_S24x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S24x1_S24_d1 h_S_),
    TRef.binary (.of main_arg0 : TRef sig ⟨S4096x5, .f32⟩) main_call0.v5 main_call0.v13 (fun x i => Host.gather gather_S4096x5_S24x1_S4096x24_0_1_n_n_1_1_40961 x i),
    TRef.unary main_call0.v12 main_call0.v14 (broadcastInDim S4096x24 ![1] bcast_S24_S4096x24_1),
    TRef.nullary main_call0.cst (constant S_ .f32 0x7FC00000#32),
    TRef.unary main_call0.cst main_call0.v15 (broadcastInDim S4096x24 ![] bcast_S_S4096x24),
    TRef.ternary main_call0.v14 main_call0.v13 main_call0.v15 main_call0.v16 select ]

/-- The Gaussian membership values: centre and width broadcast along the batch, the negated square over twice the squared width, its exponential; then the antecedent table flattened. -/
abbrev opsM1 : List (HloOp τ sig (Elt F)) :=
  [ unary main_arg1 main_v1 (broadcastInDim S1x24 ![1] bcast_S24_S1x24_1 : (⟨S24, .f32⟩ : BufTy).Contents (Elt F) → (⟨S1x24, .f32⟩ : BufTy).Contents (Elt F)),
    unary main_v1 main_v2 (broadcastInDim S4096x24 ![0, 1] bcast_S1x24_S4096x24_0_1 : (⟨S1x24, .f32⟩ : BufTy).Contents (Elt F) → (⟨S4096x24, .f32⟩ : BufTy).Contents (Elt F)),
    binary main_v0 main_v2 main_v3 (subf : (⟨S4096x24, .f32⟩ : BufTy).Contents (Elt F) → (⟨S4096x24, .f32⟩ : BufTy).Contents (Elt F) → (⟨S4096x24, .f32⟩ : BufTy).Contents (Elt F)),
    binary main_v3 main_v3 main_v4 (mulf : (⟨S4096x24, .f32⟩ : BufTy).Contents (Elt F) → (⟨S4096x24, .f32⟩ : BufTy).Contents (Elt F) → (⟨S4096x24, .f32⟩ : BufTy).Contents (Elt F)),
    unary main_v4 main_v5 (Host.negf : (⟨S4096x24, .f32⟩ : BufTy).Contents (Elt F) → (⟨S4096x24, .f32⟩ : BufTy).Contents (Elt F)),
    unary main_arg2 main_v6 (broadcastInDim S1x24 ![1] bcast_S24_S1x24_1 : (⟨S24, .f32⟩ : BufTy).Contents (Elt F) → (⟨S1x24, .f32⟩ : BufTy).Contents (Elt F)),
    binary main_v6 main_v6 main_v7 (mulf : (⟨S1x24, .f32⟩ : BufTy).Contents (Elt F) → (⟨S1x24, .f32⟩ : BufTy).Contents (Elt F) → (⟨S1x24, .f32⟩ : BufTy).Contents (Elt F)),
    nullary main_cst (constant S_ .f32 0x40000000#32),
    unary main_cst main_v8 (broadcastInDim S1x24 ![] bcast_S_S1x24 : (⟨S_, .f32⟩ : BufTy).Contents (Elt F) → (⟨S1x24, .f32⟩ : BufTy).Contents (Elt F)),
    binary main_v8 main_v7 main_v9 (mulf : (⟨S1x24, .f32⟩ : BufTy).Contents (Elt F) → (⟨S1x24, .f32⟩ : BufTy).Contents (Elt F) → (⟨S1x24, .f32⟩ : BufTy).Contents (Elt F)),
    unary main_v9 main_v10 (broadcastInDim S4096x24 ![0, 1] bcast_S1x24_S4096x24_0_1 : (⟨S1x24, .f32⟩ : BufTy).Contents (Elt F) → (⟨S4096x24, .f32⟩ : BufTy).Contents (Elt F)),
    binary main_v5 main_v10 main_v11 (Host.divf : (⟨S4096x24, .f32⟩ : BufTy).Contents (Elt F) → (⟨S4096x24, .f32⟩ : BufTy).Contents (Elt F) → (⟨S4096x24, .f32⟩ : BufTy).Contents (Elt F)),
    unary main_v11 main_v12 (Host.exp : (⟨S4096x24, .f32⟩ : BufTy).Contents (Elt F) → (⟨S4096x24, .f32⟩ : BufTy).Contents (Elt F)),
    reshape main_arg6 main_v13 rfl shapeCasts_S1750x5_S8750 ]

/-- The second clamped gather (membership value per rule antecedent): the 23 lines of its callee over the call's buffers. -/
abbrev opsC1 : List (HloOp τ sig (Elt F)) :=
  [ TRef.nullary main_call1.c (constantI S_ 32 0#32),
    TRef.unary main_call1.c main_call1.v0 (broadcastInDim S8750 ![] bcast_S_S8750),
    TRef.binary (.of main_v13 : TRef sig ⟨S8750, .i32⟩) main_call1.v0 main_call1.v1 (cmpi .slt),
    TRef.nullary main_call1.c_0 (constantI S_ 32 24#32),
    TRef.unary main_call1.c_0 main_call1.v2 (broadcastInDim S8750 ![] bcast_S_S8750),
    TRef.binary (.of main_v13 : TRef sig ⟨S8750, .i32⟩) main_call1.v2 main_call1.v3 addi,
    TRef.ternary main_call1.v1 main_call1.v3 (.of main_v13 : TRef sig ⟨S8750, .i32⟩) main_call1.call0.v0 select,
    TRef.unary main_call1.call0.v0 main_call1.v5 (broadcastInDim S8750x1 ![0] bcast_S8750_S8750x1_0),
    TRef.nullary main_call1.c_1 (constantI S1 32 23#32),
    TRef.nullary main_call1.c_2 (constantI S_ 32 0#32),
    TRef.unary main_call1.c_2 main_call1.v6 (broadcastInDim S8750x1 ![] bcast_S_S8750x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8750x1 ![0, 1] bcast_S1x1_S8750x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8750x1_S8750_d1 h_S_),
    TRef.binary (.of main_v12 : TRef sig ⟨S4096x24, .f32⟩) main_call1.v5 main_call1.v13 (fun x i => Host.gather gather_S4096x24_S8750x1_S4096x8750_0_1_n_n_1_1_40961 x i),
    TRef.unary main_call1.v12 main_call1.v14 (broadcastInDim S4096x8750 ![1] bcast_S8750_S4096x8750_1),
    TRef.nullary main_call1.cst (constant S_ .f32 0x7FC00000#32),
    TRef.unary main_call1.cst main_call1.v15 (broadcastInDim S4096x8750 ![] bcast_S_S4096x8750),
    TRef.ternary main_call1.v14 main_call1.v13 main_call1.v15 main_call1.v16 select ]

/-- The rule weights: the gathered values regrouped per rule, their minimum, the row sums of absolute values bounded below, the quotient; then the consequent table flattened. -/
abbrev opsM2 : List (HloOp τ sig (Elt F)) :=
  [ reshape main_v14 main_v15 rfl shapeCasts_S4096x8750_S4096x1750x5,
    nullary main_cst_0 (constant S_ .f32 0x7F800000#32),
    binary main_v15 main_cst_0 main_v16 ((fun x v => Host.reduce FloatOps.minimumf x v reducesTo_S4096x1750x5_S4096x1750_d2 h_S_) : (⟨S4096x1750x5, .f32⟩ : BufTy).Contents (Elt F) → (⟨S_, .f32⟩ : BufTy).Contents (Elt F) → (⟨S4096x1750, .f32⟩ : BufTy).Contents (Elt F)),
    unary main_v16 main_v17 (Host.absf : (⟨S4096x1750, .f32⟩ : BufTy).Contents (Elt F) → (⟨S4096x1750, .f32⟩ : BufTy).Contents (Elt F)),
    nullary main_cst_1 (constant S_ .f32 0x00000000#32),
    binary main_v17 main_cst_1 main_v18 ((fun x v => Host.reduceAdd x v reducesTo_S4096x1750_S4096_d1 h_S_) : (⟨S4096x1750, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    nullary main_cst_2 (constant S_ .f32 0x2B8CBCCC#32),
    unary main_cst_2 main_v20 (broadcastInDim S4096x1 ![] bcast_S_S4096x1 : (⟨S_, .f32⟩ : BufTy).Contents (Elt F) → (⟨S4096x1, .f32⟩ : BufTy).Contents (Elt F)),
    binary main_v19 main_v20 main_v21 (maximumf : (⟨S4096x1, .f32⟩ : BufTy).Contents (Elt F) → (⟨S4096x1, .f32⟩ : BufTy).Contents (Elt F) → (⟨S4096x1, .f32⟩ : BufTy).Contents (Elt F)),
    unary main_v21 main_v22 (broadcastInDim S4096x1750 ![0, 1] bcast_S4096x1_S4096x1750_0_1 : (⟨S4096x1, .f32⟩ : BufTy).Contents (Elt F) → (⟨S4096x1750, .f32⟩ : BufTy).Contents (Elt F)),
    binary main_v16 main_v22 main_v23 (Host.divf : (⟨S4096x1750, .f32⟩ : BufTy).Contents (Elt F) → (⟨S4096x1750, .f32⟩ : BufTy).Contents (Elt F) → (⟨S4096x1750, .f32⟩ : BufTy).Contents (Elt F)),
    reshape main_arg7 main_v24 rfl shapeCasts_S1750x2_S3500 ]

/-- The third clamped gather (output centre per rule consequent): the 22 lines of its callee over the call's buffers. -/
abbrev opsC2 : List (HloOp τ sig (Elt F)) :=
  [ TRef.nullary main_call2.c (constantI S_ 32 0#32),
    TRef.unary main_call2.c main_call2.v0 (broadcastInDim S3500 ![] bcast_S_S3500),
    TRef.binary (.of main_v24 : TRef sig ⟨S3500, .i32⟩) main_call2.v0 main_call2.v1 (cmpi .slt),
    TRef.nullary main_call2.c_0 (constantI S_ 32 18#32),
    TRef.unary main_call2.c_0 main_call2.v2 (broadcastInDim S3500 ![] bcast_S_S3500),
    TRef.binary (.of main_v24 : TRef sig ⟨S3500, .i32⟩) main_call2.v2 main_call2.v3 addi,
    TRef.ternary main_call2.v1 main_call2.v3 (.of main_v24 : TRef sig ⟨S3500, .i32⟩) main_call2.call0.v0 select,
    TRef.unary main_call2.call0.v0 main_call2.v5 (broadcastInDim S3500x1 ![0] bcast_S3500_S3500x1_0),
    TRef.nullary main_call2.c_1 (constantI S1 32 17#32),
    TRef.nullary main_call2.c_2 (constantI S_ 32 0#32),
    TRef.unary main_call2.c_2 main_call2.v6 (broadcastInDim S3500x1 ![] bcast_S_S3500x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S3500x1 ![0, 1] bcast_S1x1_S3500x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S3500x1_S3500_d1 h_S_),
    TRef.binary (.of main_arg3 : TRef sig ⟨S18, .f32⟩) main_call2.v5 main_call2.v13 (fun x i => Host.gather gather_S18_S3500x1_S3500_n_0_n_n_0_1_1 x i),
    TRef.nullary main_call2.cst (constant S_ .f32 0x7FC00000#32),
    TRef.unary main_call2.cst main_call2.v14 (broadcastInDim S3500 ![] bcast_S_S3500),
    TRef.ternary main_call2.v12 main_call2.v13 main_call2.v14 main_call2.v15 select ]

/-- The defuzzified output: the gathered centres regrouped, the product with the normalised weights, its hyperbolic tangent scaled and shifted. -/
abbrev opsM3 : List (HloOp τ sig (Elt F)) :=
  [ reshape main_v25 main_v26 rfl shapeCasts_S3500_S1750x2,
    binary main_v23 main_v26 main_v27 ((fun l r => Host.dotGeneral dot_S4096x1750_S1750x2_S4096x2_1_0_0_1_n_n none l r) : (⟨S4096x1750, .f32⟩ : BufTy).Contents (Elt F) → (⟨S1750x2, .f32⟩ : BufTy).Contents (Elt F) → (⟨S4096x2, .f32⟩ : BufTy).Contents (Elt F)),
    unary main_v27 main_v28 (Host.tanh : (⟨S4096x2, .f32⟩ : BufTy).Contents (Elt F) → (⟨S4096x2, .f32⟩ : BufTy).Contents (Elt F)),
    unary main_arg4 main_v29 (broadcastInDim S1x2 ![1] bcast_S2_S1x2_1 : (⟨S2, .f32⟩ : BufTy).Contents (Elt F) → (⟨S1x2, .f32⟩ : BufTy).Contents (Elt F)),
    unary main_v29 main_v30 (broadcastInDim S4096x2 ![0, 1] bcast_S1x2_S4096x2_0_1 : (⟨S1x2, .f32⟩ : BufTy).Contents (Elt F) → (⟨S4096x2, .f32⟩ : BufTy).Contents (Elt F)),
    binary main_v28 main_v30 main_v31 (mulf : (⟨S4096x2, .f32⟩ : BufTy).Contents (Elt F) → (⟨S4096x2, .f32⟩ : BufTy).Contents (Elt F) → (⟨S4096x2, .f32⟩ : BufTy).Contents (Elt F)),
    unary main_arg5 main_v32 (broadcastInDim S1x2 ![1] bcast_S2_S1x2_1 : (⟨S2, .f32⟩ : BufTy).Contents (Elt F) → (⟨S1x2, .f32⟩ : BufTy).Contents (Elt F)),
    unary main_v32 main_v33 (broadcastInDim S4096x2 ![0, 1] bcast_S1x2_S4096x2_0_1 : (⟨S1x2, .f32⟩ : BufTy).Contents (Elt F) → (⟨S4096x2, .f32⟩ : BufTy).Contents (Elt F)),
    binary main_v31 main_v33 main_v34 (addf : (⟨S4096x2, .f32⟩ : BufTy).Contents (Elt F) → (⟨S4096x2, .f32⟩ : BufTy).Contents (Elt F) → (⟨S4096x2, .f32⟩ : BufTy).Contents (Elt F)) ]

/-- @main's 104 operations, in order. -/
abbrev ops : List (HloOp τ sig (Elt F)) :=
  opsC0 ++ (opsM1 ++ (opsC1 ++ (opsM2 ++ (opsC2 ++ opsM3))))

/-! ## The program is the straight line -/

/-- A call is its callee's straight line: the callee's definition (and that of the choice it
    calls) unfolded, both sides are one chain of steps once sequencing is re-associated. -/
theorem call0_eq : fn_take.body (F := F) (.of main_arg0) (.of main_arg8) main_call0 = seq (nD := nD) opsC0 := by
  simp only [fn_take.body, fn_where.body, seq, bind_assoc, pure_bind]
theorem call1_eq : fn_take_0.body (F := F) (.of main_v12) (.of main_v13) main_call1 = seq (nD := nD) opsC1 := by
  simp only [fn_take_0.body, fn_where_1.body, seq, bind_assoc, pure_bind]
theorem call2_eq : fn_take_2.body (F := F) (.of main_arg3) (.of main_v24) main_call2 = seq (nD := nD) opsC2 := by
  simp only [fn_take_2.body, fn_where_3.body, seq, bind_assoc, pure_bind]

/-- @main is the straight line of its operations: the segments' lines run one after the other
    (`seq_append`), each call replaced by its line. -/
theorem main_eq (c : Dev nD) : main (F := F) c = seq ops := by
  simp only [seq_append]
  rw [← call0_eq, ← call1_eq, ← call2_eq]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and allocates nothing -/

theorem opsC0_sub : (opsC0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsM1_sub : (opsM1 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., reshape_bufs_sub ..⟩
theorem opsC1_sub : (opsC1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsM2_sub : (opsM2 : List (HloOp τ sig (Elt F))).Forall fun op => op.bufs ⊆ tcRefs τ sig :=
  ⟨reshape_bufs_sub .., nullary_bufs_sub .., binary_bufs_sub .., unary_bufs_sub .., nullary_bufs_sub .., binary_bufs_sub .., unary_bufs_sub .., nullary_bufs_sub .., unary_bufs_sub .., binary_bufs_sub .., unary_bufs_sub .., binary_bufs_sub .., reshape_bufs_sub ..⟩
theorem opsC2_sub : (opsC2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsM3_sub : (opsM3 : List (HloOp τ sig (Elt F))).Forall fun op => op.bufs ⊆ tcRefs τ sig :=
  ⟨reshape_bufs_sub .., binary_bufs_sub .., unary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.mpr ⟨opsC0_sub, List.forall_append.mpr ⟨opsM1_sub, List.forall_append.mpr ⟨opsC1_sub,
    List.forall_append.mpr ⟨opsM2_sub, List.forall_append.mpr ⟨opsC2_sub, opsM3_sub⟩⟩⟩⟩⟩

theorem opsC0_fresh : ∀ op ∈ (opsC0 : List (HloOp τ sig (Elt F))), op.fresh = ∅ := by
  intro _ h; (repeat (cases h with | head => rfl | tail _ h => ?_)); exact nomatch h
theorem opsM1_fresh : ∀ op ∈ (opsM1 : List (HloOp τ sig (Elt F))), op.fresh = ∅ := by
  intro _ h; (repeat (cases h with | head => rfl | tail _ h => ?_)); exact nomatch h
theorem opsC1_fresh : ∀ op ∈ (opsC1 : List (HloOp τ sig (Elt F))), op.fresh = ∅ := by
  intro _ h; (repeat (cases h with | head => rfl | tail _ h => ?_)); exact nomatch h
theorem opsM2_fresh : ∀ op ∈ (opsM2 : List (HloOp τ sig (Elt F))), op.fresh = ∅ := by
  intro _ h; (repeat (cases h with | head => rfl | tail _ h => ?_)); exact nomatch h
theorem opsC2_fresh : ∀ op ∈ (opsC2 : List (HloOp τ sig (Elt F))), op.fresh = ∅ := by
  intro _ h; (repeat (cases h with | head => rfl | tail _ h => ?_)); exact nomatch h
theorem opsM3_fresh : ∀ op ∈ (opsM3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact opsC0_fresh op h
  rcases List.mem_append.mp h with h | h
  · exact opsM1_fresh op h
  rcases List.mem_append.mp h with h | h
  · exact opsC1_fresh op h
  rcases List.mem_append.mp h with h | h
  · exact opsM2_fresh op h
  rcases List.mem_append.mp h with h | h
  · exact opsC2_fresh op h
  · exact opsM3_fresh op h

/-! ## The run -/

/-- At the compiled mesh, for any float values, from any memory with zero counters: every weakly
    fair execution of @main on the TensorCores terminates, and every final state has each
    TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTerm.lean ====
/-
  The reference program's result as a pure term of its nine argument arrays.

  Each definition below is a chain of `let`s, one per operation of the program, in program order, carrying the pure
  operation that the program's line carries, read at the extended reals.  The three index-taking calls are the stages
  `take0`, `take1`, `take2` (their bodies with the call's operands in place of the parameters); `mem` is the
  membership grades, `fire` the minimum over a rule's five antecedents, `normed` the division by the clamped sum of
  absolute values; `term` chains them with the reshapes, the contraction and the final affine map.
-/
import proofs.«113836_g58789512347992_cont_9to1_m_63_2_alg».proof.ReferenceIdeal
import Idealize.ShloMosaic.PureOps.Ideal

noncomputable section

namespace Cert.ReferenceIdeal.RefValue

open Idealize.ShloMosaic Idealize.SL.Sem

variable [Facts]
open Facts₀ Facts

def take0 (arg0 : (⟨S4096x5, .f32⟩ : BufTy).Contents (Elt Ideal)) (arg1 : (⟨S24, .i32⟩ : BufTy).Contents (Elt Ideal)) :
    (⟨S4096x24, .f32⟩ : BufTy).Contents (Elt Ideal) :=
  let c : (⟨S_, .i32⟩ : BufTy).Contents (Elt Ideal) := (constantI S_ 32 0#32)
  let v0 : (⟨S24, .i32⟩ : BufTy).Contents (Elt Ideal) := (broadcastInDim S24 ![] bcast_S_S24) c
  let v1 : (⟨S24, .i1⟩ : BufTy).Contents (Elt Ideal) := (cmpi .slt) arg1 v0
  let c_0 : (⟨S_, .i32⟩ : BufTy).Contents (Elt Ideal) := (constantI S_ 32 5#32)
  let v2 : (⟨S24, .i32⟩ : BufTy).Contents (Elt Ideal) := (broadcastInDim S24 ![] bcast_S_S24) c_0
  let v3 : (⟨S24, .i32⟩ : BufTy).Contents (Elt Ideal) := addi arg1 v2
  let v4 : (⟨S24, .i32⟩ : BufTy).Contents (Elt Ideal) := select v1 v3 arg1
  let v5 : (⟨S24x1, .i32⟩ : BufTy).Contents (Elt Ideal) := (broadcastInDim S24x1 ![0] bcast_S24_S24x1_0) v4
  let c_1 : (⟨S1, .i32⟩ : BufTy).Contents (Elt Ideal) := (constantI S1 32 4#32)
  let c_2 : (⟨S_, .i32⟩ : BufTy).Contents (Elt Ideal) := (constantI S_ 32 0#32)
  let v6 : (⟨S24x1, .i32⟩ : BufTy).Contents (Elt Ideal) := (broadcastInDim S24x1 ![] bcast_S_S24x1) c_2
  let v7 : (⟨S24x1, .i1⟩ : BufTy).Contents (Elt Ideal) := (cmpi .sge) v5 v6
  let v8 : (⟨S1x1, .i32⟩ : BufTy).Contents (Elt Ideal) := (broadcastInDim S1x1 ![1] bcast_S1_S1x1_1) c_1
  let v9 : (⟨S24x1, .i32⟩ : BufTy).Contents (Elt Ideal) := (broadcastInDim S24x1 ![0, 1] bcast_S1x1_S24x1_0_1) v8
  let v10 : (⟨S24x1, .i1⟩ : BufTy).Contents (Elt Ideal) := (cmpi .sle) v5 v9
  let v11 : (⟨S24x1, .i1⟩ : BufTy).Contents (Elt Ideal) := andi v7 v10
  let c_3 : (⟨S_, .i1⟩ : BufTy).Contents (Elt Ideal) := (constantI S_ 1 1#1)
  let v12 : (⟨S24, .i1⟩ : BufTy).Contents (Elt Ideal) := (fun x v => Host.reduce IntOp.andi x v reducesTo_S24x1_S24_d1 h_S_) v11 c_3
  let v13 : (⟨S4096x24, .f32⟩ : BufTy).Contents (Elt Ideal) := (fun x i => Host.gather gather_S4096x5_S24x1_S4096x24_0_1_n_n_1_1_40961 x i) arg0 v5
  let v14 : (⟨S4096x24, .i1⟩ : BufTy).Contents (Elt Ideal) := (broadcastInDim S4096x24 ![1] bcast_S24_S4096x24_1) v12
  let cst : (⟨S_, .f32⟩ : BufTy).Contents (Elt Ideal) := (constant (F := Ideal) S_ .f32 0x7FC00000#32)
  let v15 : (⟨S4096x24, .f32⟩ : BufTy).Contents (Elt Ideal) := (broadcastInDim S4096x24 ![] bcast_S_S4096x24) cst
  let v16 : (⟨S4096x24, .f32⟩ : BufTy).Contents (Elt Ideal) := select v14 v13 v15
  v16

def mem (v0 : (⟨S4096x24, .f32⟩ : BufTy).Contents (Elt Ideal)) (a1 : (⟨S24, .f32⟩ : BufTy).Contents (Elt Ideal)) (a2 : (⟨S24, .f32⟩ : BufTy).Contents (Elt Ideal)) :
    (⟨S4096x24, .f32⟩ : BufTy).Contents (Elt Ideal) :=
  let v1 : (⟨S1x24, .f32⟩ : BufTy).Contents (Elt Ideal) := (broadcastInDim S1x24 ![1] bcast_S24_S1x24_1 : (⟨S24, .f32⟩ : BufTy).Contents (Elt Ideal) → (⟨S1x24, .f32⟩ : BufTy).Contents (Elt Ideal)) a1
  let v2 : (⟨S4096x24, .f32⟩ : BufTy).Contents (Elt Ideal) := (broadcastInDim S4096x24 ![0, 1] bcast_S1x24_S4096x24_0_1 : (⟨S1x24, .f32⟩ : BufTy).Contents (Elt Ideal) → (⟨S4096x24, .f32⟩ : BufTy).Contents (Elt Ideal)) v1
  let v3 : (⟨S4096x24, .f32⟩ : BufTy).Contents (Elt Ideal) := (subf (F := Ideal) (φ := .f32) : (⟨S4096x24, .f32⟩ : BufTy).Contents (Elt Ideal) → (⟨S4096x24, .f32⟩ : BufTy).Contents (Elt Ideal) → (⟨S4096x24, .f32⟩ : BufTy).Contents (Elt Ideal)) v0 v2
  let v4 : (⟨S4096x24, .f32⟩ : BufTy).Contents (Elt Ideal) := (mulf (F := Ideal) (φ := .f32) : (⟨S4096x24, .f32⟩ : BufTy).Contents (Elt Ideal) → (⟨S4096x24, .f32⟩ : BufTy).Contents (Elt Ideal) → (⟨S4096x24, .f32⟩ : BufTy).Contents (Elt Ideal)) v3 v3
  let v5 : (⟨S4096x24, .f32⟩ : BufTy).Contents (Elt Ideal) := (Host.negf (F := Ideal) (φ := .f32) : (⟨S4096x24, .f32⟩ : BufTy).Contents (Elt Ideal) → (⟨S4096x24, .f32⟩ : BufTy).Contents (Elt Ideal)) v4
  let v6 : (⟨S1x24, .f32⟩ : BufTy).Contents (Elt Ideal) := (broadcastInDim S1x24 ![1] bcast_S24_S1x24_1 : (⟨S24, .f32⟩ : BufTy).Contents (Elt Ideal) → (⟨S1x24, .f32⟩ : BufTy).Contents (Elt Ideal)) a2
  let v7 : (⟨S1x24, .f32⟩ : BufTy).Contents (Elt Ideal) := (mulf (F := Ideal) (φ := .f32) : (⟨S1x24, .f32⟩ : BufTy).Contents (Elt Ideal) → (⟨S1x24, .f32⟩ : BufTy).Contents (Elt Ideal) → (⟨S1x24, .f32⟩ : BufTy).Contents (Elt Ideal)) v6 v6
  let cst : (⟨S_, .f32⟩ : BufTy).Contents (Elt Ideal) := (constant (F := Ideal) S_ .f32 0x40000000#32)
  let v8 : (⟨S1x24, .f32⟩ : BufTy).Contents (Elt Ideal) := (broadcastInDim S1x24 ![] bcast_S_S1x24 : (⟨S_, .f32⟩ : BufTy).Contents (Elt Ideal) → (⟨S1x24, .f32⟩ : BufTy).Contents (Elt Ideal)) cst
  let v9 : (⟨S1x24, .f32⟩ : BufTy).Contents (Elt Ideal) := (mulf (F := Ideal) (φ := .f32) : (⟨S1x24, .f32⟩ : BufTy).Contents (Elt Ideal) → (⟨S1x24, .f32⟩ : BufTy).Contents (Elt Ideal) → (⟨S1x24, .f32⟩ : BufTy).Contents (Elt Ideal)) v8 v7
  let v10 : (⟨S4096x24, .f32⟩ : BufTy).Contents (Elt Ideal) := (broadcastInDim S4096x24 ![0, 1] bcast_S1x24_S4096x24_0_1 : (⟨S1x24, .f32⟩ : BufTy).Contents (Elt Ideal) → (⟨S4096x24, .f32⟩ : BufTy).Contents (Elt Ideal)) v9
  let v11 : (⟨S4096x24, .f32⟩ : BufTy).Contents (Elt Ideal) := (Host.divf (F := Ideal) (φ := .f32) : (⟨S4096x24, .f32⟩ : BufTy).Contents (Elt Ideal) → (⟨S4096x24, .f32⟩ : BufTy).Contents (Elt Ideal) → (⟨S4096x24, .f32⟩ : BufTy).Contents (Elt Ideal)) v5 v10
  let v12 : (⟨S4096x24, .f32⟩ : BufTy).Contents (Elt Ideal) := (Host.exp (F := Ideal) (φ := .f32) : (⟨S4096x24, .f32⟩ : BufTy).Contents (Elt Ideal) → (⟨S4096x24, .f32⟩ : BufTy).Contents (Elt Ideal)) v11
  v12

def take1 (arg0 : (⟨S4096x24, .f32⟩ : BufTy).Contents (Elt Ideal)) (arg1 : (⟨S8750, .i32⟩ : BufTy).Contents (Elt Ideal)) :
    (⟨S4096x8750, .f32⟩ : BufTy).Contents (Elt Ideal) :=
  let c : (⟨S_, .i32⟩ : BufTy).Contents (Elt Ideal) := (constantI S_ 32 0#32)
  let v0 : (⟨S8750, .i32⟩ : BufTy).Contents (Elt Ideal) := (broadcastInDim S8750 ![] bcast_S_S8750) c
  let v1 : (⟨S8750, .i1⟩ : BufTy).Contents (Elt Ideal) := (cmpi .slt) arg1 v0
  let c_0 : (⟨S_, .i32⟩ : BufTy).Contents (Elt Ideal) := (constantI S_ 32 24#32)
  let v2 : (⟨S8750, .i32⟩ : BufTy).Contents (Elt Ideal) := (broadcastInDim S8750 ![] bcast_S_S8750) c_0
  let v3 : (⟨S8750, .i32⟩ : BufTy).Contents (Elt Ideal) := addi arg1 v2
  let v4 : (⟨S8750, .i32⟩ : BufTy).Contents (Elt Ideal) := select v1 v3 arg1
  let v5 : (⟨S8750x1, .i32⟩ : BufTy).Contents (Elt Ideal) := (broadcastInDim S8750x1 ![0] bcast_S8750_S8750x1_0) v4
  let c_1 : (⟨S1, .i32⟩ : BufTy).Contents (Elt Ideal) := (constantI S1 32 23#32)
  let c_2 : (⟨S_, .i32⟩ : BufTy).Contents (Elt Ideal) := (constantI S_ 32 0#32)
  let v6 : (⟨S8750x1, .i32⟩ : BufTy).Contents (Elt Ideal) := (broadcastInDim S8750x1 ![] bcast_S_S8750x1) c_2
  let v7 : (⟨S8750x1, .i1⟩ : BufTy).Contents (Elt Ideal) := (cmpi .sge) v5 v6
  let v8 : (⟨S1x1, .i32⟩ : BufTy).Contents (Elt Ideal) := (broadcastInDim S1x1 ![1] bcast_S1_S1x1_1) c_1
  let v9 : (⟨S8750x1, .i32⟩ : BufTy).Contents (Elt Ideal) := (broadcastInDim S8750x1 ![0, 1] bcast_S1x1_S8750x1_0_1) v8
  let v10 : (⟨S8750x1, .i1⟩ : BufTy).Contents (Elt Ideal) := (cmpi .sle) v5 v9
  let v11 : (⟨S8750x1, .i1⟩ : BufTy).Contents (Elt Ideal) := andi v7 v10
  let c_3 : (⟨S_, .i1⟩ : BufTy).Contents (Elt Ideal) := (constantI S_ 1 1#1)
  let v12 : (⟨S8750, .i1⟩ : BufTy).Contents (Elt Ideal) := (fun x v => Host.reduce IntOp.andi x v reducesTo_S8750x1_S8750_d1 h_S_) v11 c_3
  let v13 : (⟨S4096x8750, .f32⟩ : BufTy).Contents (Elt Ideal) := (fun x i => Host.gather gather_S4096x24_S8750x1_S4096x8750_0_1_n_n_1_1_40961 x i) arg0 v5
  let v14 : (⟨S4096x8750, .i1⟩ : BufTy).Contents (Elt Ideal) := (broadcastInDim S4096x8750 ![1] bcast_S8750_S4096x8750_1) v12
  let cst : (⟨S_, .f32⟩ : BufTy).Contents (Elt Ideal) := (constant (F := Ideal) S_ .f32 0x7FC00000#32)
  let v15 : (⟨S4096x8750, .f32⟩ : BufTy).Contents (Elt Ideal) := (broadcastInDim S4096x8750 ![] bcast_S_S4096x8750) cst
  let v16 : (⟨S4096x8750, .f32⟩ : BufTy).Contents (Elt Ideal) := select v14 v13 v15
  v16

def fire (v14 : (⟨S4096x8750, .f32⟩ : BufTy).Contents (Elt Ideal)) :
    (⟨S4096x1750, .f32⟩ : BufTy).Contents (Elt Ideal) :=
  let v15 : (⟨S4096x1750x5, .f32⟩ : BufTy).Contents (Elt Ideal) := shapeCast S4096x1750x5 v14 shapeCasts_S4096x8750_S4096x1750x5
  let cst_0 : (⟨S_, .f32⟩ : BufTy).Contents (Elt Ideal) := (constant (F := Ideal) S_ .f32 0x7F800000#32)
  let v16 : (⟨S4096x1750, .f32⟩ : BufTy).Contents (Elt Ideal) := ((fun x v => Host.reduce (FloatOps.minimumf (F := Ideal) (φ := .f32)) x v reducesTo_S4096x1750x5_S4096x1750_d2 h_S_) : (⟨S4096x1750x5, .f32⟩ : BufTy).Contents (Elt Ideal) → (⟨S_, .f32⟩ : BufTy).Contents (Elt Ideal) → (⟨S4096x1750, .f32⟩ : BufTy).Contents (Elt Ideal)) v15 cst_0
  v16

def normed (v16 : (⟨S4096x1750, .f32⟩ : BufTy).Contents (Elt Ideal)) :
    (⟨S4096x1750, .f32⟩ : BufTy).Contents (Elt Ideal) :=
  let v17 : (⟨S4096x1750, .f32⟩ : BufTy).Contents (Elt Ideal) := (Host.absf (F := Ideal) (φ := .f32) : (⟨S4096x1750, .f32⟩ : BufTy).Contents (Elt Ideal) → (⟨S4096x1750, .f32⟩ : BufTy).Contents (Elt Ideal)) v16
  let cst_1 : (⟨S_, .f32⟩ : BufTy).Contents (Elt Ideal) := (constant (F := Ideal) S_ .f32 0x00000000#32)
  let v18 : (⟨S4096, .f32⟩ : BufTy).Contents (Elt Ideal) := ((fun x v => Host.reduceAdd (F := Ideal) (φ := .f32) x v reducesTo_S4096x1750_S4096_d1 h_S_) : (⟨S4096x1750, .f32⟩ : BufTy).Contents (Elt Ideal) → (⟨S_, .f32⟩ : BufTy).Contents (Elt Ideal) → (⟨S4096, .f32⟩ : BufTy).Contents (Elt Ideal)) v17 cst_1
  let v19 : (⟨S4096x1, .f32⟩ : BufTy).Contents (Elt Ideal) := (broadcastInDim S4096x1 ![0] bcast_S4096_S4096x1_0 : (⟨S4096, .f32⟩ : BufTy).Contents (Elt Ideal) → (⟨S4096x1, .f32⟩ : BufTy).Contents (Elt Ideal)) v18
  let cst_2 : (⟨S_, .f32⟩ : BufTy).Contents (Elt Ideal) := (constant (F := Ideal) S_ .f32 0x2B8CBCCC#32)
  let v20 : (⟨S4096x1, .f32⟩ : BufTy).Contents (Elt Ideal) := (broadcastInDim S4096x1 ![] bcast_S_S4096x1 : (⟨S_, .f32⟩ : BufTy).Contents (Elt Ideal) → (⟨S4096x1, .f32⟩ : BufTy).Contents (Elt Ideal)) cst_2
  let v21 : (⟨S4096x1, .f32⟩ : BufTy).Contents (Elt Ideal) := (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) v19 v20
  let v22 : (⟨S4096x1750, .f32⟩ : BufTy).Contents (Elt Ideal) := (broadcastInDim S4096x1750 ![0, 1] bcast_S4096x1_S4096x1750_0_1 : (⟨S4096x1, .f32⟩ : BufTy).Contents (Elt Ideal) → (⟨S4096x1750, .f32⟩ : BufTy).Contents (Elt Ideal)) v21
  let v23 : (⟨S4096x1750, .f32⟩ : BufTy).Contents (Elt Ideal) := (Host.divf (F := Ideal) (φ := .f32) : (⟨S4096x1750, .f32⟩ : BufTy).Contents (Elt Ideal) → (⟨S4096x1750, .f32⟩ : BufTy).Contents (Elt Ideal) → (⟨S4096x1750, .f32⟩ : BufTy).Contents (Elt Ideal)) v16 v22
  v23

def take2 (arg0 : (⟨S18, .f32⟩ : BufTy).Contents (Elt Ideal)) (arg1 : (⟨S3500, .i32⟩ : BufTy).Contents (Elt Ideal)) :
    (⟨S3500, .f32⟩ : BufTy).Contents (Elt Ideal) :=
  let c : (⟨S_, .i32⟩ : BufTy).Contents (Elt Ideal) := (constantI S_ 32 0#32)
  let v0 : (⟨S3500, .i32⟩ : BufTy).Contents (Elt Ideal) := (broadcastInDim S3500 ![] bcast_S_S3500) c
  let v1 : (⟨S3500, .i1⟩ : BufTy).Contents (Elt Ideal) := (cmpi .slt) arg1 v0
  let c_0 : (⟨S_, .i32⟩ : BufTy).Contents (Elt Ideal) := (constantI S_ 32 18#32)
  let v2 : (⟨S3500, .i32⟩ : BufTy).Contents (Elt Ideal) := (broadcastInDim S3500 ![] bcast_S_S3500) c_0
  let v3 : (⟨S3500, .i32⟩ : BufTy).Contents (Elt Ideal) := addi arg1 v2
  let v4 : (⟨S3500, .i32⟩ : BufTy).Contents (Elt Ideal) := select v1 v3 arg1
  let v5 : (⟨S3500x1, .i32⟩ : BufTy).Contents (Elt Ideal) := (broadcastInDim S3500x1 ![0] bcast_S3500_S3500x1_0) v4
  let c_1 : (⟨S1, .i32⟩ : BufTy).Contents (Elt Ideal) := (constantI S1 32 17#32)
  let c_2 : (⟨S_, .i32⟩ : BufTy).Contents (Elt Ideal) := (constantI S_ 32 0#32)
  let v6 : (⟨S3500x1, .i32⟩ : BufTy).Contents (Elt Ideal) := (broadcastInDim S3500x1 ![] bcast_S_S3500x1) c_2
  let v7 : (⟨S3500x1, .i1⟩ : BufTy).Contents (Elt Ideal) := (cmpi .sge) v5 v6
  let v8 : (⟨S1x1, .i32⟩ : BufTy).Contents (Elt Ideal) := (broadcastInDim S1x1 ![1] bcast_S1_S1x1_1) c_1
  let v9 : (⟨S3500x1, .i32⟩ : BufTy).Contents (Elt Ideal) := (broadcastInDim S3500x1 ![0, 1] bcast_S1x1_S3500x1_0_1) v8
  let v10 : (⟨S3500x1, .i1⟩ : BufTy).Contents (Elt Ideal) := (cmpi .sle) v5 v9
  let v11 : (⟨S3500x1, .i1⟩ : BufTy).Contents (Elt Ideal) := andi v7 v10
  let c_3 : (⟨S_, .i1⟩ : BufTy).Contents (Elt Ideal) := (constantI S_ 1 1#1)
  let v12 : (⟨S3500, .i1⟩ : BufTy).Contents (Elt Ideal) := (fun x v => Host.reduce IntOp.andi x v reducesTo_S3500x1_S3500_d1 h_S_) v11 c_3
  let v13 : (⟨S3500, .f32⟩ : BufTy).Contents (Elt Ideal) := (fun x i => Host.gather gather_S18_S3500x1_S3500_n_0_n_n_0_1_1 x i) arg0 v5
  let cst : (⟨S_, .f32⟩ : BufTy).Contents (Elt Ideal) := (constant (F := Ideal) S_ .f32 0x7FC00000#32)
  let v14 : (⟨S3500, .f32⟩ : BufTy).Contents (Elt Ideal) := (broadcastInDim S3500 ![] bcast_S_S3500) cst
  let v15 : (⟨S3500, .f32⟩ : BufTy).Contents (Elt Ideal) := select v12 v13 v14
  v15

def term (a0 : (⟨S4096x5, .f32⟩ : BufTy).Contents (Elt Ideal)) (a1 : (⟨S24, .f32⟩ : BufTy).Contents (Elt Ideal)) (a2 : (⟨S24, .f32⟩ : BufTy).Contents (Elt Ideal)) (a3 : (⟨S18, .f32⟩ : BufTy).Contents (Elt Ideal))
    (a4 : (⟨S2, .f32⟩ : BufTy).Contents (Elt Ideal)) (a5 : (⟨S2, .f32⟩ : BufTy).Contents (Elt Ideal)) (a6 : (⟨S1750x5, .i32⟩ : BufTy).Contents (Elt Ideal)) (a7 : (⟨S1750x2, .i32⟩ : BufTy).Contents (Elt Ideal)) (a8 : (⟨S24, .i32⟩ : BufTy).Contents (Elt Ideal)) :
    (⟨S4096x2, .f32⟩ : BufTy).Contents (Elt Ideal) :=
  let v0 : (⟨S4096x24, .f32⟩ : BufTy).Contents (Elt Ideal) := take0 a0 a8
  let v12 : (⟨S4096x24, .f32⟩ : BufTy).Contents (Elt Ideal) := mem v0 a1 a2
  let v13 : (⟨S8750, .i32⟩ : BufTy).Contents (Elt Ideal) := shapeCast S8750 a6 shapeCasts_S1750x5_S8750
  let v14 : (⟨S4096x8750, .f32⟩ : BufTy).Contents (Elt Ideal) := take1 v12 v13
  let v16 : (⟨S4096x1750, .f32⟩ : BufTy).Contents (Elt Ideal) := fire v14
  let v23 : (⟨S4096x1750, .f32⟩ : BufTy).Contents (Elt Ideal) := normed v16
  let v24 : (⟨S3500, .i32⟩ : BufTy).Contents (Elt Ideal) := shapeCast S3500 a7 shapeCasts_S1750x2_S3500
  let v25 : (⟨S3500, .f32⟩ : BufTy).Contents (Elt Ideal) := take2 a3 v24
  let v26 : (⟨S1750x2, .f32⟩ : BufTy).Contents (Elt Ideal) := shapeCast S1750x2 v25 shapeCasts_S3500_S1750x2
  let v27 : (⟨S4096x2, .f32⟩ : BufTy).Contents (Elt Ideal) := ((fun l r => Host.dotGeneral (F := Ideal) (φ₁ := .f32) (φ₂ := .f32) dot_S4096x1750_S1750x2_S4096x2_1_0_0_1_n_n none l r) : (⟨S4096x1750, .f32⟩ : BufTy).Contents (Elt Ideal) → (⟨S1750x2, .f32⟩ : BufTy).Contents (Elt Ideal) → (⟨S4096x2, .f32⟩ : BufTy).Contents (Elt Ideal)) v23 v26
  let v28 : (⟨S4096x2, .f32⟩ : BufTy).Contents (Elt Ideal) := (Host.tanh (F := Ideal) (φ := .f32) : (⟨S4096x2, .f32⟩ : BufTy).Contents (Elt Ideal) → (⟨S4096x2, .f32⟩ : BufTy).Contents (Elt Ideal)) v27
  let v29 : (⟨S1x2, .f32⟩ : BufTy).Contents (Elt Ideal) := (broadcastInDim S1x2 ![1] bcast_S2_S1x2_1 : (⟨S2, .f32⟩ : BufTy).Contents (Elt Ideal) → (⟨S1x2, .f32⟩ : BufTy).Contents (Elt Ideal)) a4
  let v30 : (⟨S4096x2, .f32⟩ : BufTy).Contents (Elt Ideal) := (broadcastInDim S4096x2 ![0, 1] bcast_S1x2_S4096x2_0_1 : (⟨S1x2, .f32⟩ : BufTy).Contents (Elt Ideal) → (⟨S4096x2, .f32⟩ : BufTy).Contents (Elt Ideal)) v29
  let v31 : (⟨S4096x2, .f32⟩ : BufTy).Contents (Elt Ideal) := (mulf (F := Ideal) (φ := .f32) : (⟨S4096x2, .f32⟩ : BufTy).Contents (Elt Ideal) → (⟨S4096x2, .f32⟩ : BufTy).Contents (Elt Ideal) → (⟨S4096x2, .f32⟩ : BufTy).Contents (Elt Ideal)) v28 v30
  let v32 : (⟨S1x2, .f32⟩ : BufTy).Contents (Elt Ideal) := (broadcastInDim S1x2 ![1] bcast_S2_S1x2_1 : (⟨S2, .f32⟩ : BufTy).Contents (Elt Ideal) → (⟨S1x2, .f32⟩ : BufTy).Contents (Elt Ideal)) a5
  let v33 : (⟨S4096x2, .f32⟩ : BufTy).Contents (Elt Ideal) := (broadcastInDim S4096x2 ![0, 1] bcast_S1x2_S4096x2_0_1 : (⟨S1x2, .f32⟩ : BufTy).Contents (Elt Ideal) → (⟨S4096x2, .f32⟩ : BufTy).Contents (Elt Ideal)) v32
  let v34 : (⟨S4096x2, .f32⟩ : BufTy).Contents (Elt Ideal) := (addf (F := Ideal) (φ := .f32) : (⟨S4096x2, .f32⟩ : BufTy).Contents (Elt Ideal) → (⟨S4096x2, .f32⟩ : BufTy).Contents (Elt Ideal) → (⟨S4096x2, .f32⟩ : BufTy).Contents (Elt Ideal)) v31 v33
  v34

end Cert.ReferenceIdeal.RefValue

end
-- ==== Proof.RefRunB.lean ====
/- The reference program's buffers after its run, read back stage by stage: each of the six
   segments of the operation list, run from ANY buffer contents, leaves its result buffer at the
   corresponding stage of the reference's value term applied to the contents of the buffers it
   reads, and leaves every buffer it does not write as it was. Composed, the result buffer after
   the whole list holds the value term of the nine argument arrays, and the arguments are unchanged. -/
import proofs.«113836_g58789512347992_cont_9to1_m_63_2_alg».proof.Proof.RefRunA
import proofs.«113836_g58789512347992_cont_9to1_m_63_2_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

/-- The last stage of the value term as a function of the normalised rule weights, the gathered
    output centres, the scaling and the bias: the centres regrouped per rule, the contraction over
    the rules, its hyperbolic tangent, scaled and shifted along the batch. -/
def last (v23 : (⟨S4096x1750, .f32⟩ : BufTy).Contents (Elt Ideal)) (v25 : (⟨S3500, .f32⟩ : BufTy).Contents (Elt Ideal)) (a4 : (⟨S2, .f32⟩ : BufTy).Contents (Elt Ideal)) (a5 : (⟨S2, .f32⟩ : BufTy).Contents (Elt Ideal)) :
    (⟨S4096x2, .f32⟩ : BufTy).Contents (Elt Ideal) :=
  let v26 : (⟨S1750x2, .f32⟩ : BufTy).Contents (Elt Ideal) := shapeCast S1750x2 v25 shapeCasts_S3500_S1750x2
  let v27 : (⟨S4096x2, .f32⟩ : BufTy).Contents (Elt Ideal) := Host.dotGeneral (F := Ideal) (φ₁ := .f32) (φ₂ := .f32) dot_S4096x1750_S1750x2_S4096x2_1_0_0_1_n_n none v23 v26
  let v28 : (⟨S4096x2, .f32⟩ : BufTy).Contents (Elt Ideal) := Host.tanh (F := Ideal) (φ := .f32) v27
  let v29 : (⟨S1x2, .f32⟩ : BufTy).Contents (Elt Ideal) := broadcastInDim S1x2 ![1] bcast_S2_S1x2_1 a4
  let v30 : (⟨S4096x2, .f32⟩ : BufTy).Contents (Elt Ideal) := broadcastInDim S4096x2 ![0, 1] bcast_S1x2_S4096x2_0_1 v29
  let v31 : (⟨S4096x2, .f32⟩ : BufTy).Contents (Elt Ideal) := mulf (F := Ideal) (φ := .f32) v28 v30
  let v32 : (⟨S1x2, .f32⟩ : BufTy).Contents (Elt Ideal) := broadcastInDim S1x2 ![1] bcast_S2_S1x2_1 a5
  let v33 : (⟨S4096x2, .f32⟩ : BufTy).Contents (Elt Ideal) := broadcastInDim S4096x2 ![0, 1] bcast_S1x2_S4096x2_0_1 v32
  addf (F := Ideal) (φ := .f32) v31 v33

/-- The value term is its stages composed. -/
theorem term_eq (a0 : (⟨S4096x5, .f32⟩ : BufTy).Contents (Elt Ideal)) (a1 a2 : (⟨S24, .f32⟩ : BufTy).Contents (Elt Ideal)) (a3 : (⟨S18, .f32⟩ : BufTy).Contents (Elt Ideal)) (a4 a5 : (⟨S2, .f32⟩ : BufTy).Contents (Elt Ideal))
    (a6 : (⟨S1750x5, .i32⟩ : BufTy).Contents (Elt Ideal)) (a7 : (⟨S1750x2, .i32⟩ : BufTy).Contents (Elt Ideal)) (a8 : (⟨S24, .i32⟩ : BufTy).Contents (Elt Ideal)) :
    RefValue.term a0 a1 a2 a3 a4 a5 a6 a7 a8
      = last (RefValue.normed (RefValue.fire (RefValue.take1 (RefValue.mem (RefValue.take0 a0 a8) a1 a2) (shapeCast S8750 a6 shapeCasts_S1750x5_S8750))))
          (RefValue.take2 a3 (shapeCast S3500 a7 shapeCasts_S1750x2_S3500)) a4 a5 := rfl

/-! ## Each segment's result

The fold over a segment at its result buffer is the stage by computation: the fold unrolled, each
operation's result read at its own buffer and passed over at any other, and the typed references'
transports the identity at these literal references. The reductions and gathers enter the equation as
whole terms: nothing about their values is used. -/

section Stages
attribute [local irreducible] Host.reduce Host.gather

theorem seg_C0 (W : Valuation τ sig (Elt Ideal)) :
    after (opsC0 (F := Ideal)) W (main_v0 : DevRef τ sig)
      = RefValue.take0 (W (main_arg0 : DevRef τ sig)) (W (main_arg8 : DevRef τ sig)) := by
  after_results_simp
  rfl

theorem seg_M1 (W : Valuation τ sig (Elt Ideal)) :
    after (opsM1 (F := Ideal)) W (main_v12 : DevRef τ sig)
      = RefValue.mem (W (main_v0 : DevRef τ sig)) (W (main_arg1 : DevRef τ sig)) (W (main_arg2 : DevRef τ sig)) := by
  after_results_simp
  rfl

theorem seg_M1' (W : Valuation τ sig (Elt Ideal)) :
    after (opsM1 (F := Ideal)) W (main_v13 : DevRef τ sig)
      = shapeCast S8750 (W (main_arg6 : DevRef τ sig)) shapeCasts_S1750x5_S8750 := by
  after_results_simp
  rfl

theorem seg_C1 (W : Valuation τ sig (Elt Ideal)) :
    after (opsC1 (F := Ideal)) W (main_v14 : DevRef τ sig)
      = RefValue.take1 (W (main_v12 : DevRef τ sig)) (W (main_v13 : DevRef τ sig)) := by
  after_results_simp
  rfl

theorem seg_M2 (W : Valuation τ sig (Elt Ideal)) :
    after (opsM2 (F := Ideal)) W (main_v23 : DevRef τ sig)
      = RefValue.normed (RefValue.fire (W (main_v14 : DevRef τ sig))) := by
  after_results_simp
  rfl

theorem seg_M2' (W : Valuation τ sig (Elt Ideal)) :
    after (opsM2 (F := Ideal)) W (main_v24 : DevRef τ sig)
      = shapeCast S3500 (W (main_arg7 : DevRef τ sig)) shapeCasts_S1750x2_S3500 := by
  after_results_simp
  rfl

theorem seg_C2 (W : Valuation τ sig (Elt Ideal)) :
    after (opsC2 (F := Ideal)) W (main_v25 : DevRef τ sig)
      = RefValue.take2 (W (main_arg3 : DevRef τ sig)) (W (main_v24 : DevRef τ sig)) := by
  after_results_simp
  rfl

theorem seg_M3 (W : Valuation τ sig (Elt Ideal)) :
    after (opsM3 (F := Ideal)) W (main_v34 : DevRef τ sig)
      = last (W (main_v23 : DevRef τ sig)) (W (main_v25 : DevRef τ sig)) (W (main_arg4 : DevRef τ sig)) (W (main_arg5 : DevRef τ sig)) := by
  after_results_simp
  rfl

end Stages

/-! ## What each segment leaves alone -/

theorem frame_C0_arg1 (W : Valuation τ sig (Elt Ideal)) :
    after (opsC0 (F := Ideal)) W (main_arg1 : DevRef τ sig) = W (main_arg1 : DevRef τ sig) := by
  after_results_simp
theorem frame_C0_arg2 (W : Valuation τ sig (Elt Ideal)) :
    after (opsC0 (F := Ideal)) W (main_arg2 : DevRef τ sig) = W (main_arg2 : DevRef τ sig) := by
  after_results_simp
theorem frame_C0_arg6 (W : Valuation τ sig (Elt Ideal)) :
    after (opsC0 (F := Ideal)) W (main_arg6 : DevRef τ sig) = W (main_arg6 : DevRef τ sig) := by
  after_results_simp
theorem frame_C0_arg7 (W : Valuation τ sig (Elt Ideal)) :
    after (opsC0 (F := Ideal)) W (main_arg7 : DevRef τ sig) = W (main_arg7 : DevRef τ sig) := by
  after_results_simp
theorem frame_M1_arg7 (W : Valuation τ sig (Elt Ideal)) :
    after (opsM1 (F := Ideal)) W (main_arg7 : DevRef τ sig) = W (main_arg7 : DevRef τ sig) := by
  after_results_simp
theorem frame_C1_arg7 (W : Valuation τ sig (Elt Ideal)) :
    after (opsC1 (F := Ideal)) W (main_arg7 : DevRef τ sig) = W (main_arg7 : DevRef τ sig) := by
  after_results_simp
theorem frame_C0_arg3 (W : Valuation τ sig (Elt Ideal)) :
    after (opsC0 (F := Ideal)) W (main_arg3 : DevRef τ sig) = W (main_arg3 : DevRef τ sig) := by
  after_results_simp
theorem frame_M1_arg3 (W : Valuation τ sig (Elt Ideal)) :
    after (opsM1 (F := Ideal)) W (main_arg3 : DevRef τ sig) = W (main_arg3 : DevRef τ sig) := by
  after_results_simp
theorem frame_C1_arg3 (W : Valuation τ sig (Elt Ideal)) :
    after (opsC1 (F := Ideal)) W (main_arg3 : DevRef τ sig) = W (main_arg3 : DevRef τ sig) := by
  after_results_simp
theorem frame_M2_arg3 (W : Valuation τ sig (Elt Ideal)) :
    after (opsM2 (F := Ideal)) W (main_arg3 : DevRef τ sig) = W (main_arg3 : DevRef τ sig) := by
  after_results_simp
theorem frame_C0_arg4 (W : Valuation τ sig (Elt Ideal)) :
    after (opsC0 (F := Ideal)) W (main_arg4 : DevRef τ sig) = W (main_arg4 : DevRef τ sig) := by
  after_results_simp
theorem frame_C0_arg5 (W : Valuation τ sig (Elt Ideal)) :
    after (opsC0 (F := Ideal)) W (main_arg5 : DevRef τ sig) = W (main_arg5 : DevRef τ sig) := by
  after_results_simp
theorem frame_M1_arg4 (W : Valuation τ sig (Elt Ideal)) :
    after (opsM1 (F := Ideal)) W (main_arg4 : DevRef τ sig) = W (main_arg4 : DevRef τ sig) := by
  after_results_simp
theorem frame_M1_arg5 (W : Valuation τ sig (Elt Ideal)) :
    after (opsM1 (F := Ideal)) W (main_arg5 : DevRef τ sig) = W (main_arg5 : DevRef τ sig) := by
  after_results_simp
theorem frame_C1_arg4 (W : Valuation τ sig (Elt Ideal)) :
    after (opsC1 (F := Ideal)) W (main_arg4 : DevRef τ sig) = W (main_arg4 : DevRef τ sig) := by
  after_results_simp
theorem frame_C1_arg5 (W : Valuation τ sig (Elt Ideal)) :
    after (opsC1 (F := Ideal)) W (main_arg5 : DevRef τ sig) = W (main_arg5 : DevRef τ sig) := by
  after_results_simp
theorem frame_M2_arg4 (W : Valuation τ sig (Elt Ideal)) :
    after (opsM2 (F := Ideal)) W (main_arg4 : DevRef τ sig) = W (main_arg4 : DevRef τ sig) := by
  after_results_simp
theorem frame_M2_arg5 (W : Valuation τ sig (Elt Ideal)) :
    after (opsM2 (F := Ideal)) W (main_arg5 : DevRef τ sig) = W (main_arg5 : DevRef τ sig) := by
  after_results_simp
theorem frame_C2_arg4 (W : Valuation τ sig (Elt Ideal)) :
    after (opsC2 (F := Ideal)) W (main_arg4 : DevRef τ sig) = W (main_arg4 : DevRef τ sig) := by
  after_results_simp
theorem frame_C2_arg5 (W : Valuation τ sig (Elt Ideal)) :
    after (opsC2 (F := Ideal)) W (main_arg5 : DevRef τ sig) = W (main_arg5 : DevRef τ sig) := by
  after_results_simp
theorem frame_C2_v23 (W : Valuation τ sig (Elt Ideal)) :
    after (opsC2 (F := Ideal)) W (main_v23 : DevRef τ sig) = W (main_v23 : DevRef τ sig) := by
  after_results_simp

/-! ## The whole list -/

/-- The list's fold is the segments' folds, one after the other. -/
theorem after_ops (V : Valuation τ sig (Elt Ideal)) :
    after (ops (F := Ideal)) V
      = after opsM3 (after opsC2 (after opsM2 (after opsC1 (after opsM1 (after opsC0 V))))) := by
  simp only [after_append]

/-- After the whole list the result buffer holds the value term of the argument buffers' contents. -/
theorem out_eq (V : Valuation τ sig (Elt Ideal)) :
    after (ops (F := Ideal)) V (main_v34 : DevRef τ sig)
      = RefValue.term (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) (V (main_arg8 : DevRef τ sig)) := by
  rw [after_ops, term_eq, seg_M3, seg_C2, frame_C2_v23, frame_C2_arg4, frame_C2_arg5,
    seg_M2, seg_M2', frame_M2_arg3, frame_M2_arg4, frame_M2_arg5,
    seg_C1, frame_C1_arg7, frame_C1_arg3, frame_C1_arg4, frame_C1_arg5,
    seg_M1, seg_M1', frame_M1_arg7, frame_M1_arg3, frame_M1_arg4, frame_M1_arg5,
    seg_C0, frame_C0_arg1, frame_C0_arg2, frame_C0_arg6, frame_C0_arg7, frame_C0_arg3, frame_C0_arg4, frame_C0_arg5]

/-- No operation writes an argument buffer. -/
theorem arg0_eq (V : Valuation τ sig (Elt Ideal)) :
    after (ops (F := Ideal)) V (main_arg0 : DevRef τ sig) = V (main_arg0 : DevRef τ sig) := by
  rw [after_ops]
  after_results_simp
theorem arg1_eq (V : Valuation τ sig (Elt Ideal)) :
    after (ops (F := Ideal)) V (main_arg1 : DevRef τ sig) = V (main_arg1 : DevRef τ sig) := by
  rw [after_ops]
  after_results_simp
theorem arg2_eq (V : Valuation τ sig (Elt Ideal)) :
    after (ops (F := Ideal)) V (main_arg2 : DevRef τ sig) = V (main_arg2 : DevRef τ sig) := by
  rw [after_ops]
  after_results_simp
theorem arg3_eq (V : Valuation τ sig (Elt Ideal)) :
    after (ops (F := Ideal)) V (main_arg3 : DevRef τ sig) = V (main_arg3 : DevRef τ sig) := by
  rw [after_ops]
  after_results_simp
theorem arg4_eq (V : Valuation τ sig (Elt Ideal)) :
    after (ops (F := Ideal)) V (main_arg4 : DevRef τ sig) = V (main_arg4 : DevRef τ sig) := by
  rw [after_ops]
  after_results_simp
theorem arg5_eq (V : Valuation τ sig (Elt Ideal)) :
    after (ops (F := Ideal)) V (main_arg5 : DevRef τ sig) = V (main_arg5 : DevRef τ sig) := by
  rw [after_ops]
  after_results_simp
theorem arg6_eq (V : Valuation τ sig (Elt Ideal)) :
    after (ops (F := Ideal)) V (main_arg6 : DevRef τ sig) = V (main_arg6 : DevRef τ sig) := by
  rw [after_ops]
  after_results_simp
theorem arg7_eq (V : Valuation τ sig (Elt Ideal)) :
    after (ops (F := Ideal)) V (main_arg7 : DevRef τ sig) = V (main_arg7 : DevRef τ sig) := by
  rw [after_ops]
  after_results_simp
theorem arg8_eq (V : Valuation τ sig (Elt Ideal)) :
    after (ops (F := Ideal)) V (main_arg8 : DevRef τ sig) = V (main_arg8 : DevRef τ sig) := by
  rw [after_ops]
  after_results_simp

end Cert.ReferenceIdeal.RefRun

end
-- ==== Proof.RefRun.lean ====
/- The reference program's run: from any memory with zero counters every weakly fair execution of
   @main terminates with the result buffer at the reference's value term of the argument buffers'
   launch contents, and the argument buffers unchanged. The operation list and the run over its
   fold are in RefRunA, the fold read back stage by stage in RefRunB. -/
import proofs.«113836_g58789512347992_cont_9to1_m_63_2_alg».proof.Proof.RefRunA
import proofs.«113836_g58789512347992_cont_9to1_m_63_2_alg».proof.Proof.RefRunB
import proofs.«113836_g58789512347992_cont_9to1_m_63_2_alg».proof.Proof.RefTerm

noncomputable section

namespace Cert.ReferenceIdeal.RefRun

open Cert.ReferenceIdeal Idealize.ShloMosaic Idealize.ShloMosaic.TcCoe Idealize.SL.Sem Idealize.ShloMosaic.StableHlo

/-- On every device, read at the extended reals, from any memory with zero counters: every weakly
    fair execution of @main terminates with the result at the value term of the arguments and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34) = Cert.ReferenceIdeal.RefValue.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v34).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_after (F := Ideal) m ρ)

end Cert.ReferenceIdeal.RefRun

end
-- ==== Proof.RefValueA.lean ====
/-
  Reading the host operations at an index, on the extended reals: the pointwise operations are their textbook ones at
  the element, and a broadcast reads the operand at the coordinates it keeps.
-/
import proofs.«113836_g58789512347992_cont_9to1_m_63_2_alg».proof.Proof.RefTerm
import proofs.«113836_g58789512347992_cont_9to1_m_63_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Idealize.ShloMosaic Idealize.ShloMosaic.ValueIdx Idealize.SL.Sem

/-! ## Reading the pointwise host operations and the broadcasts at an index -/

section Pointwise
variable {s : Shape} {φ : FTy}

theorem hexp_apply (x : FVec Ideal s φ) (i : s.Idx) : Host.exp x i = Ideal.exp (x i) := rfl
theorem htanh_apply (x : FVec Ideal s φ) (i : s.Idx) : Host.tanh x i = Ideal.tanh (x i) := rfl
theorem hdivf_apply (x y : FVec Ideal s φ) (i : s.Idx) : Host.divf x y i = Ideal.div (x i) (y i) := rfl
theorem hnegf_apply (x : FVec Ideal s φ) (i : s.Idx) : Host.negf x i = -(x i) := rfl
theorem habsf_apply (x : FVec Ideal s φ) (i : s.Idx) : Host.absf x i = max (x i) (-(x i)) := rfl

end Pointwise

section Broadcasts
variable {α : Type}

/-- A scalar splat reads the scalar everywhere. -/
theorem bcast_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 fun a => a.elim0

/-- A vector given a unit leading axis reads the vector at the column. -/
theorem bcast_lead {n : Nat} (h : (⟨1, ![n]⟩ : Shape).BroadcastsInDim ⟨2, ![1, n]⟩ ![1]) (x : (⟨1, ![n]⟩ : Shape).Idx → α)
    (z : Fin 1) (m : Fin n) : broadcastInDim ⟨2, ![1, n]⟩ ![1] h x (ix2 z m) = x (ix1 m) := by
  refine broadcastInDim_apply _ h x (ix2 z m) (ix1 m) fun a => ?_
  match a with
  | ⟨0, _⟩ =>
    show m.val = if n = 1 then 0 else m.val
    split_ifs with hn
    · have := m.isLt; omega
    · rfl

/-- A one-row matrix repeated down the rows reads its only row. -/
theorem bcast_rows {R n : Nat} (h : (⟨2, ![1, n]⟩ : Shape).BroadcastsInDim ⟨2, ![R, n]⟩ ![0, 1]) (x : (⟨2, ![1, n]⟩ : Shape).Idx → α)
    (b : Fin R) (m : Fin n) : broadcastInDim ⟨2, ![R, n]⟩ ![0, 1] h x (ix2 b m) = x (ix2 0 m) := by
  refine broadcastInDim_apply _ h x (ix2 b m) (ix2 0 m) fun a => ?_
  match a with
  | ⟨0, _⟩ => rfl
  | ⟨1, _⟩ =>
    show m.val = if n = 1 then 0 else m.val
    split_ifs with hn
    · have := m.isLt; omega
    · rfl

/-- A one-column matrix repeated along the columns reads its only column. -/
theorem bcast_cols {R n : Nat} (h : (⟨2, ![R, 1]⟩ : Shape).BroadcastsInDim ⟨2, ![R, n]⟩ ![0, 1]) (x : (⟨2, ![R, 1]⟩ : Shape).Idx → α)
    (b : Fin R) (m : Fin n) : broadcastInDim ⟨2, ![R, n]⟩ ![0, 1] h x (ix2 b m) = x (ix2 b 0) := by
  refine broadcastInDim_apply _ h x (ix2 b m) (ix2 b 0) fun a => ?_
  match a with
  | ⟨0, _⟩ =>
    show b.val = if R = 1 then 0 else b.val
    split_ifs with hR
    · have := b.isLt; omega
    · rfl
  | ⟨1, _⟩ => rfl

/-- A vector given a unit trailing axis reads the vector at the row. -/
theorem bcast_trail {R : Nat} (h : (⟨1, ![R]⟩ : Shape).BroadcastsInDim ⟨2, ![R, 1]⟩ ![0]) (x : (⟨1, ![R]⟩ : Shape).Idx → α)
    (b : Fin R) (z : Fin 1) : broadcastInDim ⟨2, ![R, 1]⟩ ![0] h x (ix2 b z) = x (ix1 b) := by
  refine broadcastInDim_apply _ h x (ix2 b z) (ix1 b) fun a => ?_
  match a with
  | ⟨0, _⟩ =>
    show b.val = if R = 1 then 0 else b.val
    split_ifs with hR
    · have := b.isLt; omega
    · rfl

/-- A vector repeated down the rows of a matrix reads the vector at the column. -/
theorem bcast_col_of_vec {R n : Nat} (h : (⟨1, ![n]⟩ : Shape).BroadcastsInDim ⟨2, ![R, n]⟩ ![1]) (x : (⟨1, ![n]⟩ : Shape).Idx → α)
    (b : Fin R) (m : Fin n) : broadcastInDim ⟨2, ![R, n]⟩ ![1] h x (ix2 b m) = x (ix1 m) := by
  refine broadcastInDim_apply _ h x (ix2 b m) (ix1 m) fun a => ?_
  match a with
  | ⟨0, _⟩ =>
    show m.val = if n = 1 then 0 else m.val
    split_ifs with hn
    · have := m.isLt; omega
    · rfl

end Broadcasts

end Cert.ReferenceIdeal.RefValue

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.RefValueB.lean ====
/-
  The reference's middle stages read at an index: the membership grade is the exponential of the negated squared
  distance over twice the squared width; the firing strength is the minimum from +∞ over the five antecedent
  positions of the flattened rule table; the normalised strength is the strength over the clamped sum of the absolute
  values along the row.
-/
import proofs.«113836_g58789512347992_cont_9to1_m_63_2_alg».proof.Proof.RefTerm
import proofs.«113836_g58789512347992_cont_9to1_m_63_2_alg».proof.Proof.Spec
import proofs.«113836_g58789512347992_cont_9to1_m_63_2_alg».proof.Proof.RefValueA
import proofs.«113836_g58789512347992_cont_9to1_m_63_2_alg».proof.Proof.LibDotPlain
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Idealize.ShloMosaic Idealize.ShloMosaic.ValueIdx Idealize.SL.Sem

variable [Facts]
open Facts₀ Facts

/-! ## The broadcasts at the program's shapes -/

section AtShapes
variable {α : Type}

theorem bc_rows_24 (x : S1x24.Idx → α) (b : Fin 4096) (m : Fin 24) :
    broadcastInDim S4096x24 ![0, 1] bcast_S1x24_S4096x24_0_1 x (ix2 b m) = x (ix2 0 m) := bcast_rows _ x b m
theorem bc_lead_24 (x : S24.Idx → α) (z : Fin 1) (m : Fin 24) :
    broadcastInDim S1x24 ![1] bcast_S24_S1x24_1 x (ix2 z m) = x (ix1 m) := bcast_lead _ x z m
theorem bc_rows_2 (x : S1x2.Idx → α) (b : Fin 4096) (j : Fin 2) :
    broadcastInDim S4096x2 ![0, 1] bcast_S1x2_S4096x2_0_1 x (ix2 b j) = x (ix2 0 j) := bcast_rows _ x b j
theorem bc_lead_2 (x : S2.Idx → α) (z : Fin 1) (j : Fin 2) :
    broadcastInDim S1x2 ![1] bcast_S2_S1x2_1 x (ix2 z j) = x (ix1 j) := bcast_lead _ x z j
theorem bc_cols_1750 (x : S4096x1.Idx → α) (b : Fin 4096) (r : Fin 1750) :
    broadcastInDim S4096x1750 ![0, 1] bcast_S4096x1_S4096x1750_0_1 x (ix2 b r) = x (ix2 b 0) := bcast_cols _ x b r
theorem bc_trail_4096 (x : S4096.Idx → α) (b : Fin 4096) (z : Fin 1) :
    broadcastInDim S4096x1 ![0] bcast_S4096_S4096x1_0 x (ix2 b z) = x (ix1 b) := bcast_trail _ x b z

end AtShapes

/-! ## The membership grades -/

theorem mem_apply (v0 : FVec Ideal S4096x24 .f32) (a1 a2 : FVec Ideal S24 .f32) (b : Fin 4096) (m : Fin 24) :
    mem v0 a1 a2 (ix2 b m)
      = Ideal.exp (Ideal.div (-((v0 (ix2 b m) - a1 (ix1 m)) * (v0 (ix2 b m) - a1 (ix1 m))))
          (Cert.Spec.two * (a2 (ix1 m) * a2 (ix1 m)))) := by
  unfold mem
  simp only [hexp_apply, hdivf_apply, hnegf_apply, mulf_apply, subf_apply]
  rw [bc_rows_24, bc_rows_24]
  simp only [mulf_apply]
  rw [bc_lead_24, bc_lead_24]
  rfl

/-! ## The minimum over a rule's five antecedents -/

/-- A reduced index of the `[4096, 1750, 5]` array with the antecedent's coordinate put back. -/
theorem lift_fire (hR : S4096x1750x5.Reduces [2] S4096x1750) (b : Fin 4096) (r : Fin 1750) (v : Fin 5) :
    hR.lift (ix2 b r) v = ix3 b r v := by
  funext c; apply Fin.ext
  fin_cases c <;> rfl

theorem fire_apply (x : FVec Ideal S4096x8750 .f32) (b : Fin 4096) (r : Fin 1750) :
    fire x (ix2 b r)
      = (Finset.univ : Finset (Fin 5)).fold min ⊤
          (fun v => x (ix2 b ⟨r.val * 5 + v.val, by have := r.isLt; have := v.isLt; omega⟩)) := by
  unfold fire
  simp only []
  have hR : S4096x1750x5.Reduces [2] S4096x1750 := by decide
  rw [Host.reduce_eq_fold_single FloatOps.minimumf _ _ reducesTo_S4096x1750x5_S4096x1750_d2 hR h_S_ (ix2 b r)]
  have htop : Ideal.ofBits .f32 0x7F800000#32 = (⊤ : EReal) := by simp [Ideal.ofBits, Ideal.ieee]
  have hf : (shapeCast S4096x1750x5 x shapeCasts_S4096x8750_S4096x1750x5 ∘ hR.lift (ix2 b r))
      = fun v : Fin 5 => x (ix2 b ⟨r.val * 5 + v.val, by have := r.isLt; have := v.isLt; omega⟩) := by
    funext v
    show shapeCast S4096x1750x5 x shapeCasts_S4096x8750_S4096x1750x5 (hR.lift (ix2 b r) v) = _
    rw [lift_fire hR b r v]
    refine shapeCast_apply x _ (ix3 b r v) _ ?_
    rw [Shape.rowMajor_val_two, Shape.rowMajor_val_three]
    show b.val * 8750 + (r.val * 5 + v.val) = (b.val * 1750 + r.val) * 5 + v.val
    omega
  show (Finset.univ : Finset (Fin 5)).fold min (Ideal.ofBits .f32 0x7F800000#32)
      (shapeCast S4096x1750x5 x shapeCasts_S4096x8750_S4096x1750x5 ∘ hR.lift (ix2 b r)) = _
  rw [hf, htop]
  rfl

/-! ## The division by the clamped sum of absolute values -/

theorem lift_row (hR : S4096x1750.Reduces [1] S4096) (b : Fin 4096) (r : Fin 1750) : hR.lift (ix1 b) r = ix2 b r := by
  funext c; apply Fin.ext
  fin_cases c <;> rfl

theorem normed_apply (x : FVec Ideal S4096x1750 .f32) (b : Fin 4096) (r : Fin 1750) :
    normed x (ix2 b r)
      = Ideal.div (x (ix2 b r)) (max (∑ r' : Fin 1750, max (x (ix2 b r')) (-(x (ix2 b r')))) Cert.Spec.eps) := by
  unfold normed
  simp only [hdivf_apply]
  rw [bc_cols_1750]
  simp only [maximumf_apply]
  rw [bc_trail_4096]
  have hR : S4096x1750.Reduces [1] S4096 := by decide
  have hs : Host.reduceAdd (F := Ideal) (φ := .f32) (Host.absf (F := Ideal) (φ := .f32) x) (constant (F := Ideal) S_ .f32 0x00000000#32)
      reducesTo_S4096x1750_S4096_d1 h_S_ (ix1 b) = ∑ r' : Fin 1750, max (x (ix2 b r')) (-(x (ix2 b r'))) := by
    show Ideal.hostReduceAdd reducesTo_S4096x1750_S4096_d1 (Host.absf (F := Ideal) (φ := .f32) x) (Ideal.ofBits .f32 0x00000000#32) (ix1 b) = _
    rw [Ideal.hostReduceAdd_single reducesTo_S4096x1750_S4096_d1 hR, Ideal.ofBits_zero_f32, zero_add]
    show ∑ k : Fin 1750, Host.absf (F := Ideal) (φ := .f32) x (hR.lift (ix1 b) k) = _
    refine Finset.sum_congr rfl fun k _ => ?_
    rw [lift_row hR b k, habsf_apply]
  rw [hs]
  rfl

end Cert.ReferenceIdeal.RefValue

end
-- ==== Proof.RefValueS.lean ====
/-
  The reference's three index-taking stages, read at an index.

  Each stage takes elements of an array along one axis at positions given by an array of index words.  As the program
  spells it: a negative word is wrapped around by adding the axis's length; the words are tested against [0, n - 1] and
  the test reduced by `and`; the elements are gathered at the words clamped into [0, n - 1]; where the test failed the
  result is replaced by a not-a-number.  On words that lie in [0, n) none of this does anything: the wrap keeps the
  word, the test is 1 everywhere, the clamp is the identity, and the stage reads the array at the word.
-/
import proofs.«113836_g58789512347992_cont_9to1_m_63_2_alg».proof.Proof.RefTerm
import proofs.«113836_g58789512347992_cont_9to1_m_63_2_alg».proof.Proof.Spec
import Idealize.ShloMosaic.Lib.ValueIdx
import Idealize.ShloMosaic.Lib.Affine
import Idealize.ShloMosaic.Lib.Pipeline.Value

noncomputable section

namespace Cert.ReferenceIdeal.RefValue

open Idealize.ShloMosaic Idealize.ShloMosaic.ValueIdx Idealize.SL.Sem

/-! ## General facts: index words, the in-bounds mask, and the two gathers -/

section General

/-- A left fold by `and` from 1 over words that are all 1 is 1. -/
theorem foldl_andi_one {ι : Type} (g : ι → BitVec 1) :
    ∀ (L : List ι) (r : BitVec 1), r = 1#1 → (∀ n ∈ L, g n = 1#1) → L.foldl (fun r n => IntOp.andi r (g n)) r = 1#1
  | [], _, hr, _ => hr
  | a :: L, r, hr, h => by
    rw [List.foldl_cons]
    exact foldl_andi_one g L _ (IntOp.andi_eq_one.2 ⟨hr, h a List.mem_cons_self⟩)
      fun n hn => h n (List.mem_cons_of_mem _ hn)

/-- A reduce by `and` from 1 of an array that is 1 everywhere is 1 everywhere. -/
theorem reduce_andi_one {s t u : Shape} {axes : List (Fin s.rank)} (p : s.Idx → BitVec 1) (init : u.Idx → BitVec 1)
    (h : s.ReducesTo axes t) (hu : 0 < u.numel) (hp : ∀ i, p i = 1#1) (hinit : ∀ i, init i = 1#1) (j : t.Idx) :
    Host.reduce IntOp.andi p init h hu j = 1#1 := by
  unfold Host.reduce
  exact foldl_andi_one (fun n => p (s.rowMajor.symm n)) _ _ (hinit _) fun n _ => hp _

/-- A non-negative index word is kept by the wrap-around of negative indices. -/
theorem word_keep (w nb : BitVec 32) (h0 : 0 ≤ w.toInt) :
    Scalar.select (IntOp.cmpi .slt w 0#32) (IntOp.addi w nb) w = w := by
  have hz : IntOp.cmpi .slt w 0#32 = 0#1 :=
    eq_zero_of_ne_one fun e => by
      have := IntOp.cmpi_slt.1 e
      have hz0 : (0#32 : BitVec 32).toInt = 0 := by decide
      omega
  rw [hz, select_zero]

/-- A word in [0, c] passes the in-bounds test. -/
theorem word_mask (w c : BitVec 32) (h0 : 0 ≤ w.toInt) (h1 : w.toInt ≤ c.toInt) :
    IntOp.andi (IntOp.cmpi .sge w 0#32) (IntOp.cmpi .sle w c) = 1#1 :=
  IntOp.andi_eq_one.2 ⟨IntOp.cmpi_sge.2 (by have hz0 : (0#32 : BitVec 32).toInt = 0 := by decide
                                            omega), IntOp.cmpi_sle.2 h1⟩

/-- On a word in [0, n) the gather's clamp into [0, n - 1] is the word itself, which is its remainder by n. -/
theorem word_clamp (w : BitVec 32) (n : ℕ) (h0 : 0 ≤ w.toInt) (h1 : w.toInt < n) :
    min w.toInt.toNat (n - 1) = w.toNat % n := by
  have e := BitVec.toInt_eq_toNat_cond w
  have := w.isLt
  have hlt : w.toNat < n := by omega
  rw [Nat.mod_eq_of_lt hlt]
  omega

end General

/-! ## The two gathers read at an index -/

section Gather

variable {α : Type}

/-- Taking columns of a matrix: operand [R, N], index words [K, 1], result [R, K]; whole columns (slice [R, 1]), the
    one start component going to the operand's axis 1. -/
abbrev colDims (R N K : ℕ)
    (wf : GatherDims.WF ⟨2, ![R, N]⟩ ⟨2, ![K, 1]⟩ ⟨2, ![R, K]⟩ [0] [1] [] [1] [] 1 ![R, 1]) :
    GatherDims ⟨2, ![R, N]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The column gather at (b, k): row b of the column whose number is word k, read signed and clamped into [0, N - 1]. -/
theorem gather_col_apply {R N K w : ℕ} (hN : 0 < N)
    (wf : GatherDims.WF ⟨2, ![R, N]⟩ ⟨2, ![K, 1]⟩ ⟨2, ![R, K]⟩ [0] [1] [] [1] [] 1 ![R, 1])
    (x : (⟨2, ![R, N]⟩ : Shape).Idx → α) (idx : IVec ⟨2, ![K, 1]⟩ w) (b : Fin R) (k : Fin K) :
    Host.gather (colDims R N K wf) x idx (ix2 b k)
      = x (ix2 b ⟨min (idx (ix2 k (0 : Fin 1))).toInt.toNat (N - 1), by omega⟩) := by
  unfold Host.gather
  congr 1
  funext a
  refine Fin.ext ?_
  match a with
  | ⟨0, _⟩ =>
    show (colDims R N K wf).start (ix2 b k) idx 0 + (colDims R N K wf).batchCoord (ix2 b k) 0
      + (colDims R N K wf).offCoord (ix2 b k) 0 = b.val
    rw [GatherDims.batchCoord_eq_zero _ _ _ List.not_mem_nil]
    unfold GatherDims.start
    rw [dif_neg (show ¬ (0 : Fin 2) ∈ (colDims R N K wf).startIndexMap from
      fun h => absurd (List.mem_singleton.1 h) (show ¬ ((0 : Fin 2) = 1) by decide))]
    unfold GatherDims.offCoord
    rw [dif_pos (show (0 : Fin 2) ∈ (colDims R N K wf).sKept from
      ((GatherDims.mem_sKept _ _).2 ⟨fun h => absurd (List.mem_singleton.1 h) (show ¬ ((0 : Fin 2) = 1) by decide), List.not_mem_nil⟩))]
    simp only [Nat.zero_add, Nat.add_zero]
    rfl
  | ⟨1, _⟩ =>
    show (colDims R N K wf).start (ix2 b k) idx 1 + (colDims R N K wf).batchCoord (ix2 b k) 1
      + (colDims R N K wf).offCoord (ix2 b k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N K wf).startIndexMap from List.mem_singleton.mpr rfl)]
    have hsi : (colDims R N K wf).siIdx (ix2 b k) ⟨List.idxOf (1 : Fin 2) (colDims R N K wf).startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

/-- Taking elements of a vector: operand [N], index words [K, 1], result [K]. -/
abbrev eltDims (N K : ℕ)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- The element gather at k: the element whose number is word k, read signed and clamped into [0, N - 1]. -/
theorem gather_elt_apply {N K w : ℕ} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (eltDims N K wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (eltDims N K wf).start (ix1 k) idx 0 + (eltDims N K wf).batchCoord (ix1 k) 0
    + (eltDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltDims N K wf).startIndexMap from List.mem_singleton.mpr rfl)]
  have hsi : (eltDims N K wf).siIdx (ix1 k) ⟨List.idxOf (0 : Fin 1) (eltDims N K wf).startIndexMap,
      List.idxOf_lt_length_iff.2 (List.mem_singleton.mpr rfl)⟩ = ix2 k (0 : Fin 1) := by
    funext c; refine Fin.ext ?_
    match c with
    | ⟨0, _⟩ => rfl
    | ⟨1, _⟩ => rfl
  rw [hsi]
  rfl

end Gather

/-! ## The stages' shared steps -/

section Steps

variable {α : Type}

/-- A vector as a one-column matrix reads, at (k, z), the vector's element k. -/
theorem bc_trail {K : ℕ} (hb : (⟨1, ![K]⟩ : Shape).BroadcastsInDim ⟨2, ![K, 1]⟩ ![0])
    (x : (⟨1, ![K]⟩ : Shape).Idx → α) (k : Fin K) (z : Fin 1) :
    broadcastInDim ⟨2, ![K, 1]⟩ ![0] hb x (ix2 k z) = x (ix1 k) :=
  broadcastInDim_apply _ hb x _ _ fun a => by
    obtain rfl : a = 0 := Subsingleton.elim _ _
    show k.val = if K = 1 then 0 else k.val
    split <;> omega

/-- A select whose condition is 1 is its first branch. -/
theorem select_of_one (c : BitVec 1) (a b : α) (hc : c = 1#1) : Scalar.select c a b = a := by
  rw [hc, select_one]

/-- The in-bounds test of the wrapped word, for a word in [0, m]. -/
theorem word_mask_keep (w nb z c : BitVec 32) (n : ℤ) (hz : z = 0#32) (hc : c.toInt + 1 = n) (h0 : 0 ≤ w.toInt)
    (h1 : w.toInt < n) :
    IntOp.andi (IntOp.cmpi .sge (Scalar.select (IntOp.cmpi .slt w 0#32) (IntOp.addi w nb) w) z)
      (IntOp.cmpi .sle (Scalar.select (IntOp.cmpi .slt w 0#32) (IntOp.addi w nb) w) c) = 1#1 := by
  rw [word_keep w nb h0, hz]
  exact word_mask w c h0 (by omega)

end Steps

/-! ## The three stages -/

variable [Facts]
open Facts₀ Facts

/-- Stage 0 (each membership's input variable): under words in [0, 5), row b's entry m is row b of the input at
    variable number word m. -/
theorem take0_apply (a0 : FVec Ideal S4096x5 .f32) (a8 : IVec S24 32)
    (h : ∀ m : Fin 24, 0 ≤ (a8 (ix1 m)).toInt ∧ (a8 (ix1 m)).toInt < 5) (b : Fin 4096) (m : Fin 24) :
    take0 a0 a8 (ix2 b m) = a0 (ix2 b (Cert.Spec.dec 5 (by decide) (a8 (ix1 m)))) := by
  have h' : ∀ J : S24.Idx, 0 ≤ (a8 J).toInt ∧ (a8 J).toInt < 5 := fun J => by rw [eq_ix1 J]; exact h (J 0)
  unfold take0
  simp only []
  refine (select_of_one _ _ _ (reduce_andi_one _ _ _ _ ?_ (fun _ => rfl) _)).trans ?_
  · intro i
    exact word_mask_keep _ _ _ _ 5 rfl rfl (h' _).1 (h' _).2
  · refine (gather_col_apply (by decide) _ a0 _ b m).trans ?_
    refine congrArg a0 (congrArg (ix2 b) (Fin.ext ?_))
    refine (congrArg (fun v : BitVec 32 => min v.toInt.toNat (5 - 1))
      ((bc_trail _ _ m 0).trans (word_keep _ _ (h m).1))).trans ?_
    exact word_clamp _ 5 (h m).1 (h m).2

/-- Stage 1 (each rule's antecedent grades): under words in [0, 24), row b's entry k is row b of the grades at
    membership number word k. -/
theorem take1_apply (x : FVec Ideal S4096x24 .f32) (idx : IVec S8750 32)
    (h : ∀ k : Fin 8750, 0 ≤ (idx (ix1 k)).toInt ∧ (idx (ix1 k)).toInt < 24) (b : Fin 4096) (k : Fin 8750) :
    take1 x idx (ix2 b k) = x (ix2 b (Cert.Spec.dec 24 (by decide) (idx (ix1 k)))) := by
  have h' : ∀ J : S8750.Idx, 0 ≤ (idx J).toInt ∧ (idx J).toInt < 24 := fun J => by rw [eq_ix1 J]; exact h (J 0)
  unfold take1
  simp only []
  refine (select_of_one _ _ _ (reduce_andi_one _ _ _ _ ?_ (fun _ => rfl) _)).trans ?_
  · intro i
    exact word_mask_keep _ _ _ _ 24 rfl rfl (h' _).1 (h' _).2
  · refine (gather_col_apply (by decide) _ x _ b k).trans ?_
    refine congrArg x (congrArg (ix2 b) (Fin.ext ?_))
    refine (congrArg (fun v : BitVec 32 => min v.toInt.toNat (24 - 1))
      ((bc_trail _ _ k 0).trans (word_keep _ _ (h k).1))).trans ?_
    exact word_clamp _ 24 (h k).1 (h k).2

/-- Stage 2 (each rule's consequent centres): under words in [0, 18), entry k is the centre whose number is word k. -/
theorem take2_apply (x : FVec Ideal S18 .f32) (idx : IVec S3500 32)
    (h : ∀ k : Fin 3500, 0 ≤ (idx (ix1 k)).toInt ∧ (idx (ix1 k)).toInt < 18) (k : Fin 3500) :
    take2 x idx (ix1 k) = x (ix1 (Cert.Spec.dec 18 (by decide) (idx (ix1 k)))) := by
  have h' : ∀ J : S3500.Idx, 0 ≤ (idx J).toInt ∧ (idx J).toInt < 18 := fun J => by rw [eq_ix1 J]; exact h (J 0)
  unfold take2
  simp only []
  refine (select_of_one _ _ _ (reduce_andi_one _ _ _ _ ?_ (fun _ => rfl) _)).trans ?_
  · intro i
    exact word_mask_keep _ _ _ _ 18 rfl rfl (h' _).1 (h' _).2
  · refine (gather_elt_apply (by decide) _ x _ k).trans ?_
    refine congrArg x (congrArg ix1 (Fin.ext ?_))
    refine (congrArg (fun v : BitVec 32 => min v.toInt.toNat (18 - 1))
      ((bc_trail _ _ k 0).trans (word_keep _ _ (h k).1))).trans ?_
    exact word_clamp _ 18 (h k).1 (h k).2

end Cert.ReferenceIdeal.RefValue

end
-- ==== Proof.RefValue.lean ====
/-
  The reference program's result is the specification's function of the nine argument arrays.

  Reading the result term at row `b`, output `j`, outermost operation first: the affine map and the hyperbolic tangent
  are pointwise; the contraction is the sum over the 1750 rules of the normalised firing strength times the consequent
  centre; the normalised strength is the firing strength over the clamped sum of absolute values; the firing strength
  is the minimum over the five antecedent grades, found through the flattened rule table; a grade is the Gaussian of
  the taken input variable.  Under the domain every index word is in range, so each taking reads the operand at the
  word.  The result is the specification's `outR` with no rearrangement.
-/
import proofs.«113836_g58789512347992_cont_9to1_m_63_2_alg».proof.Proof.RefTerm
import proofs.«113836_g58789512347992_cont_9to1_m_63_2_alg».proof.Proof.Spec
import proofs.«113836_g58789512347992_cont_9to1_m_63_2_alg».proof.Proof.RefValueA
import proofs.«113836_g58789512347992_cont_9to1_m_63_2_alg».proof.Proof.RefValueB
import proofs.«113836_g58789512347992_cont_9to1_m_63_2_alg».proof.Proof.RefValueS
import proofs.«113836_g58789512347992_cont_9to1_m_63_2_alg».proof.Proof.LibDotPlain
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Idealize.ShloMosaic Idealize.ShloMosaic.ValueIdx Idealize.SL.Sem

variable [Facts]
open Facts₀ Facts

/-! ## The chain: each intermediate array of the program is the corresponding family of the specification -/

section Chain
open Cert.Spec

variable (a0 : FVec Ideal S4096x5 .f32) (a1 a2 : FVec Ideal S24 .f32) (a3 : FVec Ideal S18 .f32) (a4 a5 : FVec Ideal S2 .f32)
  (a6 : IVec S1750x5 32) (a7 : IVec S1750x2 32) (a8 : IVec S24 32)

/-- The flattened antecedent table at position `r * 5 + v` is the table at `(r, v)`. -/
theorem flat6_apply (r : Fin 1750) (v : Fin 5) :
    shapeCast S8750 a6 shapeCasts_S1750x5_S8750 (ix1 ⟨r.val * 5 + v.val, by have := r.isLt; have := v.isLt; omega⟩) = a6 (ix2 r v) := by
  refine shapeCast_apply a6 _ _ (ix2 r v) ?_
  rw [Shape.rowMajor_val_two, Shape.rowMajor_val_one]
  rfl

/-- The flattened consequent table at position `r * 2 + j` is the table at `(r, j)`. -/
theorem flat7_apply (r : Fin 1750) (j : Fin 2) :
    shapeCast S3500 a7 shapeCasts_S1750x2_S3500 (ix1 ⟨r.val * 2 + j.val, by have := r.isLt; have := j.isLt; omega⟩) = a7 (ix2 r j) := by
  refine shapeCast_apply a7 _ _ (ix2 r j) ?_
  rw [Shape.rowMajor_val_two, Shape.rowMajor_val_one]
  rfl

/-- Every word of the flattened antecedent table is a word of the table, so in range. -/
theorem flat6_rng (h : ∀ i, 0 ≤ (a6 i).toInt ∧ (a6 i).toInt < 24) (k : Fin 8750) :
    0 ≤ (shapeCast S8750 a6 shapeCasts_S1750x5_S8750 (ix1 k)).toInt ∧ (shapeCast S8750 a6 shapeCasts_S1750x5_S8750 (ix1 k)).toInt < 24 := by
  have e : k = ⟨(⟨k.val / 5, by have := k.isLt; omega⟩ : Fin 1750).val * 5 + (⟨k.val % 5, Nat.mod_lt _ (by decide)⟩ : Fin 5).val,
      by have := k.isLt; omega⟩ := Fin.ext (by show k.val = k.val / 5 * 5 + k.val % 5; omega)
  rw [e, flat6_apply]
  exact h _

theorem flat7_rng (h : ∀ i, 0 ≤ (a7 i).toInt ∧ (a7 i).toInt < 18) (k : Fin 3500) :
    0 ≤ (shapeCast S3500 a7 shapeCasts_S1750x2_S3500 (ix1 k)).toInt ∧ (shapeCast S3500 a7 shapeCasts_S1750x2_S3500 (ix1 k)).toInt < 18 := by
  have e : k = ⟨(⟨k.val / 2, by have := k.isLt; omega⟩ : Fin 1750).val * 2 + (⟨k.val % 2, Nat.mod_lt _ (by decide)⟩ : Fin 2).val,
      by have := k.isLt; omega⟩ := Fin.ext (by show k.val = k.val / 2 * 2 + k.val % 2; omega)
  rw [e, flat7_apply]
  exact h _

variable (h : Dom a0 a1 a2 a3 a4 a5 a6 a7 a8)
include h

/-- The grades array is the specification's membership grade. -/
theorem grades_apply (b : Fin 4096) (m : Fin 24) :
    mem (take0 a0 a8) a1 a2 (ix2 b m) = memR (xF a0) (vF a1) (vF a2) (vmF a8) b m := by
  rw [mem_apply, take0_apply a0 a8 (fun m => h.vm_rng (ix1 m)) b m]
  rfl

/-- The firing strengths array is the specification's firing strength. -/
theorem firing_apply (b : Fin 4096) (r : Fin 1750) :
    fire (take1 (mem (take0 a0 a8) a1 a2) (shapeCast S8750 a6 shapeCasts_S1750x5_S8750)) (ix2 b r)
      = fireR (xF a0) (vF a1) (vF a2) (vmF a8) (irF a6) b r := by
  rw [fire_apply]
  unfold fireR
  congr 1
  funext v
  rw [take1_apply _ _ (flat6_rng a6 h.ir_rng) b, flat6_apply, grades_apply a0 a1 a2 a3 a4 a5 a6 a7 a8 h]
  rfl

/-- The consequent centres taken through the flattened table and folded back to `[1750, 2]`. -/
theorem centres_apply (r : Fin 1750) (j : Fin 2) :
    shapeCast S1750x2 (take2 a3 (shapeCast S3500 a7 shapeCasts_S1750x2_S3500)) shapeCasts_S3500_S1750x2 (ix2 r j)
      = vF a3 (orF a7 r j) := by
  rw [shapeCast_apply _ shapeCasts_S3500_S1750x2 (ix2 r j) (ix1 ⟨r.val * 2 + j.val, by have := r.isLt; have := j.isLt; omega⟩)
    (by rw [Shape.rowMajor_val_two, Shape.rowMajor_val_one]; rfl),
    take2_apply a3 _ (flat7_rng a7 h.or_rng), flat7_apply]
  rfl

theorem term_eq_G : term a0 a1 a2 a3 a4 a5 a6 a7 a8 = G a0 a1 a2 a3 a4 a5 a6 a7 a8 := by
  funext i
  obtain ⟨b, j, rfl⟩ : ∃ (b : Fin 4096) (j : Fin 2), i = ix2 b j := ⟨i 0, i 1, eq_ix2 i⟩
  unfold term
  simp only [addf_apply, mulf_apply, htanh_apply]
  rw [bc_rows_2, bc_rows_2, bc_lead_2, bc_lead_2]
  rw [Cert.LibDotPlain.dotGeneral_apply dot_S4096x1750_S1750x2_S4096x2_1_0_0_1_n_n rfl rfl rfl rfl rfl rfl]
  simp only [normed_apply, firing_apply a0 a1 a2 a3 a4 a5 a6 a7 a8 h, centres_apply a0 a1 a2 a3 a4 a5 a6 a7 a8 h]
  rfl

end Chain

end Cert.ReferenceIdeal.RefValue

end
-- ==== Proof.lean ====
/-
  The kernel and its reference compute one function.

  The kernel evaluates a fuzzy-rule network by matrix products against one-hot matrices it builds from the rule tables;
  the reference gathers.  Both results are the function `Cert.Spec.G` of the nine argument arrays: the kernel's array is
  the kernel's spelling `GK` of it (block by block, `KValue`), which over the precondition's domain — finite inputs, no
  zero width, every index word in the range of the axis it indexes — is `G` (`SpecLaw`); the reference's result term is
  `G` over the same domain (`RefValue`).  The three frames are the generated frames of the two kernels and the
  reference's run with its result dropped; the idealization rewrote nothing, so `preserves` is trivial.
-/
import proofs.«113836_g58789512347992_cont_9to1_m_63_2_alg».proof.Defs
import proofs.«113836_g58789512347992_cont_9to1_m_63_2_alg».proof.Proof.Gen.Kernel
import proofs.«113836_g58789512347992_cont_9to1_m_63_2_alg».proof.Proof.Gen.Kernel.Skeleton
import proofs.«113836_g58789512347992_cont_9to1_m_63_2_alg».proof.Proof.Gen.Kernel.Launch
import proofs.«113836_g58789512347992_cont_9to1_m_63_2_alg».proof.Proof.Gen.Kernel.Points
import proofs.«113836_g58789512347992_cont_9to1_m_63_2_alg».proof.Proof.Gen.Kernel.Frame
import proofs.«113836_g58789512347992_cont_9to1_m_63_2_alg».proof.Proof.Gen.KernelIdeal
import proofs.«113836_g58789512347992_cont_9to1_m_63_2_alg».proof.Proof.Gen.KernelIdeal.Skeleton
import proofs.«113836_g58789512347992_cont_9to1_m_63_2_alg».proof.Proof.Gen.KernelIdeal.Launch
import proofs.«113836_g58789512347992_cont_9to1_m_63_2_alg».proof.Proof.Gen.KernelIdeal.Points
import proofs.«113836_g58789512347992_cont_9to1_m_63_2_alg».proof.Proof.Gen.KernelIdeal.Frame
import proofs.«113836_g58789512347992_cont_9to1_m_63_2_alg».proof.Proof.Gen.KernelIdeal.Value
import proofs.«113836_g58789512347992_cont_9to1_m_63_2_alg».proof.Proof.Gen.ReferenceIdeal
import proofs.«113836_g58789512347992_cont_9to1_m_63_2_alg».proof.Proof.Gen.Pre_finite_inputs
import proofs.«113836_g58789512347992_cont_9to1_m_63_2_alg».proof.Proof.PreFacts
import proofs.«113836_g58789512347992_cont_9to1_m_63_2_alg».proof.Proof.SpecLaw
import proofs.«113836_g58789512347992_cont_9to1_m_63_2_alg».proof.Proof.KValue
import proofs.«113836_g58789512347992_cont_9to1_m_63_2_alg».proof.Proof.RefRun
import proofs.«113836_g58789512347992_cont_9to1_m_63_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both programs end with `G` of the argument arrays: the kernel through its own spelling and the law that joins the
    two spellings on the precondition's domain, the reference directly. -/
theorem algebraic : Cert.algebraic_KernelIdeal_ReferenceIdeal := by
  intro m ρ m' ρ' hpre hagree
  have hdom : ∀ c : Dev Cert.KernelIdeal.nD, Cert.Spec.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
    fun c => Cert.Spec.dom_of_pre _ _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Spec.GK_eq_G _ _ _ _ _ _ _ _ _ (hdom c)), (h c).2⟩)
      (Cert.KernelIdeal.KValue.run m ρ hdom)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8⟩ := hagree c
    rw [e0, e1, e2, e3, e4, e5, e6, e7, e8]
    exact Cert.ReferenceIdeal.RefValue.term_eq_G _ _ _ _ _ _ _ _ _ (hdom c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
